-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x3x64x64 : Shape := ⟨4, ![1024, 3, 64, 64]⟩
abbrev S1024x17 : Shape := ⟨2, ![1024, 17]⟩
abbrev S1024x128 : Shape := ⟨2, ![1024, 128]⟩
abbrev S12305x1024 : Shape := ⟨2, ![12305, 1024]⟩
abbrev S1024 : Shape := ⟨1, ![1024]⟩
abbrev S128 : Shape := ⟨1, ![128]⟩
abbrev S145x1024 : Shape := ⟨2, ![145, 1024]⟩
abbrev S1024x12288 : Shape := ⟨2, ![1024, 12288]⟩
abbrev S12288 : Shape := ⟨1, ![12288]⟩
abbrev S_ : Shape := ⟨0, ![]⟩

class Facts : Prop where
  bcast_S_S1024x3x64x64 : S_.BroadcastsInDim S1024x3x64x64 (![] : Fin 0 → Fin S1024x3x64x64.rank)
  reducesTo_S1024x3x64x64_S_d0_1_2_3 : S1024x3x64x64.ReducesTo [0, 1, 2, 3] S_
  h_S_ : 0 < S_.numel
  bcast_S_S1024x17 : S_.BroadcastsInDim S1024x17 (![] : Fin 0 → Fin S1024x17.rank)
  reducesTo_S1024x17_S_d0_1 : S1024x17.ReducesTo [0, 1] S_
  bcast_S_S1024x128 : S_.BroadcastsInDim S1024x128 (![] : Fin 0 → Fin S1024x128.rank)
  reducesTo_S1024x128_S_d0_1 : S1024x128.ReducesTo [0, 1] S_
  bcast_S_S12305x1024 : S_.BroadcastsInDim S12305x1024 (![] : Fin 0 → Fin S12305x1024.rank)
  reducesTo_S12305x1024_S_d0_1 : S12305x1024.ReducesTo [0, 1] S_
  bcast_S_S1024 : S_.BroadcastsInDim S1024 (![] : Fin 0 → Fin S1024.rank)
  reducesTo_S1024_S_d0 : S1024.ReducesTo [0] S_
  bcast_S_S128 : S_.BroadcastsInDim S128 (![] : Fin 0 → Fin S128.rank)
  reducesTo_S128_S_d0 : S128.ReducesTo [0] S_
  bcast_S_S145x1024 : S_.BroadcastsInDim S145x1024 (![] : Fin 0 → Fin S145x1024.rank)
  reducesTo_S145x1024_S_d0_1 : S145x1024.ReducesTo [0, 1] S_
  bcast_S_S1024x12288 : S_.BroadcastsInDim S1024x12288 (![] : Fin 0 → Fin S1024x12288.rank)
  reducesTo_S1024x12288_S_d0_1 : S1024x12288.ReducesTo [0, 1] S_
  bcast_S_S12288 : S_.BroadcastsInDim S12288 (![] : Fin 0 → Fin S12288.rank)
  reducesTo_S12288_S_d0 : S12288.ReducesTo [0] S_

variable [Facts]

def fn_part3 {F : FTy → Type} [FloatOps F] (main_arg11 : FVec F S1024x12288 .f32) (main_arg12 : FVec F S12288 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x12288 .f32 := Host.absf main_arg11
  let main_cst_20 : FVec F S_ .f32 := constant S_ .f32 0x7F800000#32
  let main_v55 : FVec F S1024x12288 .f32 := broadcastInDim S1024x12288 ![] bcast_S_S1024x12288 main_cst_20
  let main_v56 : IVec S1024x12288 1 := cmpf .olt main_v54 main_v55
  let main_c_21 : IVec S_ 1 := constantI S_ 1 1#1
  let main_v57 : IVec S_ 1 := (fun x v => Host.reduce IntOp.andi x v reducesTo_S1024x12288_S_d0_1 h_S_) main_v56 main_c_21
  let main_v58 : IVec S_ 1 := andi main_v53 main_v57
  let main_v59 : FVec F S12288 .f32 := Host.absf main_arg12
  let main_cst_22 : FVec F S_ .f32 := constant S_ .f32 0x7F800000#32
  let main_v60 : FVec F S12288 .f32 := broadcastInDim S12288 ![] bcast_S_S12288 main_cst_22
  let main_v61 : IVec S12288 1 := cmpf .olt main_v59 main_v60
  let main_c_23 : IVec S_ 1 := constantI S_ 1 1#1
  let main_v62 : IVec S_ 1 := (fun x v => Host.reduce IntOp.andi x v reducesTo_S12288_S_d0 h_S_) main_v61 main_c_23
  let main_v63 : IVec S_ 1 := andi main_v58 main_v62
  main_v63

def fn_part2 {F : FTy → Type} [FloatOps F] (main_arg7 : FVec F S1024x128 .f32) (main_arg8 : FVec F S128 .f32) (main_arg9 : FVec F S145x1024 .f32) (main_arg10 : FVec F S1024 .f32) (main_arg11 : FVec F S1024x12288 .f32) (main_arg12 : FVec F S12288 .f32) (main_v33 : IVec S_ 1) : IVec S_ 1 :=
  let main_v34 : FVec F S1024x128 .f32 := Host.absf main_arg7
  let main_cst_12 : FVec F S_ .f32 := constant S_ .f32 0x7F800000#32
  let main_v35 : FVec F S1024x128 .f32 := broadcastInDim S1024x128 ![] bcast_S_S1024x128 main_cst_12
  let main_v36 : IVec S1024x128 1 := cmpf .olt main_v34 main_v35
  let main_c_13 : IVec S_ 1 := constantI S_ 1 1#1
  let main_v37 : IVec S_ 1 := (fun x v => Host.reduce IntOp.andi x v reducesTo_S1024x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S145x1024 .f32 := Host.absf main_arg9
  let main_cst_16 : FVec F S_ .f32 := constant S_ .f32 0x7F800000#32
  let main_v45 : FVec F S145x1024 .f32 := broadcastInDim S145x1024 ![] bcast_S_S145x1024 main_cst_16
  let main_v46 : IVec S145x1024 1 := cmpf .olt main_v44 main_v45
  let main_c_17 : IVec S_ 1 := constantI S_ 1 1#1
  let main_v47 : IVec S_ 1 := (fun x v => Host.reduce IntOp.andi x v reducesTo_S145x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S1024 .f32) (main_arg5 : FVec F S1024x128 .f32) (main_arg6 : FVec F S128 .f32) (main_arg7 : FVec F S1024x128 .f32) (main_arg8 : FVec F S128 .f32) (main_arg9 : FVec F S145x1024 .f32) (main_arg10 : FVec F S1024 .f32) (main_arg11 : FVec F S1024x12288 .f32) (main_arg12 : FVec F S12288 .f32) (main_v13 : IVec S_ 1) (main_v16 : IVec S12305x1024 1) : IVec S_ 1 :=
  let main_c_5 : IVec S_ 1 := constantI S_ 1 1#1
  let main_v17 : IVec S_ 1 := (fun x v => Host.reduce IntOp.andi x v reducesTo_S12305x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x128 .f32 := Host.absf main_arg5
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1024x3x64x64 .f32) (main_arg1 : FVec F S1024x17 .f32) (main_arg2 : FVec F S1024x128 .f32) (main_arg3 : FVec F S12305x1024 .f32) (main_arg4 : FVec F S1024 .f32) (main_arg5 : FVec F S1024x128 .f32) (main_arg6 : FVec F S128 .f32) (main_arg7 : FVec F S1024x128 .f32) (main_arg8 : FVec F S128 .f32) (main_arg9 : FVec F S145x1024 .f32) (main_arg10 : FVec F S1024 .f32) (main_arg11 : FVec F S1024x12288 .f32) (main_arg12 : FVec F S12288 .f32) : IVec S_ 1 :=
  let main_v0 : FVec F S1024x3x64x64 .f32 := Host.absf main_arg0
  let main_cst : FVec F S_ .f32 := constant S_ .f32 0x7F800000#32
  let main_v1 : FVec F S1024x3x64x64 .f32 := broadcastInDim S1024x3x64x64 ![] bcast_S_S1024x3x64x64 main_cst
  let main_v2 : IVec S1024x3x64x64 1 := cmpf .olt main_v0 main_v1
  let main_c : IVec S_ 1 := constantI S_ 1 1#1
  let main_v3 : IVec S_ 1 := (fun x v => Host.reduce IntOp.andi x v reducesTo_S1024x3x64x64_S_d0_1_2_3 h_S_) main_v2 main_c
  let main_v4 : FVec F S1024x17 .f32 := Host.absf main_arg1
  let main_cst_0 : FVec F S_ .f32 := constant S_ .f32 0x7F800000#32
  let main_v5 : FVec F S1024x17 .f32 := broadcastInDim S1024x17 ![] bcast_S_S1024x17 main_cst_0
  let main_v6 : IVec S1024x17 1 := cmpf .olt main_v4 main_v5
  let main_c_1 : IVec S_ 1 := constantI S_ 1 1#1
  let main_v7 : IVec S_ 1 := (fun x v => Host.reduce IntOp.andi x v reducesTo_S1024x17_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S12305x1024 .f32 := Host.absf main_arg3
  let main_cst_4 : FVec F S_ .f32 := constant S_ .f32 0x7F800000#32
  let main_v15 : FVec F S12305x1024 .f32 := broadcastInDim S12305x1024 ![] bcast_S_S12305x1024 main_cst_4
  let main_v16 : IVec S12305x1024 1 := cmpf .olt main_v14 main_v15
  fn_part1 (F := F) main_arg4 main_arg5 main_arg6 main_arg7 main_arg8 main_arg9 main_arg10 main_arg11 main_arg12 main_v13 main_v16
-- ==== Kernel.lean ====
abbrev S1024x3x64x64 : Shape := ⟨4, ![1024, 3, 64, 64]⟩
abbrev S1024x17 : Shape := ⟨2, ![1024, 17]⟩
abbrev S1024x128 : Shape := ⟨2, ![1024, 128]⟩
abbrev S12305x1024 : Shape := ⟨2, ![12305, 1024]⟩
abbrev S1024 : Shape := ⟨1, ![1024]⟩
abbrev S128 : Shape := ⟨1, ![128]⟩
abbrev S145x1024 : Shape := ⟨2, ![145, 1024]⟩
abbrev S1024x12288 : Shape := ⟨2, ![1024, 12288]⟩
abbrev S12288 : Shape := ⟨1, ![12288]⟩
abbrev S17x1024 : Shape := ⟨2, ![17, 1024]⟩
abbrev S128x1024 : Shape := ⟨2, ![128, 1024]⟩
abbrev S1x1024 : Shape := ⟨2, ![1, 1024]⟩
abbrev S1x128 : Shape := ⟨2, ![1, 128]⟩
abbrev S1024x1024 : Shape := ⟨2, ![1024, 1024]⟩
abbrev S128x12288 : Shape := ⟨2, ![128, 12288]⟩
abbrev S128x17 : Shape := ⟨2, ![128, 17]⟩
abbrev S128x128 : Shape := ⟨2, ![128, 128]⟩
abbrev S12288x1024 : Shape := ⟨2, ![12288, 1024]⟩
abbrev S1x12288 : Shape := ⟨2, ![1, 12288]⟩

abbrev nBuf : Space → Nat
  | .hbm => 25
  | .vmem => 27
  | .smem => 0
  | _ => 0

abbrev bufTy : (tb : Table) → Fin (tcTables nBuf tb) → BufTy
  | .hbm, ⟨0, _⟩ => ⟨S1024x3x64x64, .f32⟩
  | .hbm, ⟨1, _⟩ => ⟨S1024x17, .f32⟩
  | .hbm, ⟨2, _⟩ => ⟨S1024x128, .f32⟩
  | .hbm, ⟨3, _⟩ => ⟨S12305x1024, .f32⟩
  | .hbm, ⟨4, _⟩ => ⟨S1024, .f32⟩
  | .hbm, ⟨5, _⟩ => ⟨S1024x128, .f32⟩
  | .hbm, ⟨6, _⟩ => ⟨S128, .f32⟩
  | .hbm, ⟨7, _⟩ => ⟨S1024x128, .f32⟩
  | .hbm, ⟨8, _⟩ => ⟨S128, .f32⟩
  | .hbm, ⟨9, _⟩ => ⟨S145x1024, .f32⟩
  | .hbm, ⟨10, _⟩ => ⟨S1024, .f32⟩
  | .hbm, ⟨11, _⟩ => ⟨S1024x12288, .f32⟩
  | .hbm, ⟨12, _⟩ => ⟨S12288, .f32⟩
  | .hbm, ⟨13, _⟩ => ⟨S1024x12288, .f32⟩
  | .hbm, ⟨14, _⟩ => ⟨S17x1024, .f32⟩
  | .hbm, ⟨15, _⟩ => ⟨S128x1024, .f32⟩
  | .hbm, ⟨16, _⟩ => ⟨S17x1024, .f32⟩
  | .hbm, ⟨17, _⟩ => ⟨S1x1024, .f32⟩
  | .hbm, ⟨18, _⟩ => ⟨S1x128, .f32⟩
  | .hbm, ⟨19, _⟩ => ⟨S1x128, .f32⟩
  | .hbm, ⟨20, _⟩ => ⟨S1x1024, .f32⟩
  | .hbm, ⟨21, _⟩ => ⟨S1024x1024, .bf16⟩
  | .hbm, ⟨22, _⟩ => ⟨S1x12288, .f32⟩
  | .hbm, ⟨23, _⟩ => ⟨S1024x12288, .f32⟩
  | .hbm, ⟨24, _⟩ => ⟨S1024x3x64x64, .f32⟩
  | .local _ .vmem, ⟨0, _⟩ => ⟨S128x12288, .f32⟩
  | .local _ .vmem, ⟨1, _⟩ => ⟨S128x12288, .f32⟩
  | .local _ .vmem, ⟨2, _⟩ => ⟨S1024x1024, .f32⟩
  | .local _ .vmem, ⟨3, _⟩ => ⟨S1024x1024, .f32⟩
  | .local _ .vmem, ⟨4, _⟩ => ⟨S128x17, .f32⟩
  | .local _ .vmem, ⟨5, _⟩ => ⟨S128x17, .f32⟩
  | .local _ .vmem, ⟨6, _⟩ => ⟨S128x128, .f32⟩
  | .local _ .vmem, ⟨7, _⟩ => ⟨S128x128, .f32⟩
  | .local _ .vmem, ⟨8, _⟩ => ⟨S17x1024, .f32⟩
  | .local _ .vmem, ⟨9, _⟩ => ⟨S1x1024, .f32⟩
  | .local _ .vmem, ⟨10, _⟩ => ⟨S1024x128, .f32⟩
  | .local _ .vmem, ⟨11, _⟩ => ⟨S1x128, .f32⟩
  | .local _ .vmem, ⟨12, _⟩ => ⟨S1024x128, .f32⟩
  | .local _ .vmem, ⟨13, _⟩ => ⟨S1x128, .f32⟩
  | .local _ .vmem, ⟨14, _⟩ => ⟨S128x1024, .f32⟩
  | .local _ .vmem, ⟨15, _⟩ => ⟨S17x1024, .f32⟩
  | .local _ .vmem, ⟨16, _⟩ => ⟨S1x1024, .f32⟩
  | .local _ .vmem, ⟨17, _⟩ => ⟨S128x1024, .bf16⟩
  | .local _ .vmem, ⟨18, _⟩ => ⟨S128x1024, .bf16⟩
  | .local _ .vmem, ⟨19, _⟩ => ⟨S12288x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x1024, .f32⟩
  | .local _ .vmem, ⟨23, _⟩ => ⟨S1x1024, .f32⟩
  | .local _ .vmem, ⟨24, _⟩ => ⟨S1x1024, .f32⟩
  | .local _ .vmem, ⟨25, _⟩ => ⟨S1024x1024, .f32⟩
  | .local _ .vmem, ⟨26, _⟩ => ⟨S1024x1024, .f32⟩
  | _, _ => ⟨S1024x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc1_sem0_0 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c12_i32 : BitVec 32 := 12#32
  let v0 : BitVec 1 := Scalar.cmpi .slt arg0 c12_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c1024_i32 : BitVec 32 := 1024#32
  let v8 : BitVec 32 := Scalar.muli arg0 c1024_i32
  let v9 : Index := Scalar.indexCast v8
  let c0_3 : Index := 0#32
  ![v9.toNat, 0]
def k0_cond2 (i : grid0.Coords) : BitVec 1 :=
  let arg0 : BitVec 32 := BitVec.ofNat 32 (i 0).val
  let c12_i32_0 : BitVec 32 := 12#32
  let v3 : BitVec 1 := Scalar.cmpi .sge arg0 c12_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S17x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S17x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1024x3x64x64_S1024x12288 : S1024x3x64x64.ShapeCasts S1024x12288
  slices_S12305x1024_S17x1024_12288_0 : S12305x1024.Slices ![12288, 0] S17x1024
  slices_S145x1024_S128x1024_0_0 : S145x1024.Slices ![0, 0] S128x1024
  slices_S145x1024_S17x1024_128_0 : S145x1024.Slices ![128, 0] S17x1024
  shapeCasts_S1024_S1x1024 : S1024.ShapeCasts S1x1024
  shapeCasts_S128_S1x128 : S128.ShapeCasts S1x128
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  inb_S128x12288_S128x12288_0_0 : ∀ a, (![0, 0] : Fin 2 → Nat) a + S128x12288.size a ≤ S128x12288.size a
  h_S128x12288 : 0 < S128x12288.numel
  shapeCasts_S128x12288_S128x12288 : S128x12288.ShapeCasts S128x12288
  inb_S128x17_S128x17_0_0 : ∀ a, (![0, 0] : Fin 2 → Nat) a + S128x17.size a ≤ S128x17.size a
  h_S128x17 : 0 < S128x17.numel
  inb_S12288x1024_S12288x1024_0_0 : ∀ a, (![0, 0] : Fin 2 → Nat) a + S12288x1024.size a ≤ S12288x1024.size a
  h_S12288x1024 : 0 < S12288x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S17x1024_S17x1024_0_0 : ∀ a, (![0, 0] : Fin 2 → Nat) a + S17x1024.size a ≤ S17x1024.size a
  h_S17x1024 : 0 < S17x1024.numel
  shapeCasts_S17x1024_S17x1024 : S17x1024.ShapeCasts S17x1024
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  packedbf16_S128x1024_S128x1024_0_0 : (Rect.unit (s := S128x1024) ![0, 0] S128x1024.size inb_S128x1024_S128x1024_0_0).PackedRows (EltTy.packing .bf16)
  shapeCasts_S12288_S1x12288 : S12288.ShapeCasts S1x12288
  broadcasts_S1x1024_S1024x1024 : S1x1024.Broadcasts S1024x1024
  shapeCasts_S1024x12288_S1024x3x64x64 : S1024x12288.ShapeCasts S1024x3x64x64
  dot_S128x12288_S12288x1024_S128x1024_1_0_0_1_n_n_wf : DotDims.WF S128x12288 S12288x1024 S128x1024 [1] [0] [0] [1] [] []
  dot_S128x17_S17x1024_S128x1024_1_0_0_1_n_n_wf : DotDims.WF S128x17 S17x1024 S128x1024 [1] [0] [0] [1] [] []
  dot_S128x1024_S1024x128_S128x128_1_0_0_1_n_n_wf : DotDims.WF S128x1024 S1024x128 S128x128 [1] [0] [0] [1] [] []
  dot_S128x128_S128x1024_S128x1024_1_0_0_1_n_n_wf : DotDims.WF S128x128 S128x1024 S128x1024 [1] [0] [0] [1] [] []
  dot_S1024x1024_S1024x1024_S1024x1024_1_0_0_1_n_n_wf : DotDims.WF S1024x1024 S1024x1024 S1024x1024 [1] [0] [0] [1] [] []
  hrank0 : 0 < grid0.rank
  k0_off1_inb : ∀ i : grid0.Coords, ∀ (k0_h1 : k0_cond1 i = 1#1), ∀ a, (k0_off1 i) a + S1024x1024.size a ≤ S12288x1024.size a
  k0_off1_packedbf16 : ∀ i : grid0.Coords, ∀ (k0_h1 : k0_cond1 i = 1#1), (Rect.unit (s := S12288x1024) (k0_off1 i) S1024x1024.size (k0_off1_inb i k0_h1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x12288.size a ≤ S1024x12288.size a
  hwx0_0 : ∀ i : grid0.Coords, EltTy.bits .f32 = 32 ∨ (Rect.block (s := S1024x12288) S128x12288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1024.size a < S12305x1024.size a
  hwx0_1 : ∀ i : grid0.Coords, EltTy.bits .f32 = 32 ∨ (Rect.unit (s := S12305x1024) (fun a => cc0_transform_1 i a * S1024x1024.size a) (fun a => (Pipeline.Clip.of (cc0_transform_1 i a) (S1024x1024.size a) (S12305x1024.size a)).extent (S1024x1024.size a)) fun a => Pipeline.Clip.inb (Pipeline.Clip.ok_of (hstart0_1 i a))).WholeWords (EltTy.packing .f32)
  hwxs0_1 : ∀ i : grid0.Coords, EltTy.bits .f32 = 32 ∨ (Rect.unit (s := S1024x1024) (fun _ => 0) (fun a => (Pipeline.Clip.of (cc0_transform_1 i a) (S1024x1024.size a) (S12305x1024.size a)).extent (S1024x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x17.size a ≤ S1024x17.size a
  hwx0_2 : ∀ i : grid0.Coords, EltTy.bits .f32 = 32 ∨ (Rect.block (s := S1024x17) S128x17.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S1024x128.size a
  hwx0_3 : ∀ i : grid0.Coords, EltTy.bits .f32 = 32 ∨ (Rect.block (s := S1024x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S17x1024.size a ≤ S17x1024.size a
  hwx0_4 : ∀ i : grid0.Coords, EltTy.bits .f32 = 32 ∨ (Rect.block (s := S17x1024) S17x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S1024x128.size a
  hwx0_6 : ∀ i : grid0.Coords, EltTy.bits .f32 = 32 ∨ (Rect.block (s := S1024x128) S1024x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S1024x128.size a
  hwx0_8 : ∀ i : grid0.Coords, EltTy.bits .f32 = 32 ∨ (Rect.block (s := S1024x128) S1024x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S128x1024.size a
  hwx0_10 : ∀ i : grid0.Coords, EltTy.bits .f32 = 32 ∨ (Rect.block (s := S128x1024) S128x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S17x1024.size a ≤ S17x1024.size a
  hwx0_11 : ∀ i : grid0.Coords, EltTy.bits .f32 = 32 ∨ (Rect.block (s := S17x1024) S17x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x1024.size a ≤ S1024x1024.size a
  hwx0_13 : ∀ i : grid0.Coords, EltTy.bits .bf16 = 32 ∨ (Rect.block (s := S1024x1024) S128x1024.size (cc0_transform_13 i) (hinb0_13 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .bf16 = 32 ∨ (Rect.block (s := S1024x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x12288.size a
  hwx1_1 : ∀ i : grid1.Coords, EltTy.bits .f32 = 32 ∨ (Rect.block (s := S1024x12288) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x12288.size a
  hwx1_2 : ∀ i : grid1.Coords, EltTy.bits .f32 = 32 ∨ (Rect.block (s := S1x12288) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x12288.size a
  hwx1_3 : ∀ i : grid1.Coords, EltTy.bits .f32 = 32 ∨ (Rect.block (s := S1024x12288) S1024x1024.size (cc1_transform_3 i) (hinb1_3 i)).WholeWords (EltTy.packing .f32)

variable [Facts₀]

def dot_S128x12288_S12288x1024_S128x1024_1_0_0_1_n_n : DotDims S128x12288 S12288x1024 S128x1024 where
  lhsContracting := [1]
  rhsContracting := [0]
  lhsNonContracting := [0]
  rhsNonContracting := [1]
  lhsBatch := []
  rhsBatch := []
  wf := dot_S128x12288_S12288x1024_S128x1024_1_0_0_1_n_n_wf
def dot_S128x17_S17x1024_S128x1024_1_0_0_1_n_n : DotDims S128x17 S17x1024 S128x1024 where
  lhsContracting := [1]
  rhsContracting := [0]
  lhsNonContracting := [0]
  rhsNonContracting := [1]
  lhsBatch := []
  rhsBatch := []
  wf := dot_S128x17_S17x1024_S128x1024_1_0_0_1_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S128x12288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg3) S1024x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg1) S128x17.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S17x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1024x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1024x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S128x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S17x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S128x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | ⟨_ + 14, h⟩ => absurd h (Nat.not_lt.2 (Nat.le_add_left _ _))

abbrev win1_0 : Pipeline.Window sig grid1 :=
  Pipeline.Window.ofSpec (Memref.whole main_v8) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x3x64x64 : Shape := ⟨4, ![1024, 3, 64, 64]⟩
abbrev S1024x17 : Shape := ⟨2, ![1024, 17]⟩
abbrev S1024x128 : Shape := ⟨2, ![1024, 128]⟩
abbrev S12305x1024 : Shape := ⟨2, ![12305, 1024]⟩
abbrev S1024 : Shape := ⟨1, ![1024]⟩
abbrev S128 : Shape := ⟨1, ![128]⟩
abbrev S145x1024 : Shape := ⟨2, ![145, 1024]⟩
abbrev S1024x12288 : Shape := ⟨2, ![1024, 12288]⟩
abbrev S12288 : Shape := ⟨1, ![12288]⟩
abbrev S1024x12305 : Shape := ⟨2, ![1024, 12305]⟩
abbrev S1024x1024 : Shape := ⟨2, ![1024, 1024]⟩
abbrev S1x1024 : Shape := ⟨2, ![1, 1024]⟩
abbrev S_ : Shape := ⟨0, ![]⟩
abbrev S1x128 : Shape := ⟨2, ![1, 128]⟩
abbrev S1024x145 : Shape := ⟨2, ![1024, 145]⟩
abbrev S1x12288 : Shape := ⟨2, ![1, 12288]⟩

abbrev nBuf : Space → Nat
  | .hbm => 76
  | .vmem => 0
  | .smem => 0
  | _ => 0

abbrev bufTy : (tb : Table) → Fin (tcTables nBuf tb) → BufTy
  | .hbm, ⟨0, _⟩ => ⟨S1024x3x64x64, .f32⟩
  | .hbm, ⟨1, _⟩ => ⟨S1024x17, .f32⟩
  | .hbm, ⟨2, _⟩ => ⟨S1024x128, .f32⟩
  | .hbm, ⟨3, _⟩ => ⟨S12305x1024, .f32⟩
  | .hbm, ⟨4, _⟩ => ⟨S1024, .f32⟩
  | .hbm, ⟨5, _⟩ => ⟨S1024x128, .f32⟩
  | .hbm, ⟨6, _⟩ => ⟨S128, .f32⟩
  | .hbm, ⟨7, _⟩ => ⟨S1024x128, .f32⟩
  | .hbm, ⟨8, _⟩ => ⟨S128, .f32⟩
  | .hbm, ⟨9, _⟩ => ⟨S145x1024, .f32⟩
  | .hbm, ⟨10, _⟩ => ⟨S1024, .f32⟩
  | .hbm, ⟨11, _⟩ => ⟨S1024x12288, .f32⟩
  | .hbm, ⟨12, _⟩ => ⟨S12288, .f32⟩
  | .hbm, ⟨13, _⟩ => ⟨S1024x12288, .f32⟩
  | .hbm, ⟨14, _⟩ => ⟨S1024x12305, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .i1⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x128, .f32⟩
  | .hbm, ⟨34, _⟩ => ⟨S1x128, .f32⟩
  | .hbm, ⟨35, _⟩ => ⟨S1024x128, .f32⟩
  | .hbm, ⟨36, _⟩ => ⟨S1024x128, .f32⟩
  | .hbm, ⟨37, _⟩ => ⟨S1024x128, .f32⟩
  | .hbm, ⟨38, _⟩ => ⟨S1x128, .f32⟩
  | .hbm, ⟨39, _⟩ => ⟨S1024x128, .f32⟩
  | .hbm, ⟨40, _⟩ => ⟨S1024x128, .f32⟩
  | .hbm, ⟨41, _⟩ => ⟨S1024x128, .f32⟩
  | .hbm, ⟨42, _⟩ => ⟨S1024x128, .f32⟩
  | .hbm, ⟨43, _⟩ => ⟨S1024x128, .f32⟩
  | .hbm, ⟨44, _⟩ => ⟨S1024x145, .f32⟩
  | .hbm, ⟨45, _⟩ => ⟨S1024x1024, .f32⟩
  | .hbm, ⟨46, _⟩ => ⟨S1x1024, .f32⟩
  | .hbm, ⟨47, _⟩ => ⟨S1024x1024, .f32⟩
  | .hbm, ⟨48, _⟩ => ⟨S1024x1024, .f32⟩
  | .hbm, ⟨49, _⟩ => ⟨S_, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S1024x1024, .f32⟩
  | .hbm, ⟨54, _⟩ => ⟨S1024x1024, .i1⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S1024x1024, .f32⟩
  | .hbm, ⟨63, _⟩ => ⟨S1024x12288, .f32⟩
  | .hbm, ⟨64, _⟩ => ⟨S1x12288, .f32⟩
  | .hbm, ⟨65, _⟩ => ⟨S1024x12288, .f32⟩
  | .hbm, ⟨66, _⟩ => ⟨S1024x12288, .f32⟩
  | .hbm, ⟨67, _⟩ => ⟨S1024x12288, .f32⟩
  | .hbm, ⟨68, _⟩ => ⟨S1024x12288, .f32⟩
  | .hbm, ⟨69, _⟩ => ⟨S_, .f32⟩
  | .hbm, ⟨70, _⟩ => ⟨S1024x12288, .f32⟩
  | .hbm, ⟨71, _⟩ => ⟨S1024x12288, .f32⟩
  | .hbm, ⟨72, _⟩ => ⟨S_, .f32⟩
  | .hbm, ⟨73, _⟩ => ⟨S1024x12288, .f32⟩
  | .hbm, ⟨74, _⟩ => ⟨S1024x12288, .f32⟩
  | .hbm, ⟨75, _⟩ => ⟨S1024x3x64x64, .f32⟩
  | _, _ => ⟨S1024x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst : Ref sig .tc := ⟨.hbm, 69, rfl⟩
abbrev main_v30 : Ref sig .tc := ⟨.hbm, 70, rfl⟩
abbrev main_v31 : Ref sig .tc := ⟨.hbm, 71, rfl⟩
abbrev main_cst_0 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩

abbrev nD : Nat := 1
abbrev τ : Topo := Topo.v7x

variable {F : FTy → Type} [FloatOps F]

class Facts₀ : Prop where
  shapeCasts_S1024x3x64x64_S1024x12288 : S1024x3x64x64.ShapeCasts S1024x12288
  concatenates_S1024x12288_S1024x17_S1024x12305_d1 : Shape.Concatenates [S1024x12288, S1024x17] S1024x12305 1
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  concatenates_S1024x128_S1024x17_S1024x145_d1 : Shape.Concatenates [S1024x128, S1024x17] S1024x145 1
  bcast_S12288_S1x12288_1 : S12288.BroadcastsInDim S1x12288 (![1] : Fin 1 → Fin S1x12288.rank)
  bcast_S1x12288_S1024x12288_0_1 : S1x12288.BroadcastsInDim S1024x12288 (![0, 1] : Fin 2 → Fin S1024x12288.rank)
  bcast_S_S1024x12288 : S_.BroadcastsInDim S1024x12288 (![] : Fin 0 → Fin S1024x12288.rank)
  shapeCasts_S1024x12288_S1024x3x64x64 : S1024x12288.ShapeCasts S1024x3x64x64
  dot_S1024x12305_S12305x1024_S1024x1024_1_0_0_1_n_n_wf : DotDims.WF S1024x12305 S12305x1024 S1024x1024 [1] [0] [0] [1] [] []
  dot_S1024x1024_S1024x128_S1024x128_1_0_0_1_n_n_wf : DotDims.WF S1024x1024 S1024x128 S1024x128 [1] [0] [0] [1] [] []
  dot_S1024x145_S145x1024_S1024x1024_1_0_0_1_n_n_wf : DotDims.WF S1024x145 S145x1024 S1024x1024 [1] [0] [0] [1] [] []
  dot_S1024x1024_S1024x12288_S1024x12288_1_0_0_1_n_n_wf : DotDims.WF S1024x1024 S1024x12288 S1024x12288 [1] [0] [0] [1] [] []

variable [Facts₀]

def dot_S1024x12305_S12305x1024_S1024x1024_1_0_0_1_n_n : DotDims S1024x12305 S12305x1024 S1024x1024 where
  lhsContracting := [1]
  rhsContracting := [0]
  lhsNonContracting := [0]
  rhsNonContracting := [1]
  lhsBatch := []
  rhsBatch := []
  wf := dot_S1024x12305_S12305x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x145_S145x1024_S1024x1024_1_0_0_1_n_n : DotDims S1024x145 S145x1024 S1024x1024 where
  lhsContracting := [1]
  rhsContracting := [0]
  lhsNonContracting := [0]
  rhsNonContracting := [1]
  lhsBatch := []
  rhsBatch := []
  wf := dot_S1024x145_S145x1024_S1024x1024_1_0_0_1_n_n_wf
def dot_S1024x1024_S1024x12288_S1024x12288_1_0_0_1_n_n : DotDims S1024x1024 S1024x12288 S1024x12288 where
  lhsContracting := [1]
  rhsContracting := [0]
  lhsNonContracting := [0]
  rhsNonContracting := [1]
  lhsBatch := []
  rhsBatch := []
  wf := dot_S1024x1024_S1024x12288_S1024x12288_1_0_0_1_n_n_wf

class Facts : Prop extends Facts₀ where

variable [Facts]
-- ==== Proof.KR0Load.lean ====
import proofs.«111944_g88321707475356_cont_sun_m_1037_20_alg».proof.Proof.Gen.Kernel.Launch
import proofs.«111944_g88321707475356_cont_sun_m_1037_20_alg».proof.Proof.Gen.Kernel.Skeleton
import proofs.«111944_g88321707475356_cont_sun_m_1037_20_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of the first kernel at a point of its loading phase (the first conditional taken, the second not):
    it reads the weight slab in its staging buffer and stores the slab, narrowed, into the rows of the resident
    copy that the point owns. Nothing else is touched. -/

set_option maxHeartbeats 2000000 in
noncomputable def runLoad (c : Dev nD) (i : grid0.Coords) (arg1 : Memref sig .tc .vmem S128x12288 .f32) (harg1 : arg1.IsWhole) (arg2 : Memref sig .tc .vmem S1024x1024 .f32) (harg2 : arg2.IsWhole) (arg3 : Memref sig .tc .vmem S128x17 .f32) (harg3 : arg3.IsWhole) (arg4 : Memref sig .tc .vmem S128x128 .f32) (harg4 : arg4.IsWhole) (arg5 : Memref sig .tc .vmem S17x1024 .f32) (harg5 : arg5.IsWhole) (arg6 : Memref sig .tc .vmem S1x1024 .f32) (harg6 : arg6.IsWhole) (arg7 : Memref sig .tc .vmem S1024x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S17x1024 .f32) (harg12 : arg12.IsWhole) (arg13 : Memref sig .tc .vmem S1x1024 .f32) (harg13 : arg13.IsWhole) (arg14 : Memref sig .tc .vmem S128x1024 .bf16) (harg14 : arg14.IsWhole) (arg15 : Memref sig .tc .vmem S12288x1024 .bf16) (harg15 : arg15.IsWhole)
    (hc1 : k0_cond1 i = 1#1) (hc2 : ¬ k0_cond2 i = 1#1)
    (x1 : Vec F S1024x1024 .f32) :
    { LS : List (View.Piece (Elt F) S12288x1024 .bf16) //
      ∀ (xs : Vec F S12288x1024 .bf16) (E : Set ℕ) (K : PUnit → sProp 𝕄),
        iprop(owns (c : Thread nD τ) arg2 fullShare x1 ∗ owns (c : Thread nD τ) arg15 fullShare xs
            ∗ (iprop(owns (c : Thread nD τ) arg2 fullShare x1 ∗ (∃ f, ⌜arg15.view.read (Elt F) f = xs⌝ ∗ arg15.view.loc (c : Thread nD τ) ↦[arg15.view.set]{fullShare} arg15.view.writes (Elt F) f LS)) -∗ K ⟨⟩))
          ⊢ wp frame (wpE (defs₀ (F := F)) Variants.none c none) E (cc0__stage_a i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xs E K => ?run⟩
  case run =>
    simp only [cc0__stage_a_eq_skeleton]; unfold cc0__stage_a_skel
    unfold owns
    iintro ⟨⟨%f1, %hf1, H1⟩, ⟨%fs, %hfs, HS⟩, Hk⟩
    obtain rfl := harg2.eq_unread hf1
    sl_exec (disch := first | exact hc1 | exact hc2)
    sl_step
    iapply Hk
    isplitl [H1]
    · iexists _; isplitr; · ipureintro; exact harg2.read_unread _
      iexact H1
    iexists fs; isplitr; · ipureintro; exact hfs
    iexact HS

end Cert.Kernel.Hand

end
-- ==== Proof.KR0Encode.lean ====
import proofs.«111944_g88321707475356_cont_sun_m_1037_20_alg».proof.Proof.KR0Load

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of the first kernel at a point of its encoding phase (the first conditional not taken, the second
    taken): it reads the row slab of the images, labels and noise, every weight and bias, and the whole resident
    copy of the encoder weights, and stores one block of the decoder's hidden layer into the output's staging
    buffer. The resident copy and the inputs are left as they were. -/

set_option maxHeartbeats 4000000 in
noncomputable def runEncode (c : Dev nD) (i : grid0.Coords) (arg1 : Memref sig .tc .vmem S128x12288 .f32) (harg1 : arg1.IsWhole) (arg2 : Memref sig .tc .vmem S1024x1024 .f32) (harg2 : arg2.IsWhole) (arg3 : Memref sig .tc .vmem S128x17 .f32) (harg3 : arg3.IsWhole) (arg4 : Memref sig .tc .vmem S128x128 .f32) (harg4 : arg4.IsWhole) (arg5 : Memref sig .tc .vmem S17x1024 .f32) (harg5 : arg5.IsWhole) (arg6 : Memref sig .tc .vmem S1x1024 .f32) (harg6 : arg6.IsWhole) (arg7 : Memref sig .tc .vmem S1024x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S17x1024 .f32) (harg12 : arg12.IsWhole) (arg13 : Memref sig .tc .vmem S1x1024 .f32) (harg13 : arg13.IsWhole) (arg14 : Memref sig .tc .vmem S128x1024 .bf16) (harg14 : arg14.IsWhole) (arg15 : Memref sig .tc .vmem S12288x1024 .bf16) (harg15 : arg15.IsWhole)
    (hc1 : ¬ k0_cond1 i = 1#1) (hc2 : k0_cond2 i = 1#1)
    (x0 : Vec F S128x12288 .f32) (x2 : Vec F S128x17 .f32) (x3 : Vec F S128x128 .f32) (x4 : Vec F S17x1024 .f32) (x5 : Vec F S1x1024 .f32) (x6 : Vec F S1024x128 .f32) (x7 : Vec F S1x128 .f32) (x8 : Vec F S1024x128 .f32) (x9 : Vec F S1x128 .f32) (x10 : Vec F S128x1024 .f32) (x11 : Vec F S17x1024 .f32) (x12 : Vec F S1x1024 .f32) (xs : Vec F S12288x1024 .bf16) :
    { L : List (View.Piece (Elt F) S128x1024 .bf16) //
      ∀ (E : Set ℕ) (K : PUnit → sProp 𝕄),
        iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xs
            ∗ (iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L) ∗ owns (c : Thread nD τ) arg15 fullShare xs) -∗ K ⟨⟩))
          ⊢ wp frame (wpE (defs₀ (F := F)) Variants.none c none) E (cc0__stage_a i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__stage_a_eq_skeleton]; unfold cc0__stage_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d, %fo, -, HO⟩, ⟨%fs, %hfs, HS⟩, Hk⟩
    obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg15.eq_unread hfs
    sl_exec (disch := first | exact hc1 | exact hc2)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HO]
    · iexists fo; iexact HO
    iexists _; isplitr; · ipureintro; exact harg15.read_unread _
    iexact HS

end Cert.Kernel.Hand

end
-- ==== Proof.KR0Dat.lean ====
import proofs.«111944_g88321707475356_cont_sun_m_1037_20_alg».proof.Proof.KR0Encode
import Idealize.ShloMosaic.Lib.ValueIdx
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The first kernel's proof data at the contents `V` its region is entered with.
    Points 0–11 store, one slab of 1024 rows each, the narrowed encoder weights into the resident copy; points 12–19
    read the whole copy. The region's invariant therefore says of the resident copy, before point `n`, only that
    the slabs of the points below `min n 12` are in place; from point 12 on that determines it everywhere. -/

section
variable (V : (c : Dev nD) → (b : Ref sig .tc) → Buf (Elt F) ((c : Thread nD τ).loc b))

/-! ## Facts decided over the grid's twenty points -/

theorem hcond1 : ∀ t : Fin cfg0.N, k0_cond1 (grid0.coords t) = 1#1 ↔ t.val < 12 :=
  (by decide +kernel : ∀ t : Fin grid0.N, k0_cond1 (grid0.coords t) = 1#1 ↔ t.val < 12)
theorem hcond2 : ∀ t : Fin cfg0.N, k0_cond2 (grid0.coords t) = 1#1 ↔ 12 ≤ t.val :=
  (by decide +kernel : ∀ t : Fin grid0.N, k0_cond2 (grid0.coords t) = 1#1 ↔ 12 ≤ t.val)
/-- The weight window's block index never passes 11, so no fetched block overhangs the 12305 rows. -/
theorem clip0_1 : ∀ (i : cfg0.grid.Coords) a, (cfg0.win 1).clip i a = none := by decide +kernel
theorem idle0_13 : ∀ t : Fin cfg0.N, t.val < 12 → cfg0.idle 13 (grid0.coords t) = true :=
  (by decide +kernel : ∀ t : Fin grid0.N, t.val < 12 → cfg0.idle 13 (grid0.coords t) = true)
theorem live0_13 : ∀ t : Fin cfg0.N, 12 ≤ t.val → cfg0.idle 13 (grid0.coords t) = false :=
  (by decide +kernel : ∀ t : Fin grid0.N, 12 ≤ t.val → cfg0.idle 13 (grid0.coords t) = false)
theorem noFlush0_13 : ∀ t : Fin cfg0.N, t.val < 12 → (cfg0.win 13).flush t = false :=
  (by decide +kernel : ∀ t : Fin grid0.N, t.val < 12 → win0_13.flush t = false)
/-- The slab of point `t` starts at row `1024 t`. -/
theorem off0 : ∀ t : Fin cfg0.N, t.val < 12 → k0_off1 (grid0.coords t) = ![1024 * t.val, 0] :=
  (by decide +kernel : ∀ t : Fin grid0.N, t.val < 12 → k0_off1 (grid0.coords t) = ![1024 * t.val, 0])

/-! ## The windows' staging memrefs, the resident copy, the inputs' contents -/

abbrev ms0_0 (t : Fin cfg0.N) : Memref sig .tc .vmem S128x12288 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x17 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S17x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S17x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x1024 .bf16 := win0_13.stage (cfg0.slots t 13)
abbrev hs0_13 (t : Fin cfg0.N) : (ms0_13 t).IsWhole := hstage0_13 ((cfg0.slots t 13).cast nbuf0_13)
/-- The resident copy of the encoder weights: a whole scoped buffer of the kernel's own. -/
abbrev scM0 : Memref sig .tc .vmem S12288x1024 .bf16 := Memref.whole cc0_scratch0
abbrev VS0 : View sig .tc .vmem S12288x1024 .bf16 := scM0.view
abbrev VO0_13 : View sig .tc .vmem S128x1024 .bf16 := (Memref.whole cc0_stg13_0 : Memref sig .tc .vmem S128x1024 .bf16).view

/-- The windows' arrays as the region finds them. -/
abbrev A0 (c : Dev nD) : (w : Fin cfg0.W) → Buf (Elt F) ((cfg0.win w).arr.view.loc (c.tc : Thread nD τ)) :=
  fun w => V c (Pipeline.arrRef spec0 w)

/-- What input window `w`'s current staging buffer holds at point `t`: the block last fetched into it. -/
def held0 (c : Dev nD) (w : Fin cfg0.W) (t : Fin cfg0.N) : (cfg0.win w).block.Idx → Elt F (cfg0.win w).elt :=
  Pipeline.heldIn cfg0 (A0 V c) w t.val t.isLt

/-! ## The slab a loading point stores, and the resident copy -/

/-- The pieces point `t`'s store leaves in the resident copy (one piece: its slab). -/
def slabL (c : Dev nD) (t : Fin cfg0.N) (h : t.val < 12) : List (View.Piece (Elt F) S12288x1024 .bf16) :=
  (runLoad c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0 (Memref.isWhole_whole _) ((hcond1 t).mpr h) (fun h2 => absurd ((hcond2 t).mp h2) (by omega)) (held0 V c 1 t)).1

/-- The slab of point `t`: the weight block in the window's staging buffer, narrowed. -/
def slab (c : Dev nD) (t : Fin cfg0.N) : Vec F S1024x1024 .bf16 :=
  k0_pay1 (View.readAt (Elt F) (ms0_1 t).view (Rect.unit (s := S1024x1024) ![0, 0] S1024x1024.size inb_S1024x1024_S1024x1024_0_0).toLoadRect ((hs0_1 t).unread (held0 V c 1 t)))

theorem slabL_eq (c : Dev nD) (t : Fin cfg0.N) (h : t.val < 12) :
    slabL V c t h = [⟨Rect.unit (s := S12288x1024) (k0_off1 (grid0.coords t)) S1024x1024.size (k0_off1_inb _ ((hcond1 t).mpr h)), slab V c t⟩] := by
  unfold slabL slab runLoad; rfl

/-- Contents `f` of the resident copy have the slabs of the points below `n` (and below 12) in place:
    row `1024 k + p`, column `q` is slab `k` at `(p, q)`. -/
def ScrOk (c : Dev nD) (n : ℕ) (f : Vec F S12288x1024 .bf16) : Prop :=
  ∀ (k : Fin cfg0.N) (p q : Fin 1024) (r : Fin 12288), k.val < n → k.val < 12 → r.val = 1024 * k.val + p.val →
    f (ValueIdx.ix2 r q) = slab V c k (ValueIdx.ix2 p q)

/-- The resident copy once every slab is in place: row `r` belongs to slab `r / 1024`, at its row `r % 1024`. -/
def wfull (c : Dev nD) : Vec F S12288x1024 .bf16 := fun y =>
  slab V c ⟨(y 0).val / 1024, by rw [show cfg0.N = 20 from N_0]; have := ValueIdx.idx2_lt0 y; omega⟩
    (ValueIdx.ix2 (⟨(y 0).val % 1024, Nat.mod_lt _ (by decide)⟩ : Fin 1024) (⟨(y 1).val, ValueIdx.idx2_lt1 y⟩ : Fin 1024))

theorem scrOk_wfull (c : Dev nD) (n : ℕ) : ScrOk V c n (wfull V c) := by
  intro k p q r _ hk hr
  unfold wfull
  have hk' : (⟨r.val / 1024, by rw [show cfg0.N = 20 from N_0]; omega⟩ : Fin cfg0.N) = k := Fin.ext (by
    show r.val / 1024 = k.val; omega)
  have hp : (⟨r.val % 1024, Nat.mod_lt _ (by decide)⟩ : Fin 1024) = p := Fin.ext (by show r.val % 1024 = p.val; omega)
  show slab V c ⟨r.val / 1024, _⟩ (ValueIdx.ix2 (⟨r.val % 1024, _⟩ : Fin 1024) (⟨q.val, _⟩ : Fin 1024)) = _
  rw [hk', hp]

/-- From point 12 on the invariant's condition determines the resident copy. -/
theorem eq_wfull_of_scrOk (c : Dev nD) (n : ℕ) (hn : 12 ≤ n) (f : Vec F S12288x1024 .bf16) (hf : ScrOk V c n f) : f = wfull V c := by
  funext y
  obtain ⟨r, q, rfl⟩ : ∃ (r : Fin 12288) (q : Fin 1024), y = ValueIdx.ix2 r q := ⟨y 0, y 1, ValueIdx.eq_ix2 y⟩
  have hN : cfg0.N = 20 := N_0
  rw [hf ⟨r.val / 1024, by rw [hN]; omega⟩ ⟨r.val % 1024, Nat.mod_lt _ (by decide)⟩ q r (by show r.val / 1024 < n; omega) (by show r.val / 1024 < 12; omega)
    (by show r.val = 1024 * (r.val / 1024) + r.val % 1024; omega)]
  rfl

/-! ## The region's invariant -/

/-- The scoped buffers of the core that are neither a staging buffer of this kernel nor its resident copy: the
    second kernel's staging buffers, each whole at some contents. -/
def ScopedTail (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Before point `n`: the resident copy at contents with the first `min n 12` slabs in place, the other scoped
    buffers at anything, the generator register at some state. -/
def PhiS (c : Dev nD) (n : ℕ) : sProp 𝕄 :=
  iprop(((∃ f, ⌜ScrOk V c n f⌝ ∗ owns (c : Thread nD τ) scM0 fullShare f) ∗ ScopedTail c) ∗ (∃ r, prngReg c r))

theorem PhiA0_eq (c : Dev nD) :
    (Pipeline.ΦA spec0 c : sProp 𝕄)
      = iprop(((∃ d, owns (c : Thread nD τ) scM0 fullShare d) ∗ ScopedTail c) ∗ (∃ r, prngReg c r)) := by
  unfold Pipeline.ΦA ScopedTail; rw [scopedRest0_eq]; simp only [scM0, owns_whole]; try rfl

/-! ## The proof data -/

theorem cover0_13 (c : Dev nD) (i : grid0.Coords) (arg1 : Memref sig .tc .vmem S128x12288 .f32) (harg1 : arg1.IsWhole) (arg2 : Memref sig .tc .vmem S1024x1024 .f32) (harg2 : arg2.IsWhole) (arg3 : Memref sig .tc .vmem S128x17 .f32) (harg3 : arg3.IsWhole) (arg4 : Memref sig .tc .vmem S128x128 .f32) (harg4 : arg4.IsWhole) (arg5 : Memref sig .tc .vmem S17x1024 .f32) (harg5 : arg5.IsWhole) (arg6 : Memref sig .tc .vmem S1x1024 .f32) (harg6 : arg6.IsWhole) (arg7 : Memref sig .tc .vmem S1024x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S17x1024 .f32) (harg12 : arg12.IsWhole) (arg13 : Memref sig .tc .vmem S1x1024 .f32) (harg13 : arg13.IsWhole) (arg14 : Memref sig .tc .vmem S128x1024 .bf16) (harg14 : arg14.IsWhole) (arg15 : Memref sig .tc .vmem S12288x1024 .bf16) (harg15 : arg15.IsWhole)
    (hc1 : ¬ k0_cond1 i = 1#1) (hc2 : k0_cond2 i = 1#1)
    (x0 : Vec F S128x12288 .f32) (x2 : Vec F S128x17 .f32) (x3 : Vec F S128x128 .f32) (x4 : Vec F S17x1024 .f32) (x5 : Vec F S1x1024 .f32) (x6 : Vec F S1024x128 .f32) (x7 : Vec F S1x128 .f32) (x8 : Vec F S1024x128 .f32) (x9 : Vec F S1x128 .f32) (x10 : Vec F S128x1024 .f32) (x11 : Vec F S17x1024 .f32) (x12 : Vec F S1x1024 .f32) (xs : Vec F S12288x1024 .bf16) (y : S128x1024.Idx) :
    ∃ pc ∈ (runEncode c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 x0 x2 x3 x4 x5 x6 x7 x8 x9 x10 x11 x12 xs).1, y ∈ pc.1.set :=
  View.cover_of_tiledL (runEncode c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 x0 x2 x3 x4 x5 x6 x7 x8 x9 x10 x11 x12 xs).1 S128x1024.size (by sl_kernel_rfl) y

/-- What an encoding point leaves in the output's staging buffer: its one store read back. -/
def out0_13 (c : Dev nD) (t : Fin cfg0.N) (h : 12 ≤ t.val) : Vec F S128x1024 .bf16 :=
  VO0_13.read (Elt F) (VO0_13.writes (Elt F) VO0_13.junk
    (runEncode c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0 (Memref.isWhole_whole _) (fun h1 => absurd ((hcond1 t).mp h1) (by omega)) ((hcond2 t).mpr h)
      (held0 V c 0 t) (held0 V c 2 t) (held0 V c 3 t) (held0 V c 4 t) (held0 V c 5 t) (held0 V c 6 t) (held0 V c 7 t) (held0 V c 8 t) (held0 V c 9 t) (held0 V c 10 t) (held0 V c 11 t) (held0 V c 12 t) (wfull V c)).1)

def dat0 (c : Dev nD) : Dat τ (Elt F) Unit ℕ (UR sig nD τ) ℕ cfg0 c where
  A w := V c (Pipeline.arrRef spec0 w)
  after w t := match w with
    | ⟨0, _⟩ => held0 V c 0 t
    | ⟨1, _⟩ => held0 V c 1 t
    | ⟨2, _⟩ => held0 V c 2 t
    | ⟨3, _⟩ => held0 V c 3 t
    | ⟨4, _⟩ => held0 V c 4 t
    | ⟨5, _⟩ => held0 V c 5 t
    | ⟨6, _⟩ => held0 V c 6 t
    | ⟨7, _⟩ => held0 V c 7 t
    | ⟨8, _⟩ => held0 V c 8 t
    | ⟨9, _⟩ => held0 V c 9 t
    | ⟨10, _⟩ => held0 V c 10 t
    | ⟨11, _⟩ => held0 V c 11 t
    | ⟨12, _⟩ => held0 V c 12 t
    | ⟨13, _⟩ => if h : 12 ≤ t.val then out0_13 V c t h else fun _ => Classical.arbitrary _
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = held0 V c 0 t := by dsimp only [dat0]
theorem after0_1 (c : Dev nD) (t : Fin cfg0.N) : (dat0 V c).after 1 t = held0 V c 1 t := by dsimp only [dat0]
theorem after0_2 (c : Dev nD) (t : Fin cfg0.N) : (dat0 V c).after 2 t = held0 V c 2 t := by dsimp only [dat0]
theorem after0_3 (c : Dev nD) (t : Fin cfg0.N) : (dat0 V c).after 3 t = held0 V c 3 t := by dsimp only [dat0]
theorem after0_4 (c : Dev nD) (t : Fin cfg0.N) : (dat0 V c).after 4 t = held0 V c 4 t := by dsimp only [dat0]
theorem after0_5 (c : Dev nD) (t : Fin cfg0.N) : (dat0 V c).after 5 t = held0 V c 5 t := by dsimp only [dat0]
theorem after0_6 (c : Dev nD) (t : Fin cfg0.N) : (dat0 V c).after 6 t = held0 V c 6 t := by dsimp only [dat0]
theorem after0_7 (c : Dev nD) (t : Fin cfg0.N) : (dat0 V c).after 7 t = held0 V c 7 t := by dsimp only [dat0]
theorem after0_8 (c : Dev nD) (t : Fin cfg0.N) : (dat0 V c).after 8 t = held0 V c 8 t := by dsimp only [dat0]
theorem after0_9 (c : Dev nD) (t : Fin cfg0.N) : (dat0 V c).after 9 t = held0 V c 9 t := by dsimp only [dat0]
theorem after0_10 (c : Dev nD) (t : Fin cfg0.N) : (dat0 V c).after 10 t = held0 V c 10 t := by dsimp only [dat0]
theorem after0_11 (c : Dev nD) (t : Fin cfg0.N) : (dat0 V c).after 11 t = held0 V c 11 t := by dsimp only [dat0]
theorem after0_12 (c : Dev nD) (t : Fin cfg0.N) : (dat0 V c).after 12 t = held0 V c 12 t := by dsimp only [dat0]
theorem after0_13 (c : Dev nD) (t : Fin cfg0.N) (h : 12 ≤ t.val) : (dat0 V c).after 13 t = out0_13 V c t h := by
  dsimp only [dat0]; exact dif_pos h

theorem before0_0 (c : Dev nD) (t : Fin cfg0.N) (d) : (dat0 V c).before 0 t d = held0 V c 0 t :=
  (dat0 V c).before_eq_heldIn 0 rfl (fun _ => rfl) (fun _ _ => rfl) (fun t => after0_0 V c t) t d
theorem before0_1 (c : Dev nD) (t : Fin cfg0.N) (d) : (dat0 V c).before 1 t d = held0 V c 1 t :=
  (dat0 V c).before_eq_heldIn 1 rfl (fun _ => rfl) clip0_1 (fun t => after0_1 V c t) t d
theorem before0_2 (c : Dev nD) (t : Fin cfg0.N) (d) : (dat0 V c).before 2 t d = held0 V c 2 t :=
  (dat0 V c).before_eq_heldIn 2 rfl (fun _ => rfl) (fun _ _ => rfl) (fun t => after0_2 V c t) t d
theorem before0_3 (c : Dev nD) (t : Fin cfg0.N) (d) : (dat0 V c).before 3 t d = held0 V c 3 t :=
  (dat0 V c).before_eq_heldIn 3 rfl (fun _ => rfl) (fun _ _ => rfl) (fun t => after0_3 V c t) t d
theorem before0_4 (c : Dev nD) (t : Fin cfg0.N) (d) : (dat0 V c).before 4 t d = held0 V c 4 t :=
  (dat0 V c).before_eq_heldIn 4 rfl (fun _ => rfl) (fun _ _ => rfl) (fun t => after0_4 V c t) t d
theorem before0_5 (c : Dev nD) (t : Fin cfg0.N) (d) : (dat0 V c).before 5 t d = held0 V c 5 t :=
  (dat0 V c).before_eq_heldIn 5 rfl (fun _ => rfl) (fun _ _ => rfl) (fun t => after0_5 V c t) t d
theorem before0_6 (c : Dev nD) (t : Fin cfg0.N) (d) : (dat0 V c).before 6 t d = held0 V c 6 t :=
  (dat0 V c).before_eq_heldIn 6 rfl (fun _ => rfl) (fun _ _ => rfl) (fun t => after0_6 V c t) t d
theorem before0_7 (c : Dev nD) (t : Fin cfg0.N) (d) : (dat0 V c).before 7 t d = held0 V c 7 t :=
  (dat0 V c).before_eq_heldIn 7 rfl (fun _ => rfl) (fun _ _ => rfl) (fun t => after0_7 V c t) t d
theorem before0_8 (c : Dev nD) (t : Fin cfg0.N) (d) : (dat0 V c).before 8 t d = held0 V c 8 t :=
  (dat0 V c).before_eq_heldIn 8 rfl (fun _ => rfl) (fun _ _ => rfl) (fun t => after0_8 V c t) t d
theorem before0_9 (c : Dev nD) (t : Fin cfg0.N) (d) : (dat0 V c).before 9 t d = held0 V c 9 t :=
  (dat0 V c).before_eq_heldIn 9 rfl (fun _ => rfl) (fun _ _ => rfl) (fun t => after0_9 V c t) t d
theorem before0_10 (c : Dev nD) (t : Fin cfg0.N) (d) : (dat0 V c).before 10 t d = held0 V c 10 t :=
  (dat0 V c).before_eq_heldIn 10 rfl (fun _ => rfl) (fun _ _ => rfl) (fun t => after0_10 V c t) t d
theorem before0_11 (c : Dev nD) (t : Fin cfg0.N) (d) : (dat0 V c).before 11 t d = held0 V c 11 t :=
  (dat0 V c).before_eq_heldIn 11 rfl (fun _ => rfl) (fun _ _ => rfl) (fun t => after0_11 V c t) t d
theorem before0_12 (c : Dev nD) (t : Fin cfg0.N) (d) : (dat0 V c).before 12 t d = held0 V c 12 t :=
  (dat0 V c).before_eq_heldIn 12 rfl (fun _ => rfl) (fun _ _ => rfl) (fun t => after0_12 V c t) t d

end

end Cert.Kernel.Hand

end
-- ==== Proof.KR0Body.lean ====
import proofs.«111944_g88321707475356_cont_sun_m_1037_20_alg».proof.Proof.KR0Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The first kernel's body obligation at a generic grid point: a loading point moves the invariant one slab
    further; an encoding point finds the resident copy complete, hence at its closed form, and leaves the output's
    staging buffer at that point's block. -/

section
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t)

theorem leaves0_0 (c : Dev nD) (t : Fin cfg0.N) : (dat0 V c).leavesExact 0 t = owns (c : Thread nD τ) (ms0_0 t) fullShare (held0 V c 0 t) := by
  unfold Dat.leavesExact; rw [after0_0]
theorem leaves0_1 (c : Dev nD) (t : Fin cfg0.N) : (dat0 V c).leavesExact 1 t = owns (c : Thread nD τ) (ms0_1 t) fullShare (held0 V c 1 t) := by
  unfold Dat.leavesExact; rw [after0_1]
theorem leaves0_2 (c : Dev nD) (t : Fin cfg0.N) : (dat0 V c).leavesExact 2 t = owns (c : Thread nD τ) (ms0_2 t) fullShare (held0 V c 2 t) := by
  unfold Dat.leavesExact; rw [after0_2]
theorem leaves0_3 (c : Dev nD) (t : Fin cfg0.N) : (dat0 V c).leavesExact 3 t = owns (c : Thread nD τ) (ms0_3 t) fullShare (held0 V c 3 t) := by
  unfold Dat.leavesExact; rw [after0_3]
theorem leaves0_4 (c : Dev nD) (t : Fin cfg0.N) : (dat0 V c).leavesExact 4 t = owns (c : Thread nD τ) (ms0_4 t) fullShare (held0 V c 4 t) := by
  unfold Dat.leavesExact; rw [after0_4]
theorem leaves0_5 (c : Dev nD) (t : Fin cfg0.N) : (dat0 V c).leavesExact 5 t = owns (c : Thread nD τ) (ms0_5 t) fullShare (held0 V c 5 t) := by
  unfold Dat.leavesExact; rw [after0_5]
theorem leaves0_6 (c : Dev nD) (t : Fin cfg0.N) : (dat0 V c).leavesExact 6 t = owns (c : Thread nD τ) (ms0_6 t) fullShare (held0 V c 6 t) := by
  unfold Dat.leavesExact; rw [after0_6]
theorem leaves0_7 (c : Dev nD) (t : Fin cfg0.N) : (dat0 V c).leavesExact 7 t = owns (c : Thread nD τ) (ms0_7 t) fullShare (held0 V c 7 t) := by
  unfold Dat.leavesExact; rw [after0_7]
theorem leaves0_8 (c : Dev nD) (t : Fin cfg0.N) : (dat0 V c).leavesExact 8 t = owns (c : Thread nD τ) (ms0_8 t) fullShare (held0 V c 8 t) := by
  unfold Dat.leavesExact; rw [after0_8]
theorem leaves0_9 (c : Dev nD) (t : Fin cfg0.N) : (dat0 V c).leavesExact 9 t = owns (c : Thread nD τ) (ms0_9 t) fullShare (held0 V c 9 t) := by
  unfold Dat.leavesExact; rw [after0_9]
theorem leaves0_10 (c : Dev nD) (t : Fin cfg0.N) : (dat0 V c).leavesExact 10 t = owns (c : Thread nD τ) (ms0_10 t) fullShare (held0 V c 10 t) := by
  unfold Dat.leavesExact; rw [after0_10]
theorem leaves0_11 (c : Dev nD) (t : Fin cfg0.N) : (dat0 V c).leavesExact 11 t = owns (c : Thread nD τ) (ms0_11 t) fullShare (held0 V c 11 t) := by
  unfold Dat.leavesExact; rw [after0_11]
theorem leaves0_12 (c : Dev nD) (t : Fin cfg0.N) : (dat0 V c).leavesExact 12 t = owns (c : Thread nD τ) (ms0_12 t) fullShare (held0 V c 12 t) := by
  unfold Dat.leavesExact; rw [after0_12]

/-- One more slab: after a loading point's store the slabs of the points up to it are in place. -/
theorem scrOk_step (c : Dev nD) (t : Fin cfg0.N) (h : t.val < 12) (f : Vec F S12288x1024 .bf16) (hf : ScrOk V c t.val f)
    (f' : VS0.ty.Contents (Elt F)) (hf' : VS0.read (Elt F) f' = f) :
    ScrOk V c (t.val + 1) (VS0.read (Elt F) (VS0.writes (Elt F) f' (slabL V c t h))) := by
  intro k p q r hk hk12 hr
  rw [slabL_eq]
  by_cases hkt : k = t
  · subst hkt
    exact View.read_writes_cons_rows_of_mem VS0 f' (k0_off1_inb _ ((hcond1 k).mpr h)) (slab V c k) [] (ValueIdx.ix2 r q) (ValueIdx.ix2 p q)
      (off0 k h) hr rfl
  · have hlt : k.val < t.val := by
      have : k.val ≠ t.val := fun e => hkt (Fin.ext e)
      omega
    rw [View.read_writes_cons_rows_of_not_mem VS0 f' (k0_off1_inb _ ((hcond1 t).mpr h)) (slab V c t) [] (ValueIdx.ix2 r q) (off0 t h) (W := 1024) rfl
      (Or.inl (by show r.val < 1024 * t.val; have := p.isLt; omega))]
    show VS0.read (Elt F) f' (ValueIdx.ix2 r q) = _
    rw [hf']
    exact hf k p q r hlt hk12 hr

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).owesAt () t.succ = (dat0 V c).owesAt () t.castSucc from rfl]
  rw [show (dat0 V c).Φ t.succ = PhiS V c (t.val + 1) from rfl, show (dat0 V c).Φ t.castSucc = PhiS V c t.val from rfl]
  rw [leaves0_0, leaves0_1, leaves0_2, leaves0_3, leaves0_4, leaves0_5, leaves0_6, leaves0_7, leaves0_8, leaves0_9, leaves0_10, leaves0_11, leaves0_12]
  by_cases h : t.val < 12
  · rw [Dat.leavesExact_idle (dat0 V c) 13 t (idle0_13 t h) (noFlush0_13 t h)]
    unfold PhiS
    iintro ⟨⟨⟨⟨%f, %hf, HS⟩, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runLoad c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0 (Memref.isWhole_whole _) ((hcond1 t).mpr h) (fun h2 => absurd ((hcond2 t).mp h2) (by omega)) (held0 V c 1 t)).2 f Set.univ _)
    isplitl [H1]; · iexact H1
    isplitl [HS]; · iexact HS
    iintro ⟨H1, ⟨%f', %hf', HS⟩⟩
    isplitl [HS HT Hg]
    · isplitl [HS HT]
      · isplitl [HS]
        · iexists (VS0.read (Elt F) (VS0.writes (Elt F) f' (slabL V c t h)))
          isplitr
          · ipureintro; exact scrOk_step V c t h f hf f' hf'
          · unfold owns; iexists _; isplitr
            · ipureintro; rfl
            · iexact HS
        · iexact HT
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13; iexact H13
  · have h12 : 12 ≤ t.val := by omega
    have hle : (dat0 V c).leavesExact 13 t = owns (c : Thread nD τ) (ms0_13 t) fullShare (out0_13 V c t h12) := by
      unfold Dat.leavesExact; rw [live0_13 t h12, after0_13 V c t h12]
    rw [hle]
    unfold PhiS out0_13
    iintro ⟨⟨⟨⟨%f, %hf, HS⟩, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    obtain rfl := eq_wfull_of_scrOk V c t.val h12 f hf
    iapply ((runEncode c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0 (Memref.isWhole_whole _) (fun h1 => absurd ((hcond1 t).mp h1) (by omega)) ((hcond2 t).mpr h12)
      (held0 V c 0 t) (held0 V c 2 t) (held0 V c 3 t) (held0 V c 4 t) (held0 V c 5 t) (held0 V c 6 t) (held0 V c 7 t) (held0 V c 8 t) (held0 V c 9 t) (held0 V c 10 t) (held0 V c 11 t) (held0 V c 12 t) (wfull V c)).2 Set.univ _)
    isplitl [H0]; · iexact H0
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS]; · iexact HS
    iintro ⟨H0, H2, H3, H4, H5, H6, H7, H8, H9, H10, H11, H12, ⟨%e, H13⟩, HS⟩
    isplitl [HS HT Hg]
    · isplitl [HS HT]
      · isplitl [HS]
        · iexists (wfull V c); isplitr
          · ipureintro; exact scrOk_wfull V c _
          · iexact HS
        · iexact HT
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold owns; iexists _; isplitr
    swap; · iexact H13
    ipureintro; exact View.read_writes_of_cover _ _ _ _ _ (cover0_13 c _ _ _ _ _ _ _ _ _ _ _ _ _ _ _ _ _ _ _ _ _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KR1Decode.lean ====
import proofs.«111944_g88321707475356_cont_sun_m_1037_20_alg».proof.Proof.Gen.Kernel.Launch
import proofs.«111944_g88321707475356_cont_sun_m_1037_20_alg».proof.Proof.Gen.Kernel.Skeleton
import proofs.«111944_g88321707475356_cont_sun_m_1037_20_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of the second kernel at any point: it reads the decoder's hidden layer (resident), one column tile
    of the output weights and of the output bias, and stores the tile of the image means into the output's
    staging buffer. The inputs are left as they were. -/

set_option maxHeartbeats 2000000 in
noncomputable def runDecode (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .f32) (x2 : Vec F S1x1024 .f32) :
    { L : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc1__stage_b i arg1 harg1 arg2 harg2 arg3 harg3 arg4 harg4) K } := by
  refine ⟨?_, fun E K => ?run⟩
  case run =>
    simp only [cc1__stage_b_eq_skeleton]; unfold cc1__stage_b_skel
    unfold owns
    iintro ⟨⟨%f0, %hf0, H0⟩, ⟨%f1, %hf1, H1⟩, ⟨%f2, %hf2, H2⟩, ⟨%d, %fo, -, HO⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists fo; iexact HO

end Cert.Kernel.Hand

end
-- ==== Proof.KR1Dat.lean ====
import proofs.«111944_g88321707475356_cont_sun_m_1037_20_alg».proof.Proof.KR1Decode

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The second kernel's proof data at the contents `V` its region is entered with: each input window's staging
    buffer holds its block of the array, the output window's what the body's store leaves there (one piece tiling
    the block), and the body obligation at a generic grid point. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- The body's one store tiles the output block. -/
theorem cover1_3 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .f32) (x2 : Vec F S1x1024 .f32) (y : S1024x1024.Idx) :
    ∃ pc ∈ (runDecode c i arg1 harg1 arg2 harg2 arg3 harg3 arg4 harg4 x0 x1 x2).1, y ∈ pc.1.set :=
  View.cover_of_tiledL (runDecode c i arg1 harg1 arg2 harg2 arg3 harg3 arg4 harg4 x0 x1 x2).1 S1024x1024.size (by sl_kernel_rfl) y

/-- What the body leaves in the output's staging buffer. -/
def out1_3 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .f32) (x2 : Vec F S1x1024 .f32) : Vec F S1024x1024 .f32 :=
  VO1_3.read (Elt F) (VO1_3.writes (Elt F) VO1_3.junk (runDecode c i arg1 harg1 arg2 harg2 arg3 harg3 arg4 harg4 x0 x1 x2).1)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply ((runDecode c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KRun.lean ====
import proofs.«111944_g88321707475356_cont_sun_m_1037_20_alg».proof.Proof.KR0Body
import proofs.«111944_g88321707475356_cont_sun_m_1037_20_alg».proof.Proof.KR1Dat
import proofs.«111944_g88321707475356_cont_sun_m_1037_20_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The program's run as five segments — host operations, the first kernel, host operations, the second kernel,
    host operations — with the buffers' contents at every boundary named, so that the final state is read whole:
    every buffer outside the kernels' own at the last boundary's contents. The arguments read back through the
    boundaries to the launch memory; the result is the last reshape of what the second kernel's write-backs leave. -/

section
variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
abbrev W5 : Dev nD → Valuation τ sig (Elt F) := fun c => StableHlo.after hostOps2 (W4 m ρ c)

/-! ## Every argument reads back to the launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := (W4_of_ne m ρ c main_arg0 (by decide))
    _ = W2 m ρ c (Proc.devRef .tc main_arg0) := StableHlo.after_of_writes_sub hostOps1 _ hostOps1_writes (by decide)
    _ = W1 m ρ c (Proc.devRef .tc main_arg0) := (W2_of_ne m ρ c main_arg0 (by decide))
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := (W4_of_ne m ρ c main_arg1 (by decide))
    _ = W2 m ρ c (Proc.devRef .tc main_arg1) := StableHlo.after_of_writes_sub hostOps1 _ hostOps1_writes (by decide)
    _ = W1 m ρ c (Proc.devRef .tc main_arg1) := ((W2_arr m ρ c 2).trans (((dat0 (V1 m ρ) c).arrAt_in 2 rfl _).trans (A_eq0 (V1 m ρ) c 2)))
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := (W4_of_ne m ρ c main_arg2 (by decide))
    _ = W2 m ρ c (Proc.devRef .tc main_arg2) := StableHlo.after_of_writes_sub hostOps1 _ hostOps1_writes (by decide)
    _ = W1 m ρ c (Proc.devRef .tc main_arg2) := ((W2_arr m ρ c 3).trans (((dat0 (V1 m ρ) c).arrAt_in 3 rfl _).trans (A_eq0 (V1 m ρ) c 3)))
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := (W4_of_ne m ρ c main_arg3 (by decide))
    _ = W2 m ρ c (Proc.devRef .tc main_arg3) := StableHlo.after_of_writes_sub hostOps1 _ hostOps1_writes (by decide)
    _ = W1 m ρ c (Proc.devRef .tc main_arg3) := ((W2_arr m ρ c 1).trans (((dat0 (V1 m ρ) c).arrAt_in 1 rfl _).trans (A_eq0 (V1 m ρ) c 1)))
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := (W4_of_ne m ρ c main_arg4 (by decide))
    _ = W2 m ρ c (Proc.devRef .tc main_arg4) := StableHlo.after_of_writes_sub hostOps1 _ hostOps1_writes (by decide)
    _ = W1 m ρ c (Proc.devRef .tc main_arg4) := (W2_of_ne m ρ c main_arg4 (by decide))
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := (W4_of_ne m ρ c main_arg5 (by decide))
    _ = W2 m ρ c (Proc.devRef .tc main_arg5) := StableHlo.after_of_writes_sub hostOps1 _ hostOps1_writes (by decide)
    _ = W1 m ρ c (Proc.devRef .tc main_arg5) := ((W2_arr m ρ c 6).trans (((dat0 (V1 m ρ) c).arrAt_in 6 rfl _).trans (A_eq0 (V1 m ρ) c 6)))
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := (W4_of_ne m ρ c main_arg6 (by decide))
    _ = W2 m ρ c (Proc.devRef .tc main_arg6) := StableHlo.after_of_writes_sub hostOps1 _ hostOps1_writes (by decide)
    _ = W1 m ρ c (Proc.devRef .tc main_arg6) := (W2_of_ne m ρ c main_arg6 (by decide))
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := (W4_of_ne m ρ c main_arg7 (by decide))
    _ = W2 m ρ c (Proc.devRef .tc main_arg7) := StableHlo.after_of_writes_sub hostOps1 _ hostOps1_writes (by decide)
    _ = W1 m ρ c (Proc.devRef .tc main_arg7) := ((W2_arr m ρ c 8).trans (((dat0 (V1 m ρ) c).arrAt_in 8 rfl _).trans (A_eq0 (V1 m ρ) c 8)))
    _ = W0 m ρ c (Proc.devRef .tc main_arg7) := StableHlo.after_of_writes_sub hostOps0 _ hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := (W4_of_ne m ρ c main_arg8 (by decide))
    _ = W2 m ρ c (Proc.devRef .tc main_arg8) := StableHlo.after_of_writes_sub hostOps1 _ hostOps1_writes (by decide)
    _ = W1 m ρ c (Proc.devRef .tc main_arg8) := (W2_of_ne m ρ c main_arg8 (by decide))
    _ = W0 m ρ c (Proc.devRef .tc main_arg8) := StableHlo.after_of_writes_sub hostOps0 _ hostOps0_writes (by decide)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (by decide)
    _ = W3 m ρ c (Proc.devRef .tc main_arg9) := (W4_of_ne m ρ c main_arg9 (by decide))
    _ = W2 m ρ c (Proc.devRef .tc main_arg9) := StableHlo.after_of_writes_sub hostOps1 _ hostOps1_writes (by decide)
    _ = W1 m ρ c (Proc.devRef .tc main_arg9) := (W2_of_ne m ρ c main_arg9 (by decide))
    _ = W0 m ρ c (Proc.devRef .tc main_arg9) := StableHlo.after_of_writes_sub hostOps0 _ hostOps0_writes (by decide)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (by decide)
    _ = W3 m ρ c (Proc.devRef .tc main_arg10) := (W4_of_ne m ρ c main_arg10 (by decide))
    _ = W2 m ρ c (Proc.devRef .tc main_arg10) := StableHlo.after_of_writes_sub hostOps1 _ hostOps1_writes (by decide)
    _ = W1 m ρ c (Proc.devRef .tc main_arg10) := (W2_of_ne m ρ c main_arg10 (by decide))
    _ = W0 m ρ c (Proc.devRef .tc main_arg10) := StableHlo.after_of_writes_sub hostOps0 _ hostOps0_writes (by decide)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (by decide)
    _ = W3 m ρ c (Proc.devRef .tc main_arg11) := ((W4_arr m ρ c 1).trans (((dat1 (V3 m ρ) c).arrAt_in 1 rfl _).trans (A_eq1 (V3 m ρ) c 1)))
    _ = W2 m ρ c (Proc.devRef .tc main_arg11) := StableHlo.after_of_writes_sub hostOps1 _ hostOps1_writes (by decide)
    _ = W1 m ρ c (Proc.devRef .tc main_arg11) := (W2_of_ne m ρ c main_arg11 (by decide))
    _ = W0 m ρ c (Proc.devRef .tc main_arg11) := StableHlo.after_of_writes_sub hostOps0 _ hostOps0_writes (by decide)
    _ = m ((c : Thread nD τ).loc main_arg11) := rfl
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps2 _ hostOps2_writes (by decide)
    _ = W3 m ρ c (Proc.devRef .tc main_arg12) := (W4_of_ne m ρ c main_arg12 (by decide))
    _ = W2 m ρ c (Proc.devRef .tc main_arg12) := StableHlo.after_of_writes_sub hostOps1 _ hostOps1_writes (by decide)
    _ = W1 m ρ c (Proc.devRef .tc main_arg12) := (W2_of_ne m ρ c main_arg12 (by decide))
    _ = W0 m ρ c (Proc.devRef .tc main_arg12) := StableHlo.after_of_writes_sub hostOps0 _ hostOps0_writes (by decide)
    _ = m ((c : Thread nD τ).loc main_arg12) := rfl

/-! ## The invariant's two ends -/

theorem PhiA_to_PhiS0 (V : (c : Dev nD) → (b : Ref sig .tc) → Buf (Elt F) ((c : Thread nD τ).loc b)) (c : Dev nD) :
    (Pipeline.ΦA spec0 c : sProp 𝕄) ⊢ PhiS V c 0 := by
  rw [PhiA0_eq]; unfold PhiS
  iintro ⟨⟨⟨%d, HS⟩, HT⟩, Hg⟩
  isplitl [HS HT]
  · isplitl [HS]
    · iexists d; isplitr
      · ipureintro; intro k p q r hk; exact absurd hk (Nat.not_lt_zero _)
      · iexact HS
    · iexact HT
  · iexact Hg

theorem PhiS_to_PhiA (V : (c : Dev nD) → (b : Ref sig .tc) → Buf (Elt F) ((c : Thread nD τ).loc b)) (c : Dev nD) (n : ℕ) :
    PhiS V c n ⊢ (Pipeline.ΦA spec0 c : sProp 𝕄) := by
  rw [PhiA0_eq]; unfold PhiS
  iintro ⟨⟨⟨%f, -, HS⟩, HT⟩, Hg⟩
  isplitl [HS HT]
  · isplitl [HS]
    · iexists f; iexact HS
    · iexact HT
  · iexact Hg

/-! ## The proof data family, the thread state, the regions -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (PhiA_to_PhiS0 (V1 m ρ) c)
    unfold Pipeline.ΦA
    iintro ⟨Hp, -, Hr⟩
    isplitl [Hr]; · iexact Hr
    iexact Hp
  hout c := by
    refine (PhiS_to_PhiA (V1 m ρ) c _).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [show (pdats m ρ 1 c).Φ (Fin.last _) = Pipeline.ΦA spec1 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution terminates, and in the final state every buffer outside the kernels' own holds the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end

end Cert.Kernel.Hand

end
-- ==== Proof.KFrames.lean ====
import proofs.«111944_g88321707475356_cont_sun_m_1037_20_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The frame, and the run with the result named: both read off the whole final state. -/

section
variable (m : (ℓ : Loc nD τ sig) → Buf (Elt F) ℓ) (ρ : Dev nD → PrngReg)

/-- Every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c)⟩) (run_all m ρ)

/-- The same run with the result array at the last boundary's contents. -/
theorem run_result : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v11 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c)⟩) (run_all m ρ)

end

end Cert.Kernel.Hand

end
-- ==== Proof.R0Load.lean ====
import proofs.«111944_g88321707475356_cont_sun_m_1037_20_alg».proof.Proof.Gen.KernelIdeal.Launch
import proofs.«111944_g88321707475356_cont_sun_m_1037_20_alg».proof.Proof.Gen.KernelIdeal.Skeleton
import proofs.«111944_g88321707475356_cont_sun_m_1037_20_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of the first kernel at a point of its loading phase (the first conditional taken, the second not):
    it reads the weight slab in its staging buffer and stores the slab, narrowed, into the rows of the resident
    copy that the point owns. Nothing else is touched. -/

set_option maxHeartbeats 2000000 in
noncomputable def runLoad (c : Dev nD) (i : grid0.Coords) (arg1 : Memref sig .tc .vmem S128x12288 .f32) (harg1 : arg1.IsWhole) (arg2 : Memref sig .tc .vmem S1024x1024 .f32) (harg2 : arg2.IsWhole) (arg3 : Memref sig .tc .vmem S128x17 .f32) (harg3 : arg3.IsWhole) (arg4 : Memref sig .tc .vmem S128x128 .f32) (harg4 : arg4.IsWhole) (arg5 : Memref sig .tc .vmem S17x1024 .f32) (harg5 : arg5.IsWhole) (arg6 : Memref sig .tc .vmem S1x1024 .f32) (harg6 : arg6.IsWhole) (arg7 : Memref sig .tc .vmem S1024x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S17x1024 .f32) (harg12 : arg12.IsWhole) (arg13 : Memref sig .tc .vmem S1x1024 .f32) (harg13 : arg13.IsWhole) (arg14 : Memref sig .tc .vmem S128x1024 .bf16) (harg14 : arg14.IsWhole) (arg15 : Memref sig .tc .vmem S12288x1024 .bf16) (harg15 : arg15.IsWhole)
    (hc1 : k0_cond1 i = 1#1) (hc2 : ¬ k0_cond2 i = 1#1)
    (x1 : Vec F S1024x1024 .f32) :
    { LS : List (View.Piece (Elt F) S12288x1024 .bf16) //
      ∀ (xs : Vec F S12288x1024 .bf16) (E : Set ℕ) (K : PUnit → sProp 𝕄),
        iprop(owns (c : Thread nD τ) arg2 fullShare x1 ∗ owns (c : Thread nD τ) arg15 fullShare xs
            ∗ (iprop(owns (c : Thread nD τ) arg2 fullShare x1 ∗ (∃ f, ⌜arg15.view.read (Elt F) f = xs⌝ ∗ arg15.view.loc (c : Thread nD τ) ↦[arg15.view.set]{fullShare} arg15.view.writes (Elt F) f LS)) -∗ K ⟨⟩))
          ⊢ wp frame (wpE (defs₀ (F := F)) Variants.none c none) E (cc0__stage_a i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xs E K => ?run⟩
  case run =>
    simp only [cc0__stage_a_eq_skeleton]; unfold cc0__stage_a_skel
    unfold owns
    iintro ⟨⟨%f1, %hf1, H1⟩, ⟨%fs, %hfs, HS⟩, Hk⟩
    obtain rfl := harg2.eq_unread hf1
    sl_exec (disch := first | exact hc1 | exact hc2)
    sl_step
    iapply Hk
    isplitl [H1]
    · iexists _; isplitr; · ipureintro; exact harg2.read_unread _
      iexact H1
    iexists fs; isplitr; · ipureintro; exact hfs
    iexact HS

end Cert.KernelIdeal.Hand

end
-- ==== Proof.R0Encode.lean ====
import proofs.«111944_g88321707475356_cont_sun_m_1037_20_alg».proof.Proof.R0Load

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of the first kernel at a point of its encoding phase (the first conditional not taken, the second
    taken): it reads the row slab of the images, labels and noise, every weight and bias, and the whole resident
    copy of the encoder weights, and stores one block of the decoder's hidden layer into the output's staging
    buffer. The resident copy and the inputs are left as they were. -/

set_option maxHeartbeats 4000000 in
noncomputable def runEncode (c : Dev nD) (i : grid0.Coords) (arg1 : Memref sig .tc .vmem S128x12288 .f32) (harg1 : arg1.IsWhole) (arg2 : Memref sig .tc .vmem S1024x1024 .f32) (harg2 : arg2.IsWhole) (arg3 : Memref sig .tc .vmem S128x17 .f32) (harg3 : arg3.IsWhole) (arg4 : Memref sig .tc .vmem S128x128 .f32) (harg4 : arg4.IsWhole) (arg5 : Memref sig .tc .vmem S17x1024 .f32) (harg5 : arg5.IsWhole) (arg6 : Memref sig .tc .vmem S1x1024 .f32) (harg6 : arg6.IsWhole) (arg7 : Memref sig .tc .vmem S1024x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S17x1024 .f32) (harg12 : arg12.IsWhole) (arg13 : Memref sig .tc .vmem S1x1024 .f32) (harg13 : arg13.IsWhole) (arg14 : Memref sig .tc .vmem S128x1024 .bf16) (harg14 : arg14.IsWhole) (arg15 : Memref sig .tc .vmem S12288x1024 .bf16) (harg15 : arg15.IsWhole)
    (hc1 : ¬ k0_cond1 i = 1#1) (hc2 : k0_cond2 i = 1#1)
    (x0 : Vec F S128x12288 .f32) (x2 : Vec F S128x17 .f32) (x3 : Vec F S128x128 .f32) (x4 : Vec F S17x1024 .f32) (x5 : Vec F S1x1024 .f32) (x6 : Vec F S1024x128 .f32) (x7 : Vec F S1x128 .f32) (x8 : Vec F S1024x128 .f32) (x9 : Vec F S1x128 .f32) (x10 : Vec F S128x1024 .f32) (x11 : Vec F S17x1024 .f32) (x12 : Vec F S1x1024 .f32) (xs : Vec F S12288x1024 .bf16) :
    { L : List (View.Piece (Elt F) S128x1024 .bf16) //
      ∀ (E : Set ℕ) (K : PUnit → sProp 𝕄),
        iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xs
            ∗ (iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L) ∗ owns (c : Thread nD τ) arg15 fullShare xs) -∗ K ⟨⟩))
          ⊢ wp frame (wpE (defs₀ (F := F)) Variants.none c none) E (cc0__stage_a i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__stage_a_eq_skeleton]; unfold cc0__stage_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d, %fo, -, HO⟩, ⟨%fs, %hfs, HS⟩, Hk⟩
    obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg15.eq_unread hfs
    sl_exec (disch := first | exact hc1 | exact hc2)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HO]
    · iexists fo; iexact HO
    iexists _; isplitr; · ipureintro; exact harg15.read_unread _
    iexact HS

end Cert.KernelIdeal.Hand

end
-- ==== Proof.R0Dat.lean ====
import proofs.«111944_g88321707475356_cont_sun_m_1037_20_alg».proof.Proof.R0Encode
import Idealize.ShloMosaic.Lib.ValueIdx
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The first kernel's proof data at the contents `V` its region is entered with.
    Points 0–11 store, one slab of 1024 rows each, the narrowed encoder weights into the resident copy; points 12–19
    read the whole copy. The region's invariant therefore says of the resident copy, before point `n`, only that
    the slabs of the points below `min n 12` are in place; from point 12 on that determines it everywhere. -/

section
variable (V : (c : Dev nD) → (b : Ref sig .tc) → Buf (Elt F) ((c : Thread nD τ).loc b))

/-! ## Facts decided over the grid's twenty points -/

theorem hcond1 : ∀ t : Fin cfg0.N, k0_cond1 (grid0.coords t) = 1#1 ↔ t.val < 12 :=
  (by decide +kernel : ∀ t : Fin grid0.N, k0_cond1 (grid0.coords t) = 1#1 ↔ t.val < 12)
theorem hcond2 : ∀ t : Fin cfg0.N, k0_cond2 (grid0.coords t) = 1#1 ↔ 12 ≤ t.val :=
  (by decide +kernel : ∀ t : Fin grid0.N, k0_cond2 (grid0.coords t) = 1#1 ↔ 12 ≤ t.val)
/-- The weight window's block index never passes 11, so no fetched block overhangs the 12305 rows. -/
theorem clip0_1 : ∀ (i : cfg0.grid.Coords) a, (cfg0.win 1).clip i a = none := by decide +kernel
theorem idle0_13 : ∀ t : Fin cfg0.N, t.val < 12 → cfg0.idle 13 (grid0.coords t) = true :=
  (by decide +kernel : ∀ t : Fin grid0.N, t.val < 12 → cfg0.idle 13 (grid0.coords t) = true)
theorem live0_13 : ∀ t : Fin cfg0.N, 12 ≤ t.val → cfg0.idle 13 (grid0.coords t) = false :=
  (by decide +kernel : ∀ t : Fin grid0.N, 12 ≤ t.val → cfg0.idle 13 (grid0.coords t) = false)
theorem noFlush0_13 : ∀ t : Fin cfg0.N, t.val < 12 → (cfg0.win 13).flush t = false :=
  (by decide +kernel : ∀ t : Fin grid0.N, t.val < 12 → win0_13.flush t = false)
/-- The slab of point `t` starts at row `1024 t`. -/
theorem off0 : ∀ t : Fin cfg0.N, t.val < 12 → k0_off1 (grid0.coords t) = ![1024 * t.val, 0] :=
  (by decide +kernel : ∀ t : Fin grid0.N, t.val < 12 → k0_off1 (grid0.coords t) = ![1024 * t.val, 0])

/-! ## The windows' staging memrefs, the resident copy, the inputs' contents -/

abbrev ms0_0 (t : Fin cfg0.N) : Memref sig .tc .vmem S128x12288 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x17 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S17x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S17x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x1024 .bf16 := win0_13.stage (cfg0.slots t 13)
abbrev hs0_13 (t : Fin cfg0.N) : (ms0_13 t).IsWhole := hstage0_13 ((cfg0.slots t 13).cast nbuf0_13)
/-- The resident copy of the encoder weights: a whole scoped buffer of the kernel's own. -/
abbrev scM0 : Memref sig .tc .vmem S12288x1024 .bf16 := Memref.whole cc0_scratch0
abbrev VS0 : View sig .tc .vmem S12288x1024 .bf16 := scM0.view
abbrev VO0_13 : View sig .tc .vmem S128x1024 .bf16 := (Memref.whole cc0_stg13_0 : Memref sig .tc .vmem S128x1024 .bf16).view

/-- The windows' arrays as the region finds them. -/
abbrev A0 (c : Dev nD) : (w : Fin cfg0.W) → Buf (Elt F) ((cfg0.win w).arr.view.loc (c.tc : Thread nD τ)) :=
  fun w => V c (Pipeline.arrRef spec0 w)

/-- What input window `w`'s current staging buffer holds at point `t`: the block last fetched into it. -/
def held0 (c : Dev nD) (w : Fin cfg0.W) (t : Fin cfg0.N) : (cfg0.win w).block.Idx → Elt F (cfg0.win w).elt :=
  Pipeline.heldIn cfg0 (A0 V c) w t.val t.isLt

/-! ## The slab a loading point stores, and the resident copy -/

/-- The pieces point `t`'s store leaves in the resident copy (one piece: its slab). -/
def slabL (c : Dev nD) (t : Fin cfg0.N) (h : t.val < 12) : List (View.Piece (Elt F) S12288x1024 .bf16) :=
  (runLoad c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0 (Memref.isWhole_whole _) ((hcond1 t).mpr h) (fun h2 => absurd ((hcond2 t).mp h2) (by omega)) (held0 V c 1 t)).1

/-- The slab of point `t`: the weight block in the window's staging buffer, narrowed. -/
def slab (c : Dev nD) (t : Fin cfg0.N) : Vec F S1024x1024 .bf16 :=
  k0_pay1 (View.readAt (Elt F) (ms0_1 t).view (Rect.unit (s := S1024x1024) ![0, 0] S1024x1024.size inb_S1024x1024_S1024x1024_0_0).toLoadRect ((hs0_1 t).unread (held0 V c 1 t)))

theorem slabL_eq (c : Dev nD) (t : Fin cfg0.N) (h : t.val < 12) :
    slabL V c t h = [⟨Rect.unit (s := S12288x1024) (k0_off1 (grid0.coords t)) S1024x1024.size (k0_off1_inb _ ((hcond1 t).mpr h)), slab V c t⟩] := by
  unfold slabL slab runLoad; rfl

/-- Contents `f` of the resident copy have the slabs of the points below `n` (and below 12) in place:
    row `1024 k + p`, column `q` is slab `k` at `(p, q)`. -/
def ScrOk (c : Dev nD) (n : ℕ) (f : Vec F S12288x1024 .bf16) : Prop :=
  ∀ (k : Fin cfg0.N) (p q : Fin 1024) (r : Fin 12288), k.val < n → k.val < 12 → r.val = 1024 * k.val + p.val →
    f (ValueIdx.ix2 r q) = slab V c k (ValueIdx.ix2 p q)

/-- The resident copy once every slab is in place: row `r` belongs to slab `r / 1024`, at its row `r % 1024`. -/
def wfull (c : Dev nD) : Vec F S12288x1024 .bf16 := fun y =>
  slab V c ⟨(y 0).val / 1024, by rw [show cfg0.N = 20 from N_0]; have := ValueIdx.idx2_lt0 y; omega⟩
    (ValueIdx.ix2 (⟨(y 0).val % 1024, Nat.mod_lt _ (by decide)⟩ : Fin 1024) (⟨(y 1).val, ValueIdx.idx2_lt1 y⟩ : Fin 1024))

theorem scrOk_wfull (c : Dev nD) (n : ℕ) : ScrOk V c n (wfull V c) := by
  intro k p q r _ hk hr
  unfold wfull
  have hk' : (⟨r.val / 1024, by rw [show cfg0.N = 20 from N_0]; omega⟩ : Fin cfg0.N) = k := Fin.ext (by
    show r.val / 1024 = k.val; omega)
  have hp : (⟨r.val % 1024, Nat.mod_lt _ (by decide)⟩ : Fin 1024) = p := Fin.ext (by show r.val % 1024 = p.val; omega)
  show slab V c ⟨r.val / 1024, _⟩ (ValueIdx.ix2 (⟨r.val % 1024, _⟩ : Fin 1024) (⟨q.val, _⟩ : Fin 1024)) = _
  rw [hk', hp]

/-- From point 12 on the invariant's condition determines the resident copy. -/
theorem eq_wfull_of_scrOk (c : Dev nD) (n : ℕ) (hn : 12 ≤ n) (f : Vec F S12288x1024 .bf16) (hf : ScrOk V c n f) : f = wfull V c := by
  funext y
  obtain ⟨r, q, rfl⟩ : ∃ (r : Fin 12288) (q : Fin 1024), y = ValueIdx.ix2 r q := ⟨y 0, y 1, ValueIdx.eq_ix2 y⟩
  have hN : cfg0.N = 20 := N_0
  rw [hf ⟨r.val / 1024, by rw [hN]; omega⟩ ⟨r.val % 1024, Nat.mod_lt _ (by decide)⟩ q r (by show r.val / 1024 < n; omega) (by show r.val / 1024 < 12; omega)
    (by show r.val = 1024 * (r.val / 1024) + r.val % 1024; omega)]
  rfl

/-! ## The region's invariant -/

/-- The scoped buffers of the core that are neither a staging buffer of this kernel nor its resident copy: the
    second kernel's staging buffers, each whole at some contents. -/
def ScopedTail (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Before point `n`: the resident copy at contents with the first `min n 12` slabs in place, the other scoped
    buffers at anything, the generator register at some state. -/
def PhiS (c : Dev nD) (n : ℕ) : sProp 𝕄 :=
  iprop(((∃ f, ⌜ScrOk V c n f⌝ ∗ owns (c : Thread nD τ) scM0 fullShare f) ∗ ScopedTail c) ∗ (∃ r, prngReg c r))

theorem PhiA0_eq (c : Dev nD) :
    (Pipeline.ΦA spec0 c : sProp 𝕄)
      = iprop(((∃ d, owns (c : Thread nD τ) scM0 fullShare d) ∗ ScopedTail c) ∗ (∃ r, prngReg c r)) := by
  unfold Pipeline.ΦA ScopedTail; rw [scopedRest0_eq]; simp only [scM0, owns_whole]; try rfl

/-! ## The proof data -/

theorem cover0_13 (c : Dev nD) (i : grid0.Coords) (arg1 : Memref sig .tc .vmem S128x12288 .f32) (harg1 : arg1.IsWhole) (arg2 : Memref sig .tc .vmem S1024x1024 .f32) (harg2 : arg2.IsWhole) (arg3 : Memref sig .tc .vmem S128x17 .f32) (harg3 : arg3.IsWhole) (arg4 : Memref sig .tc .vmem S128x128 .f32) (harg4 : arg4.IsWhole) (arg5 : Memref sig .tc .vmem S17x1024 .f32) (harg5 : arg5.IsWhole) (arg6 : Memref sig .tc .vmem S1x1024 .f32) (harg6 : arg6.IsWhole) (arg7 : Memref sig .tc .vmem S1024x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S17x1024 .f32) (harg12 : arg12.IsWhole) (arg13 : Memref sig .tc .vmem S1x1024 .f32) (harg13 : arg13.IsWhole) (arg14 : Memref sig .tc .vmem S128x1024 .bf16) (harg14 : arg14.IsWhole) (arg15 : Memref sig .tc .vmem S12288x1024 .bf16) (harg15 : arg15.IsWhole)
    (hc1 : ¬ k0_cond1 i = 1#1) (hc2 : k0_cond2 i = 1#1)
    (x0 : Vec F S128x12288 .f32) (x2 : Vec F S128x17 .f32) (x3 : Vec F S128x128 .f32) (x4 : Vec F S17x1024 .f32) (x5 : Vec F S1x1024 .f32) (x6 : Vec F S1024x128 .f32) (x7 : Vec F S1x128 .f32) (x8 : Vec F S1024x128 .f32) (x9 : Vec F S1x128 .f32) (x10 : Vec F S128x1024 .f32) (x11 : Vec F S17x1024 .f32) (x12 : Vec F S1x1024 .f32) (xs : Vec F S12288x1024 .bf16) (y : S128x1024.Idx) :
    ∃ pc ∈ (runEncode c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 x0 x2 x3 x4 x5 x6 x7 x8 x9 x10 x11 x12 xs).1, y ∈ pc.1.set :=
  View.cover_of_tiledL (runEncode c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 x0 x2 x3 x4 x5 x6 x7 x8 x9 x10 x11 x12 xs).1 S128x1024.size (by sl_kernel_rfl) y

/-- What an encoding point leaves in the output's staging buffer: its one store read back. -/
def out0_13 (c : Dev nD) (t : Fin cfg0.N) (h : 12 ≤ t.val) : Vec F S128x1024 .bf16 :=
  VO0_13.read (Elt F) (VO0_13.writes (Elt F) VO0_13.junk
    (runEncode c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0 (Memref.isWhole_whole _) (fun h1 => absurd ((hcond1 t).mp h1) (by omega)) ((hcond2 t).mpr h)
      (held0 V c 0 t) (held0 V c 2 t) (held0 V c 3 t) (held0 V c 4 t) (held0 V c 5 t) (held0 V c 6 t) (held0 V c 7 t) (held0 V c 8 t) (held0 V c 9 t) (held0 V c 10 t) (held0 V c 11 t) (held0 V c 12 t) (wfull V c)).1)

def dat0 (c : Dev nD) : Dat τ (Elt F) Unit ℕ (UR sig nD τ) ℕ cfg0 c where
  A w := V c (Pipeline.arrRef spec0 w)
  after w t := match w with
    | ⟨0, _⟩ => held0 V c 0 t
    | ⟨1, _⟩ => held0 V c 1 t
    | ⟨2, _⟩ => held0 V c 2 t
    | ⟨3, _⟩ => held0 V c 3 t
    | ⟨4, _⟩ => held0 V c 4 t
    | ⟨5, _⟩ => held0 V c 5 t
    | ⟨6, _⟩ => held0 V c 6 t
    | ⟨7, _⟩ => held0 V c 7 t
    | ⟨8, _⟩ => held0 V c 8 t
    | ⟨9, _⟩ => held0 V c 9 t
    | ⟨10, _⟩ => held0 V c 10 t
    | ⟨11, _⟩ => held0 V c 11 t
    | ⟨12, _⟩ => held0 V c 12 t
    | ⟨13, _⟩ => if h : 12 ≤ t.val then out0_13 V c t h else fun _ => Classical.arbitrary _
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = held0 V c 0 t := by dsimp only [dat0]
theorem after0_1 (c : Dev nD) (t : Fin cfg0.N) : (dat0 V c).after 1 t = held0 V c 1 t := by dsimp only [dat0]
theorem after0_2 (c : Dev nD) (t : Fin cfg0.N) : (dat0 V c).after 2 t = held0 V c 2 t := by dsimp only [dat0]
theorem after0_3 (c : Dev nD) (t : Fin cfg0.N) : (dat0 V c).after 3 t = held0 V c 3 t := by dsimp only [dat0]
theorem after0_4 (c : Dev nD) (t : Fin cfg0.N) : (dat0 V c).after 4 t = held0 V c 4 t := by dsimp only [dat0]
theorem after0_5 (c : Dev nD) (t : Fin cfg0.N) : (dat0 V c).after 5 t = held0 V c 5 t := by dsimp only [dat0]
theorem after0_6 (c : Dev nD) (t : Fin cfg0.N) : (dat0 V c).after 6 t = held0 V c 6 t := by dsimp only [dat0]
theorem after0_7 (c : Dev nD) (t : Fin cfg0.N) : (dat0 V c).after 7 t = held0 V c 7 t := by dsimp only [dat0]
theorem after0_8 (c : Dev nD) (t : Fin cfg0.N) : (dat0 V c).after 8 t = held0 V c 8 t := by dsimp only [dat0]
theorem after0_9 (c : Dev nD) (t : Fin cfg0.N) : (dat0 V c).after 9 t = held0 V c 9 t := by dsimp only [dat0]
theorem after0_10 (c : Dev nD) (t : Fin cfg0.N) : (dat0 V c).after 10 t = held0 V c 10 t := by dsimp only [dat0]
theorem after0_11 (c : Dev nD) (t : Fin cfg0.N) : (dat0 V c).after 11 t = held0 V c 11 t := by dsimp only [dat0]
theorem after0_12 (c : Dev nD) (t : Fin cfg0.N) : (dat0 V c).after 12 t = held0 V c 12 t := by dsimp only [dat0]
theorem after0_13 (c : Dev nD) (t : Fin cfg0.N) (h : 12 ≤ t.val) : (dat0 V c).after 13 t = out0_13 V c t h := by
  dsimp only [dat0]; exact dif_pos h

theorem before0_0 (c : Dev nD) (t : Fin cfg0.N) (d) : (dat0 V c).before 0 t d = held0 V c 0 t :=
  (dat0 V c).before_eq_heldIn 0 rfl (fun _ => rfl) (fun _ _ => rfl) (fun t => after0_0 V c t) t d
theorem before0_1 (c : Dev nD) (t : Fin cfg0.N) (d) : (dat0 V c).before 1 t d = held0 V c 1 t :=
  (dat0 V c).before_eq_heldIn 1 rfl (fun _ => rfl) clip0_1 (fun t => after0_1 V c t) t d
theorem before0_2 (c : Dev nD) (t : Fin cfg0.N) (d) : (dat0 V c).before 2 t d = held0 V c 2 t :=
  (dat0 V c).before_eq_heldIn 2 rfl (fun _ => rfl) (fun _ _ => rfl) (fun t => after0_2 V c t) t d
theorem before0_3 (c : Dev nD) (t : Fin cfg0.N) (d) : (dat0 V c).before 3 t d = held0 V c 3 t :=
  (dat0 V c).before_eq_heldIn 3 rfl (fun _ => rfl) (fun _ _ => rfl) (fun t => after0_3 V c t) t d
theorem before0_4 (c : Dev nD) (t : Fin cfg0.N) (d) : (dat0 V c).before 4 t d = held0 V c 4 t :=
  (dat0 V c).before_eq_heldIn 4 rfl (fun _ => rfl) (fun _ _ => rfl) (fun t => after0_4 V c t) t d
theorem before0_5 (c : Dev nD) (t : Fin cfg0.N) (d) : (dat0 V c).before 5 t d = held0 V c 5 t :=
  (dat0 V c).before_eq_heldIn 5 rfl (fun _ => rfl) (fun _ _ => rfl) (fun t => after0_5 V c t) t d
theorem before0_6 (c : Dev nD) (t : Fin cfg0.N) (d) : (dat0 V c).before 6 t d = held0 V c 6 t :=
  (dat0 V c).before_eq_heldIn 6 rfl (fun _ => rfl) (fun _ _ => rfl) (fun t => after0_6 V c t) t d
theorem before0_7 (c : Dev nD) (t : Fin cfg0.N) (d) : (dat0 V c).before 7 t d = held0 V c 7 t :=
  (dat0 V c).before_eq_heldIn 7 rfl (fun _ => rfl) (fun _ _ => rfl) (fun t => after0_7 V c t) t d
theorem before0_8 (c : Dev nD) (t : Fin cfg0.N) (d) : (dat0 V c).before 8 t d = held0 V c 8 t :=
  (dat0 V c).before_eq_heldIn 8 rfl (fun _ => rfl) (fun _ _ => rfl) (fun t => after0_8 V c t) t d
theorem before0_9 (c : Dev nD) (t : Fin cfg0.N) (d) : (dat0 V c).before 9 t d = held0 V c 9 t :=
  (dat0 V c).before_eq_heldIn 9 rfl (fun _ => rfl) (fun _ _ => rfl) (fun t => after0_9 V c t) t d
theorem before0_10 (c : Dev nD) (t : Fin cfg0.N) (d) : (dat0 V c).before 10 t d = held0 V c 10 t :=
  (dat0 V c).before_eq_heldIn 10 rfl (fun _ => rfl) (fun _ _ => rfl) (fun t => after0_10 V c t) t d
theorem before0_11 (c : Dev nD) (t : Fin cfg0.N) (d) : (dat0 V c).before 11 t d = held0 V c 11 t :=
  (dat0 V c).before_eq_heldIn 11 rfl (fun _ => rfl) (fun _ _ => rfl) (fun t => after0_11 V c t) t d
theorem before0_12 (c : Dev nD) (t : Fin cfg0.N) (d) : (dat0 V c).before 12 t d = held0 V c 12 t :=
  (dat0 V c).before_eq_heldIn 12 rfl (fun _ => rfl) (fun _ _ => rfl) (fun t => after0_12 V c t) t d

end

end Cert.KernelIdeal.Hand

end
-- ==== Proof.R0Body.lean ====
import proofs.«111944_g88321707475356_cont_sun_m_1037_20_alg».proof.Proof.R0Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The first kernel's body obligation at a generic grid point: a loading point moves the invariant one slab
    further; an encoding point finds the resident copy complete, hence at its closed form, and leaves the output's
    staging buffer at that point's block. -/

section
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t)

theorem leaves0_0 (c : Dev nD) (t : Fin cfg0.N) : (dat0 V c).leavesExact 0 t = owns (c : Thread nD τ) (ms0_0 t) fullShare (held0 V c 0 t) := by
  unfold Dat.leavesExact; rw [after0_0]
theorem leaves0_1 (c : Dev nD) (t : Fin cfg0.N) : (dat0 V c).leavesExact 1 t = owns (c : Thread nD τ) (ms0_1 t) fullShare (held0 V c 1 t) := by
  unfold Dat.leavesExact; rw [after0_1]
theorem leaves0_2 (c : Dev nD) (t : Fin cfg0.N) : (dat0 V c).leavesExact 2 t = owns (c : Thread nD τ) (ms0_2 t) fullShare (held0 V c 2 t) := by
  unfold Dat.leavesExact; rw [after0_2]
theorem leaves0_3 (c : Dev nD) (t : Fin cfg0.N) : (dat0 V c).leavesExact 3 t = owns (c : Thread nD τ) (ms0_3 t) fullShare (held0 V c 3 t) := by
  unfold Dat.leavesExact; rw [after0_3]
theorem leaves0_4 (c : Dev nD) (t : Fin cfg0.N) : (dat0 V c).leavesExact 4 t = owns (c : Thread nD τ) (ms0_4 t) fullShare (held0 V c 4 t) := by
  unfold Dat.leavesExact; rw [after0_4]
theorem leaves0_5 (c : Dev nD) (t : Fin cfg0.N) : (dat0 V c).leavesExact 5 t = owns (c : Thread nD τ) (ms0_5 t) fullShare (held0 V c 5 t) := by
  unfold Dat.leavesExact; rw [after0_5]
theorem leaves0_6 (c : Dev nD) (t : Fin cfg0.N) : (dat0 V c).leavesExact 6 t = owns (c : Thread nD τ) (ms0_6 t) fullShare (held0 V c 6 t) := by
  unfold Dat.leavesExact; rw [after0_6]
theorem leaves0_7 (c : Dev nD) (t : Fin cfg0.N) : (dat0 V c).leavesExact 7 t = owns (c : Thread nD τ) (ms0_7 t) fullShare (held0 V c 7 t) := by
  unfold Dat.leavesExact; rw [after0_7]
theorem leaves0_8 (c : Dev nD) (t : Fin cfg0.N) : (dat0 V c).leavesExact 8 t = owns (c : Thread nD τ) (ms0_8 t) fullShare (held0 V c 8 t) := by
  unfold Dat.leavesExact; rw [after0_8]
theorem leaves0_9 (c : Dev nD) (t : Fin cfg0.N) : (dat0 V c).leavesExact 9 t = owns (c : Thread nD τ) (ms0_9 t) fullShare (held0 V c 9 t) := by
  unfold Dat.leavesExact; rw [after0_9]
theorem leaves0_10 (c : Dev nD) (t : Fin cfg0.N) : (dat0 V c).leavesExact 10 t = owns (c : Thread nD τ) (ms0_10 t) fullShare (held0 V c 10 t) := by
  unfold Dat.leavesExact; rw [after0_10]
theorem leaves0_11 (c : Dev nD) (t : Fin cfg0.N) : (dat0 V c).leavesExact 11 t = owns (c : Thread nD τ) (ms0_11 t) fullShare (held0 V c 11 t) := by
  unfold Dat.leavesExact; rw [after0_11]
theorem leaves0_12 (c : Dev nD) (t : Fin cfg0.N) : (dat0 V c).leavesExact 12 t = owns (c : Thread nD τ) (ms0_12 t) fullShare (held0 V c 12 t) := by
  unfold Dat.leavesExact; rw [after0_12]

/-- One more slab: after a loading point's store the slabs of the points up to it are in place. -/
theorem scrOk_step (c : Dev nD) (t : Fin cfg0.N) (h : t.val < 12) (f : Vec F S12288x1024 .bf16) (hf : ScrOk V c t.val f)
    (f' : VS0.ty.Contents (Elt F)) (hf' : VS0.read (Elt F) f' = f) :
    ScrOk V c (t.val + 1) (VS0.read (Elt F) (VS0.writes (Elt F) f' (slabL V c t h))) := by
  intro k p q r hk hk12 hr
  rw [slabL_eq]
  by_cases hkt : k = t
  · subst hkt
    exact View.read_writes_cons_rows_of_mem VS0 f' (k0_off1_inb _ ((hcond1 k).mpr h)) (slab V c k) [] (ValueIdx.ix2 r q) (ValueIdx.ix2 p q)
      (off0 k h) hr rfl
  · have hlt : k.val < t.val := by
      have : k.val ≠ t.val := fun e => hkt (Fin.ext e)
      omega
    rw [View.read_writes_cons_rows_of_not_mem VS0 f' (k0_off1_inb _ ((hcond1 t).mpr h)) (slab V c t) [] (ValueIdx.ix2 r q) (off0 t h) (W := 1024) rfl
      (Or.inl (by show r.val < 1024 * t.val; have := p.isLt; omega))]
    show VS0.read (Elt F) f' (ValueIdx.ix2 r q) = _
    rw [hf']
    exact hf k p q r hlt hk12 hr

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).owesAt () t.succ = (dat0 V c).owesAt () t.castSucc from rfl]
  rw [show (dat0 V c).Φ t.succ = PhiS V c (t.val + 1) from rfl, show (dat0 V c).Φ t.castSucc = PhiS V c t.val from rfl]
  rw [leaves0_0, leaves0_1, leaves0_2, leaves0_3, leaves0_4, leaves0_5, leaves0_6, leaves0_7, leaves0_8, leaves0_9, leaves0_10, leaves0_11, leaves0_12]
  by_cases h : t.val < 12
  · rw [Dat.leavesExact_idle (dat0 V c) 13 t (idle0_13 t h) (noFlush0_13 t h)]
    unfold PhiS
    iintro ⟨⟨⟨⟨%f, %hf, HS⟩, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runLoad c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0 (Memref.isWhole_whole _) ((hcond1 t).mpr h) (fun h2 => absurd ((hcond2 t).mp h2) (by omega)) (held0 V c 1 t)).2 f Set.univ _)
    isplitl [H1]; · iexact H1
    isplitl [HS]; · iexact HS
    iintro ⟨H1, ⟨%f', %hf', HS⟩⟩
    isplitl [HS HT Hg]
    · isplitl [HS HT]
      · isplitl [HS]
        · iexists (VS0.read (Elt F) (VS0.writes (Elt F) f' (slabL V c t h)))
          isplitr
          · ipureintro; exact scrOk_step V c t h f hf f' hf'
          · unfold owns; iexists _; isplitr
            · ipureintro; rfl
            · iexact HS
        · iexact HT
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13; iexact H13
  · have h12 : 12 ≤ t.val := by omega
    have hle : (dat0 V c).leavesExact 13 t = owns (c : Thread nD τ) (ms0_13 t) fullShare (out0_13 V c t h12) := by
      unfold Dat.leavesExact; rw [live0_13 t h12, after0_13 V c t h12]
    rw [hle]
    unfold PhiS out0_13
    iintro ⟨⟨⟨⟨%f, %hf, HS⟩, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    obtain rfl := eq_wfull_of_scrOk V c t.val h12 f hf
    iapply ((runEncode c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0 (Memref.isWhole_whole _) (fun h1 => absurd ((hcond1 t).mp h1) (by omega)) ((hcond2 t).mpr h12)
      (held0 V c 0 t) (held0 V c 2 t) (held0 V c 3 t) (held0 V c 4 t) (held0 V c 5 t) (held0 V c 6 t) (held0 V c 7 t) (held0 V c 8 t) (held0 V c 9 t) (held0 V c 10 t) (held0 V c 11 t) (held0 V c 12 t) (wfull V c)).2 Set.univ _)
    isplitl [H0]; · iexact H0
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS]; · iexact HS
    iintro ⟨H0, H2, H3, H4, H5, H6, H7, H8, H9, H10, H11, H12, ⟨%e, H13⟩, HS⟩
    isplitl [HS HT Hg]
    · isplitl [HS HT]
      · isplitl [HS]
        · iexists (wfull V c); isplitr
          · ipureintro; exact scrOk_wfull V c _
          · iexact HS
        · iexact HT
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold owns; iexists _; isplitr
    swap; · iexact H13
    ipureintro; exact View.read_writes_of_cover _ _ _ _ _ (cover0_13 c _ _ _ _ _ _ _ _ _ _ _ _ _ _ _ _ _ _ _ _ _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.R1Decode.lean ====
import proofs.«111944_g88321707475356_cont_sun_m_1037_20_alg».proof.Proof.Gen.KernelIdeal.Launch
import proofs.«111944_g88321707475356_cont_sun_m_1037_20_alg».proof.Proof.Gen.KernelIdeal.Skeleton
import proofs.«111944_g88321707475356_cont_sun_m_1037_20_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of the second kernel at any point: it reads the decoder's hidden layer (resident), one column tile
    of the output weights and of the output bias, and stores the tile of the image means into the output's
    staging buffer. The inputs are left as they were. -/

set_option maxHeartbeats 2000000 in
noncomputable def runDecode (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .f32) (x2 : Vec F S1x1024 .f32) :
    { L : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc1__stage_b i arg1 harg1 arg2 harg2 arg3 harg3 arg4 harg4) K } := by
  refine ⟨?_, fun E K => ?run⟩
  case run =>
    simp only [cc1__stage_b_eq_skeleton]; unfold cc1__stage_b_skel
    unfold owns
    iintro ⟨⟨%f0, %hf0, H0⟩, ⟨%f1, %hf1, H1⟩, ⟨%f2, %hf2, H2⟩, ⟨%d, %fo, -, HO⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists fo; iexact HO

end Cert.KernelIdeal.Hand

end
-- ==== Proof.R1Dat.lean ====
import proofs.«111944_g88321707475356_cont_sun_m_1037_20_alg».proof.Proof.R1Decode

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The second kernel's proof data at the contents `V` its region is entered with: each input window's staging
    buffer holds its block of the array, the output window's what the body's store leaves there (one piece tiling
    the block), and the body obligation at a generic grid point. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- The body's one store tiles the output block. -/
theorem cover1_3 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .f32) (x2 : Vec F S1x1024 .f32) (y : S1024x1024.Idx) :
    ∃ pc ∈ (runDecode c i arg1 harg1 arg2 harg2 arg3 harg3 arg4 harg4 x0 x1 x2).1, y ∈ pc.1.set :=
  View.cover_of_tiledL (runDecode c i arg1 harg1 arg2 harg2 arg3 harg3 arg4 harg4 x0 x1 x2).1 S1024x1024.size (by sl_kernel_rfl) y

/-- What the body leaves in the output's staging buffer. -/
def out1_3 (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .f32) (x2 : Vec F S1x1024 .f32) : Vec F S1024x1024 .f32 :=
  VO1_3.read (Elt F) (VO1_3.writes (Elt F) VO1_3.junk (runDecode c i arg1 harg1 arg2 harg2 arg3 harg3 arg4 harg4 x0 x1 x2).1)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply ((runDecode c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.Run.lean ====
import proofs.«111944_g88321707475356_cont_sun_m_1037_20_alg».proof.Proof.R0Body
import proofs.«111944_g88321707475356_cont_sun_m_1037_20_alg».proof.Proof.R1Dat
import proofs.«111944_g88321707475356_cont_sun_m_1037_20_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The program's run as five segments — host operations, the first kernel, host operations, the second kernel,
    host operations — with the buffers' contents at every boundary named, so that the final state is read whole:
    every buffer outside the kernels' own at the last boundary's contents. The arguments read back through the
    boundaries to the launch memory; the result is the last reshape of what the second kernel's write-backs leave. -/

section
variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
abbrev W5 : Dev nD → Valuation τ sig (Elt F) := fun c => StableHlo.after hostOps2 (W4 m ρ c)

/-! ## Every argument reads back to the launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := (W4_of_ne m ρ c main_arg0 (by decide))
    _ = W2 m ρ c (Proc.devRef .tc main_arg0) := StableHlo.after_of_writes_sub hostOps1 _ hostOps1_writes (by decide)
    _ = W1 m ρ c (Proc.devRef .tc main_arg0) := (W2_of_ne m ρ c main_arg0 (by decide))
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := (W4_of_ne m ρ c main_arg1 (by decide))
    _ = W2 m ρ c (Proc.devRef .tc main_arg1) := StableHlo.after_of_writes_sub hostOps1 _ hostOps1_writes (by decide)
    _ = W1 m ρ c (Proc.devRef .tc main_arg1) := ((W2_arr m ρ c 2).trans (((dat0 (V1 m ρ) c).arrAt_in 2 rfl _).trans (A_eq0 (V1 m ρ) c 2)))
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := (W4_of_ne m ρ c main_arg2 (by decide))
    _ = W2 m ρ c (Proc.devRef .tc main_arg2) := StableHlo.after_of_writes_sub hostOps1 _ hostOps1_writes (by decide)
    _ = W1 m ρ c (Proc.devRef .tc main_arg2) := ((W2_arr m ρ c 3).trans (((dat0 (V1 m ρ) c).arrAt_in 3 rfl _).trans (A_eq0 (V1 m ρ) c 3)))
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := (W4_of_ne m ρ c main_arg3 (by decide))
    _ = W2 m ρ c (Proc.devRef .tc main_arg3) := StableHlo.after_of_writes_sub hostOps1 _ hostOps1_writes (by decide)
    _ = W1 m ρ c (Proc.devRef .tc main_arg3) := ((W2_arr m ρ c 1).trans (((dat0 (V1 m ρ) c).arrAt_in 1 rfl _).trans (A_eq0 (V1 m ρ) c 1)))
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := (W4_of_ne m ρ c main_arg4 (by decide))
    _ = W2 m ρ c (Proc.devRef .tc main_arg4) := StableHlo.after_of_writes_sub hostOps1 _ hostOps1_writes (by decide)
    _ = W1 m ρ c (Proc.devRef .tc main_arg4) := (W2_of_ne m ρ c main_arg4 (by decide))
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := (W4_of_ne m ρ c main_arg5 (by decide))
    _ = W2 m ρ c (Proc.devRef .tc main_arg5) := StableHlo.after_of_writes_sub hostOps1 _ hostOps1_writes (by decide)
    _ = W1 m ρ c (Proc.devRef .tc main_arg5) := ((W2_arr m ρ c 6).trans (((dat0 (V1 m ρ) c).arrAt_in 6 rfl _).trans (A_eq0 (V1 m ρ) c 6)))
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := (W4_of_ne m ρ c main_arg6 (by decide))
    _ = W2 m ρ c (Proc.devRef .tc main_arg6) := StableHlo.after_of_writes_sub hostOps1 _ hostOps1_writes (by decide)
    _ = W1 m ρ c (Proc.devRef .tc main_arg6) := (W2_of_ne m ρ c main_arg6 (by decide))
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := (W4_of_ne m ρ c main_arg7 (by decide))
    _ = W2 m ρ c (Proc.devRef .tc main_arg7) := StableHlo.after_of_writes_sub hostOps1 _ hostOps1_writes (by decide)
    _ = W1 m ρ c (Proc.devRef .tc main_arg7) := ((W2_arr m ρ c 8).trans (((dat0 (V1 m ρ) c).arrAt_in 8 rfl _).trans (A_eq0 (V1 m ρ) c 8)))
    _ = W0 m ρ c (Proc.devRef .tc main_arg7) := StableHlo.after_of_writes_sub hostOps0 _ hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := (W4_of_ne m ρ c main_arg8 (by decide))
    _ = W2 m ρ c (Proc.devRef .tc main_arg8) := StableHlo.after_of_writes_sub hostOps1 _ hostOps1_writes (by decide)
    _ = W1 m ρ c (Proc.devRef .tc main_arg8) := (W2_of_ne m ρ c main_arg8 (by decide))
    _ = W0 m ρ c (Proc.devRef .tc main_arg8) := StableHlo.after_of_writes_sub hostOps0 _ hostOps0_writes (by decide)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (by decide)
    _ = W3 m ρ c (Proc.devRef .tc main_arg9) := (W4_of_ne m ρ c main_arg9 (by decide))
    _ = W2 m ρ c (Proc.devRef .tc main_arg9) := StableHlo.after_of_writes_sub hostOps1 _ hostOps1_writes (by decide)
    _ = W1 m ρ c (Proc.devRef .tc main_arg9) := (W2_of_ne m ρ c main_arg9 (by decide))
    _ = W0 m ρ c (Proc.devRef .tc main_arg9) := StableHlo.after_of_writes_sub hostOps0 _ hostOps0_writes (by decide)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (by decide)
    _ = W3 m ρ c (Proc.devRef .tc main_arg10) := (W4_of_ne m ρ c main_arg10 (by decide))
    _ = W2 m ρ c (Proc.devRef .tc main_arg10) := StableHlo.after_of_writes_sub hostOps1 _ hostOps1_writes (by decide)
    _ = W1 m ρ c (Proc.devRef .tc main_arg10) := (W2_of_ne m ρ c main_arg10 (by decide))
    _ = W0 m ρ c (Proc.devRef .tc main_arg10) := StableHlo.after_of_writes_sub hostOps0 _ hostOps0_writes (by decide)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (by decide)
    _ = W3 m ρ c (Proc.devRef .tc main_arg11) := ((W4_arr m ρ c 1).trans (((dat1 (V3 m ρ) c).arrAt_in 1 rfl _).trans (A_eq1 (V3 m ρ) c 1)))
    _ = W2 m ρ c (Proc.devRef .tc main_arg11) := StableHlo.after_of_writes_sub hostOps1 _ hostOps1_writes (by decide)
    _ = W1 m ρ c (Proc.devRef .tc main_arg11) := (W2_of_ne m ρ c main_arg11 (by decide))
    _ = W0 m ρ c (Proc.devRef .tc main_arg11) := StableHlo.after_of_writes_sub hostOps0 _ hostOps0_writes (by decide)
    _ = m ((c : Thread nD τ).loc main_arg11) := rfl
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps2 _ hostOps2_writes (by decide)
    _ = W3 m ρ c (Proc.devRef .tc main_arg12) := (W4_of_ne m ρ c main_arg12 (by decide))
    _ = W2 m ρ c (Proc.devRef .tc main_arg12) := StableHlo.after_of_writes_sub hostOps1 _ hostOps1_writes (by decide)
    _ = W1 m ρ c (Proc.devRef .tc main_arg12) := (W2_of_ne m ρ c main_arg12 (by decide))
    _ = W0 m ρ c (Proc.devRef .tc main_arg12) := StableHlo.after_of_writes_sub hostOps0 _ hostOps0_writes (by decide)
    _ = m ((c : Thread nD τ).loc main_arg12) := rfl

/-! ## The invariant's two ends -/

theorem PhiA_to_PhiS0 (V : (c : Dev nD) → (b : Ref sig .tc) → Buf (Elt F) ((c : Thread nD τ).loc b)) (c : Dev nD) :
    (Pipeline.ΦA spec0 c : sProp 𝕄) ⊢ PhiS V c 0 := by
  rw [PhiA0_eq]; unfold PhiS
  iintro ⟨⟨⟨%d, HS⟩, HT⟩, Hg⟩
  isplitl [HS HT]
  · isplitl [HS]
    · iexists d; isplitr
      · ipureintro; intro k p q r hk; exact absurd hk (Nat.not_lt_zero _)
      · iexact HS
    · iexact HT
  · iexact Hg

theorem PhiS_to_PhiA (V : (c : Dev nD) → (b : Ref sig .tc) → Buf (Elt F) ((c : Thread nD τ).loc b)) (c : Dev nD) (n : ℕ) :
    PhiS V c n ⊢ (Pipeline.ΦA spec0 c : sProp 𝕄) := by
  rw [PhiA0_eq]; unfold PhiS
  iintro ⟨⟨⟨%f, -, HS⟩, HT⟩, Hg⟩
  isplitl [HS HT]
  · isplitl [HS]
    · iexists f; iexact HS
    · iexact HT
  · iexact Hg

/-! ## The proof data family, the thread state, the regions -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (PhiA_to_PhiS0 (V1 m ρ) c)
    unfold Pipeline.ΦA
    iintro ⟨Hp, -, Hr⟩
    isplitl [Hr]; · iexact Hr
    iexact Hp
  hout c := by
    refine (PhiS_to_PhiA (V1 m ρ) c _).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [show (pdats m ρ 1 c).Φ (Fin.last _) = Pipeline.ΦA spec1 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution terminates, and in the final state every buffer outside the kernels' own holds the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end

end Cert.KernelIdeal.Hand

end
-- ==== Proof.Frames.lean ====
import proofs.«111944_g88321707475356_cont_sun_m_1037_20_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The frame, and the run with the result named: both read off the whole final state. -/

section
variable (m : (ℓ : Loc nD τ sig) → Buf (Elt F) ℓ) (ρ : Dev nD → PrngReg)

/-- Every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c)⟩) (run_all m ρ)

/-- The same run with the result array at the last boundary's contents. -/
theorem run_result : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v11 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c)⟩) (run_all m ρ)

end

end Cert.KernelIdeal.Hand

end
-- ==== Proof.Values.lean ====
import proofs.«111944_g88321707475356_cont_sun_m_1037_20_alg».proof.Proof.Frames
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What each body leaves, as its payload of the loaded blocks; and what an input window's staging buffer holds at
    a point: the block of the array its index map names there (an unfetched point keeps the block index, hence the
    block, of the point before). -/

section

theorem hz : (![0, 0] : Fin 2 → Nat) = fun _ => 0 := funext fun a => by fin_cases a <;> rfl

variable (V : (c : Dev nD) → (b : Ref sig .tc) → Buf (Elt F) ((c : Thread nD τ).loc b))

/-- An input window of the first kernel whose fetches are never clipped holds, at every point, the block fetched
    at that point's block index. -/
theorem held_eq_fetched (c : Dev nD) (w : Fin cfg0.W) (hw : (cfg0.win w).isOut = false)
    (hclip : ∀ (i : cfg0.grid.Coords) a, (cfg0.win w).clip i a = none) :
    ∀ (n : ℕ) (h : n < cfg0.N), Pipeline.heldIn cfg0 (A0 V c) w n h = (dat0 V c).fetched w ⟨n, h⟩ (fun _ => Classical.arbitrary _)
  | 0, h => rfl
  | n + 1, h => by
    by_cases hf : (cfg0.win w).fetch ⟨n + 1, h⟩ = true
    · exact (Pipeline.heldIn_of_fetch (A0 V c) w ⟨n + 1, h⟩ hf).trans rfl
    · rw [Bool.not_eq_true] at hf
      rw [Pipeline.heldIn_of_not_fetch (A0 V c) w n h hf, held_eq_fetched c w hw hclip n (Nat.lt_of_succ_lt h)]
      obtain ⟨_, hix⟩ := (cfg0.win w).index_eq_of_fetch hw ⟨n + 1, h⟩ hf
      exact ((dat0 V c).fetched_congr w hix (funext fun a => by rw [hclip, hclip]) _).symm

/-- The second kernel's output block is its payload of the three input blocks. -/
theorem out1_3_eq (c : Dev nD) (i : grid1.Coords) (arg1 : Memref sig .tc .vmem S1024x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .f32) (x2 : Vec F S1x1024 .f32) :
    out1_3 c i arg1 harg1 arg2 harg2 arg3 harg3 arg4 harg4 x0 x1 x2 = k1_pay1 x0 x1 x2 := by
  unfold out1_3
  rw [View.read_writes_eq_canon _ _ _ (cover1_3 c i arg1 harg1 arg2 harg2 arg3 harg3 arg4 harg4 x0 x1 x2)]
  unfold runDecode; dsimp only
  rw [View.canon_unit_zero hz]
  simp only [View.readAt_eq_ld, harg1.read_unread, harg2.read_unread, harg3.read_unread, View.ld_unit_zero (S := S1024x1024) hz, View.ld_unit_zero (S := S1x1024) hz]

/-- A loading point's slab is the narrowed weight block. -/
theorem slab_eq (c : Dev nD) (t : Fin cfg0.N) : slab V c t = k0_pay1 (held0 V c 1 t) := by
  unfold slab
  simp only [View.readAt_eq_ld, (hs0_1 t).read_unread, View.ld_unit_zero (S := S1024x1024) hz]

/-- An encoding point's output block is the payload chain of the point's input blocks and the resident copy. -/
theorem runEncode_out_eq (c : Dev nD) (i : grid0.Coords) (arg1 : Memref sig .tc .vmem S128x12288 .f32) (harg1 : arg1.IsWhole) (arg2 : Memref sig .tc .vmem S1024x1024 .f32) (harg2 : arg2.IsWhole) (arg3 : Memref sig .tc .vmem S128x17 .f32) (harg3 : arg3.IsWhole) (arg4 : Memref sig .tc .vmem S128x128 .f32) (harg4 : arg4.IsWhole) (arg5 : Memref sig .tc .vmem S17x1024 .f32) (harg5 : arg5.IsWhole) (arg6 : Memref sig .tc .vmem S1x1024 .f32) (harg6 : arg6.IsWhole) (arg7 : Memref sig .tc .vmem S1024x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S128x1024 .f32) (harg11 : arg11.IsWhole) (arg12 : Memref sig .tc .vmem S17x1024 .f32) (harg12 : arg12.IsWhole) (arg13 : Memref sig .tc .vmem S1x1024 .f32) (harg13 : arg13.IsWhole) (arg14 : Memref sig .tc .vmem S128x1024 .bf16) (harg14 : arg14.IsWhole) (arg15 : Memref sig .tc .vmem S12288x1024 .bf16) (harg15 : arg15.IsWhole)
    (hc1 : ¬ k0_cond1 i = 1#1) (hc2 : k0_cond2 i = 1#1)
    (x0 : Vec F S128x12288 .f32) (x2 : Vec F S128x17 .f32) (x3 : Vec F S128x128 .f32) (x4 : Vec F S17x1024 .f32) (x5 : Vec F S1x1024 .f32) (x6 : Vec F S1024x128 .f32) (x7 : Vec F S1x128 .f32) (x8 : Vec F S1024x128 .f32) (x9 : Vec F S1x128 .f32) (x10 : Vec F S128x1024 .f32) (x11 : Vec F S17x1024 .f32) (x12 : Vec F S1x1024 .f32) (xs : Vec F S12288x1024 .bf16) :
    VO0_13.read (Elt F) (VO0_13.writes (Elt F) VO0_13.junk (runEncode c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 x0 x2 x3 x4 x5 x6 x7 x8 x9 x10 x11 x12 xs).1)
      = k0_pay2 (k0_pay3 x2) (k0_pay4 x0 x2 xs x5 x4) (k0_pay5 x0 x2 xs x5 x4 x6 x7) x8 x9 x3 x10 x11 x12 := by
  rw [View.read_writes_eq_canon _ _ _ (cover0_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 x0 x2 x3 x4 x5 x6 x7 x8 x9 x10 x11 x12 xs)]
  unfold runEncode; dsimp only
  rw [View.canon_unit_zero hz]
  unfold runEncode.sl.r runEncode.sl.r_1 runEncode.sl.r_2 runEncode.sl.r_3
  simp only [View.readAt_eq_ld, harg1.read_unread, harg3.read_unread, harg4.read_unread, harg5.read_unread, harg6.read_unread, harg7.read_unread, harg8.read_unread, harg9.read_unread, harg10.read_unread, harg11.read_unread, harg12.read_unread, harg13.read_unread, harg15.read_unread, View.ld_unit_zero (S := S128x12288) hz, View.ld_unit_zero (S := S128x17) hz, View.ld_unit_zero (S := S128x128) hz, View.ld_unit_zero (S := S17x1024) hz, View.ld_unit_zero (S := S1x1024) hz, View.ld_unit_zero (S := S1024x128) hz, View.ld_unit_zero (S := S1x128) hz, View.ld_unit_zero (S := S128x1024) hz, View.ld_unit_zero (S := S12288x1024) hz, View.ld_unit_zero (S := S1024x1024) hz]

end

end Cert.KernelIdeal.Hand

end
-- ==== Proof.Spec.lean ====
import Idealize.ShloMosaic.PureOps.Ideal
import Idealize.ShloMosaic.Lib.ValueIdx

noncomputable section

/-! The network both programs compute, on the extended reals, as one function of the argument arrays.
    A conditional variational autoencoder's forward pass: the encoder's hidden layer is the softplus of the
    flattened image and the label against the encoder weights; the latent sample is the location plus the
    exponential of the log-scale times the noise; the decoder's hidden layer is the softplus of the sample and the
    label against the decoder weights; the image means are the logistic of the hidden layer against the output
    weights. Each matrix product over a concatenation `[u, y]` is written as the sum over `u`'s columns plus the
    sum over the label's 17 columns against the weights' last 17 rows. -/

namespace Cert.Spec

open Idealize.ShloMosaic Idealize.ShloMosaic.ValueIdx

/-- The softplus, `max a 0 + log (1 + e^(-|a|))`. -/
def sp (a : EReal) : EReal := max a 0 + Ideal.log1p (Ideal.exp (-(max a (-a))))

section
variable (xf : (⟨2, ![1024, 12288]⟩ : Shape).Idx → EReal) (y : (⟨2, ![1024, 17]⟩ : Shape).Idx → EReal)
  (eps : (⟨2, ![1024, 128]⟩ : Shape).Idx → EReal) (We : (⟨2, ![12305, 1024]⟩ : Shape).Idx → EReal)
  (be : (⟨1, ![1024]⟩ : Shape).Idx → EReal) (Wmu : (⟨2, ![1024, 128]⟩ : Shape).Idx → EReal)
  (bmu : (⟨1, ![128]⟩ : Shape).Idx → EReal) (Wls : (⟨2, ![1024, 128]⟩ : Shape).Idx → EReal)
  (bls : (⟨1, ![128]⟩ : Shape).Idx → EReal) (Wd : (⟨2, ![145, 1024]⟩ : Shape).Idx → EReal)
  (bd : (⟨1, ![1024]⟩ : Shape).Idx → EReal) (Wo : (⟨2, ![1024, 12288]⟩ : Shape).Idx → EReal)
  (bo : (⟨1, ![12288]⟩ : Shape).Idx → EReal)

/-- The encoder's hidden layer at row `p`, unit `j`. -/
def hid (p : Fin 1024) (j : Fin 1024) : EReal :=
  sp (((∑ k : Fin 12288, xf (ix2 p k) * We (ix2 (⟨k.val, by omega⟩ : Fin 12305) j)) + be (ix1 j))
    + ∑ t : Fin 17, y (ix2 p t) * We (ix2 (⟨12288 + t.val, by omega⟩ : Fin 12305) j))

/-- The latent location and log-scale. -/
def zloc (p : Fin 1024) (z : Fin 128) : EReal := (∑ k : Fin 1024, hid xf y We be p k * Wmu (ix2 k z)) + bmu (ix1 z)
def zls (p : Fin 1024) (z : Fin 128) : EReal := (∑ k : Fin 1024, hid xf y We be p k * Wls (ix2 k z)) + bls (ix1 z)

/-- The latent sample. -/
def lat (p : Fin 1024) (z : Fin 128) : EReal :=
  zloc xf y We be Wmu bmu p z + Ideal.exp (zls xf y We be Wls bls p z) * eps (ix2 p z)

/-- The decoder's hidden layer. -/
def hid2 (p : Fin 1024) (j : Fin 1024) : EReal :=
  sp (((∑ k : Fin 128, lat xf y eps We be Wmu bmu Wls bls p k * Wd (ix2 (⟨k.val, by omega⟩ : Fin 145) j))
      + ∑ t : Fin 17, y (ix2 p t) * Wd (ix2 (⟨128 + t.val, by omega⟩ : Fin 145) j)) + bd (ix1 j))

/-- The image means, flattened: row `p`, pixel `n`. -/
def img : (⟨2, ![1024, 12288]⟩ : Shape).Idx → EReal := fun i =>
  Ideal.logistic ((∑ k : Fin 1024, hid2 xf y eps We be Wmu bmu Wls bls Wd bd (i 0) k * Wo (ix2 k (i 1))) + bo (ix1 (i 1)))

end

end Cert.Spec

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.PayloadValue.lean ====
/-
  The kernel's payload functions read at an index, on the extended reals.

  Each payload is a composition of pointwise operations, identity casts, row broadcasts and plain matrix products into a
  zero accumulator. Read at `(p, j)`: a narrowing and a same-shape cast are the identity; a `[1, b]` row broadcast reads
  the row at `j`; a product `[M, K] · [K, N]` reads `Σ_k lhs (p, k) · rhs (k, j)`; and the guarded softplus the kernel
  spells out (a select on `a ≠ a`, which never holds) is `max a 0 + log (1 + e^(-|a|))`.
-/
import proofs.«111944_g88321707475356_cont_sun_m_1037_20_alg».proof.Proof.Gen.KernelIdeal.Skeleton
import proofs.«111944_g88321707475356_cont_sun_m_1037_20_alg».proof.Proof.Spec
import proofs.«111944_g88321707475356_cont_sun_m_1037_20_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Cert.KernelIdeal Cert.KernelIdeal.Gen Cert.Spec Idealize.ShloMosaic Idealize.ShloMosaic.ValueIdx

/-- A narrowing followed by a same-shape cast reads the operand. -/
theorem pay1_apply (v6 : Vec Ideal S1024x1024 .f32) (p q : Fin 1024) :
    k0_pay1 (F := Ideal) v6 (ix2 p q) = v6 (ix2 p q) := by
  unfold k0_pay1
  rw [shapeCast_self]
  rfl

/-- A narrowing reads the operand. -/
theorem pay3_apply (v9 : Vec Ideal S128x17 .f32) (p : Fin 128) (t : Fin 17) :
    k0_pay3 (F := Ideal) v9 (ix2 p t) = v9 (ix2 p t) := rfl

/-- `[128, 17] · [17, 1024]` into the zero splat at `(p, j)`. -/
theorem matmul17_at {φ₁ φ₂ : FTy} (lhs : FVec Ideal S128x17 φ₁) (rhs : FVec Ideal S17x1024 φ₂) (p : Fin 128) (j : Fin 1024) :
    FloatOps.matmul dot_S128x17_S17x1024_S128x1024_1_0_0_1_n_n none lhs rhs (constant (F := Ideal) S128x1024 .f32 0x00000000#32) (ix2 p j)
      = ∑ t : Fin 17, lhs (ix2 p t) * rhs (ix2 t j) :=
  Cert.LibPlainMatmul.matmul_zero_at dot_S128x17_S17x1024_S128x1024_1_0_0_1_n_n none rfl rfl
    (fun i q => by
      unfold DotDims.lhsIdx
      rw [dif_neg (show ¬(0 : Fin S128x17.rank) ∈ dot_S128x17_S17x1024_S128x1024_1_0_0_1_n_n.lhsBatch by decide), dif_pos (show (0 : Fin S128x17.rank) ∈ dot_S128x17_S17x1024_S128x1024_1_0_0_1_n_n.lhsNonContracting by decide)]
      rfl)
    (fun i q => dot_S128x17_S17x1024_S128x1024_1_0_0_1_n_n.lhsIdx_val_of_single rfl i q)
    (fun i q => dot_S128x17_S17x1024_S128x1024_1_0_0_1_n_n.rhsIdx_val_of_single rfl i q)
    (fun i q => by
      unfold DotDims.rhsIdx
      rw [dif_neg (show ¬(1 : Fin S17x1024.rank) ∈ dot_S128x17_S17x1024_S128x1024_1_0_0_1_n_n.rhsBatch by decide), dif_pos (show (1 : Fin S17x1024.rank) ∈ dot_S128x17_S17x1024_S128x1024_1_0_0_1_n_n.rhsNonContracting by decide)]
      rfl)
    lhs rhs p j

/-- `[128, 12288] · [12288, 1024]` into the zero splat at `(p, j)`. -/
theorem matmul12288_at {φ₁ φ₂ : FTy} (lhs : FVec Ideal S128x12288 φ₁) (rhs : FVec Ideal S12288x1024 φ₂) (p : Fin 128) (j : Fin 1024) :
    FloatOps.matmul dot_S128x12288_S12288x1024_S128x1024_1_0_0_1_n_n none lhs rhs (constant (F := Ideal) S128x1024 .f32 0x00000000#32) (ix2 p j)
      = ∑ k : Fin 12288, lhs (ix2 p k) * rhs (ix2 k j) :=
  Cert.LibPlainMatmul.matmul_zero_at dot_S128x12288_S12288x1024_S128x1024_1_0_0_1_n_n none rfl rfl
    (fun i q => by
      unfold DotDims.lhsIdx
      rw [dif_neg (show ¬(0 : Fin S128x12288.rank) ∈ dot_S128x12288_S12288x1024_S128x1024_1_0_0_1_n_n.lhsBatch by decide), dif_pos (show (0 : Fin S128x12288.rank) ∈ dot_S128x12288_S12288x1024_S128x1024_1_0_0_1_n_n.lhsNonContracting by decide)]
      rfl)
    (fun i q => dot_S128x12288_S12288x1024_S128x1024_1_0_0_1_n_n.lhsIdx_val_of_single rfl i q)
    (fun i q => dot_S128x12288_S12288x1024_S128x1024_1_0_0_1_n_n.rhsIdx_val_of_single rfl i q)
    (fun i q => by
      unfold DotDims.rhsIdx
      rw [dif_neg (show ¬(1 : Fin S12288x1024.rank) ∈ dot_S128x12288_S12288x1024_S128x1024_1_0_0_1_n_n.rhsBatch by decide), dif_pos (show (1 : Fin S12288x1024.rank) ∈ dot_S128x12288_S12288x1024_S128x1024_1_0_0_1_n_n.rhsNonContracting by decide)]
      rfl)
    lhs rhs p j

/-- `[128, 1024] · [1024, 128]` into the zero splat at `(p, j)`. -/
theorem matmul1024_at {φ₁ φ₂ : FTy} (lhs : FVec Ideal S128x1024 φ₁) (rhs : FVec Ideal S1024x128 φ₂) (p : Fin 128) (j : Fin 128) :
    FloatOps.matmul dot_S128x1024_S1024x128_S128x128_1_0_0_1_n_n none lhs rhs (constant (F := Ideal) S128x128 .f32 0x00000000#32) (ix2 p j)
      = ∑ k : Fin 1024, lhs (ix2 p k) * rhs (ix2 k j) :=
  Cert.LibPlainMatmul.matmul_zero_at dot_S128x1024_S1024x128_S128x128_1_0_0_1_n_n none rfl rfl
    (fun i q => by
      unfold DotDims.lhsIdx
      rw [dif_neg (show ¬(0 : Fin S128x1024.rank) ∈ dot_S128x1024_S1024x128_S128x128_1_0_0_1_n_n.lhsBatch by decide), dif_pos (show (0 : Fin S128x1024.rank) ∈ dot_S128x1024_S1024x128_S128x128_1_0_0_1_n_n.lhsNonContracting by decide)]
      rfl)
    (fun i q => dot_S128x1024_S1024x128_S128x128_1_0_0_1_n_n.lhsIdx_val_of_single rfl i q)
    (fun i q => dot_S128x1024_S1024x128_S128x128_1_0_0_1_n_n.rhsIdx_val_of_single rfl i q)
    (fun i q => by
      unfold DotDims.rhsIdx
      rw [dif_neg (show ¬(1 : Fin S1024x128.rank) ∈ dot_S128x1024_S1024x128_S128x128_1_0_0_1_n_n.rhsBatch by decide), dif_pos (show (1 : Fin S1024x128.rank) ∈ dot_S128x1024_S1024x128_S128x128_1_0_0_1_n_n.rhsNonContracting by decide)]
      rfl)
    lhs rhs p j

/-- `[128, 128] · [128, 1024]` into the zero splat at `(p, j)`. -/
theorem matmul128_at {φ₁ φ₂ : FTy} (lhs : FVec Ideal S128x128 φ₁) (rhs : FVec Ideal S128x1024 φ₂) (p : Fin 128) (j : Fin 1024) :
    FloatOps.matmul dot_S128x128_S128x1024_S128x1024_1_0_0_1_n_n none lhs rhs (constant (F := Ideal) S128x1024 .f32 0x00000000#32) (ix2 p j)
      = ∑ k : Fin 128, lhs (ix2 p k) * rhs (ix2 k j) :=
  Cert.LibPlainMatmul.matmul_zero_at dot_S128x128_S128x1024_S128x1024_1_0_0_1_n_n none rfl rfl
    (fun i q => by
      unfold DotDims.lhsIdx
      rw [dif_neg (show ¬(0 : Fin S128x128.rank) ∈ dot_S128x128_S128x1024_S128x1024_1_0_0_1_n_n.lhsBatch by decide), dif_pos (show (0 : Fin S128x128.rank) ∈ dot_S128x128_S128x1024_S128x1024_1_0_0_1_n_n.lhsNonContracting by decide)]
      rfl)
    (fun i q => dot_S128x128_S128x1024_S128x1024_1_0_0_1_n_n.lhsIdx_val_of_single rfl i q)
    (fun i q => dot_S128x128_S128x1024_S128x1024_1_0_0_1_n_n.rhsIdx_val_of_single rfl i q)
    (fun i q => by
      unfold DotDims.rhsIdx
      rw [dif_neg (show ¬(1 : Fin S128x1024.rank) ∈ dot_S128x128_S128x1024_S128x1024_1_0_0_1_n_n.rhsBatch by decide), dif_pos (show (1 : Fin S128x1024.rank) ∈ dot_S128x128_S128x1024_S128x1024_1_0_0_1_n_n.rhsNonContracting by decide)]
      rfl)
    lhs rhs p j

/-- `[1024, 1024] · [1024, 1024]` into the zero splat at `(p, j)`. -/
theorem matmulSq_at {φ₁ φ₂ : FTy} (lhs : FVec Ideal S1024x1024 φ₁) (rhs : FVec Ideal S1024x1024 φ₂) (p : Fin 1024) (j : Fin 1024) :
    FloatOps.matmul dot_S1024x1024_S1024x1024_S1024x1024_1_0_0_1_n_n none lhs rhs (constant (F := Ideal) S1024x1024 .f32 0x00000000#32) (ix2 p j)
      = ∑ k : Fin 1024, lhs (ix2 p k) * rhs (ix2 k j) :=
  Cert.LibPlainMatmul.matmul_zero_at dot_S1024x1024_S1024x1024_S1024x1024_1_0_0_1_n_n none rfl rfl
    (fun i q => by
      unfold DotDims.lhsIdx
      rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
      rfl)
    (fun i q => dot_S1024x1024_S1024x1024_S1024x1024_1_0_0_1_n_n.lhsIdx_val_of_single rfl i q)
    (fun i q => dot_S1024x1024_S1024x1024_S1024x1024_1_0_0_1_n_n.rhsIdx_val_of_single rfl i q)
    (fun i q => by
      unfold DotDims.rhsIdx
      rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
      rfl)
    lhs rhs p j

/-- The guarded softplus as spelled out pointwise: the guard `a - 0 ≠ a - 0` never holds, `a - 0 = a`, `0 - x = -x`, and
    `|x| = max x (-x)`, so the value is `max a 0 + log (1 + e^(-|a|))`. -/
theorem softplus_spelled (a : EReal) :
    Scalar.select (Ideal.cmp .one (a - 0) (a - 0)) (a + 0)
      (max a 0 + Ideal.log1p (Ideal.exp (0 - max (a - 0) (-(a - 0))))) = sp a := by
  have hc : Ideal.cmp .one (a - 0) (a - 0) = 0#1 := by simp [Ideal.cmp]
  rw [hc, select_zero, sub_zero, zero_sub]
  rfl

/-- The same for a vector read at an index, with the narrowing that follows it. -/
theorem softplus_at {s : Shape} (x : FVec Ideal s .f32) (h : FTy.bits .bf16 < FTy.bits .f32) (i : s.Idx) :
    (truncf .bf16
      (select (cmpf .one (subf x (broadcast s (Scalar.ofBits (F := Ideal) .f32 0x00000000#32))) (subf x (broadcast s (Scalar.ofBits (F := Ideal) .f32 0x00000000#32))))
        (addf x (broadcast s (Scalar.ofBits (F := Ideal) .f32 0x00000000#32)))
        (addf (maximumf x (broadcast s (Scalar.ofBits (F := Ideal) .f32 0x00000000#32)))
          (log1p (exp (subf (broadcast s (Scalar.ofBits (F := Ideal) .f32 0x00000000#32)) (absf (subf x (broadcast s (Scalar.ofBits (F := Ideal) .f32 0x00000000#32)))))))))
      h : FVec Ideal s .bf16) i = sp (x i) := by
  show Scalar.select (Ideal.cmp .one (x i - Ideal.ofBits .f32 0x00000000#32) (x i - Ideal.ofBits .f32 0x00000000#32)) (x i + Ideal.ofBits .f32 0x00000000#32)
      (max (x i) (Ideal.ofBits .f32 0x00000000#32) + Ideal.log1p (Ideal.exp (Ideal.ofBits .f32 0x00000000#32 - max (x i - Ideal.ofBits .f32 0x00000000#32) (-(x i - Ideal.ofBits .f32 0x00000000#32))))) = sp (x i)
  rw [Ideal.ofBits_zero_f32]
  exact softplus_spelled (x i)

/-- The output stage: the logistic of hidden · weights plus the bias row. -/
theorem k1pay1_apply (v0 : Vec Ideal S1024x1024 .bf16) (v2 : Vec Ideal S1024x1024 .f32) (v5 : Vec Ideal S1x1024 .f32) (p j : Fin 1024) :
    k1_pay1 (F := Ideal) v0 v2 v5 (ix2 p j)
      = Ideal.logistic ((∑ k : Fin 1024, v0 (ix2 p k) * v2 (ix2 k j)) + v5 (ix2 (0 : Fin 1) j)) := by
  unfold k1_pay1
  refine congrArg Ideal.logistic ?_
  refine congrArg₂ (· + ·) ?_ ?_
  · refine (matmulSq_at (φ₁ := .bf16) (φ₂ := .bf16) _ _ p j).trans ?_
    rw [shapeCast_self]
    rfl
  · refine (broadcastTo_1b_ab_apply _ _ p j).trans ?_
    rw [shapeCast_self]

/-- The encoder's hidden layer: the softplus of image · weights plus the bias row plus label · the weights' last rows. -/
theorem pay4_apply (v6 : Vec Ideal S128x12288 .f32) (v9 : Vec Ideal S128x17 .f32) (v11 : Vec Ideal S12288x1024 .bf16)
    (v13 : Vec Ideal S1x1024 .f32) (v17 : Vec Ideal S17x1024 .f32) (p : Fin 128) (j : Fin 1024) :
    k0_pay4 (F := Ideal) v6 v9 v11 v13 v17 (ix2 p j)
      = sp (((∑ k : Fin 12288, v6 (ix2 p k) * v11 (ix2 k j)) + v13 (ix2 (0 : Fin 1) j))
          + ∑ t : Fin 17, v9 (ix2 p t) * v17 (ix2 t j)) := by
  unfold k0_pay4
  refine (softplus_at _ _ (ix2 p j)).trans ?_
  refine congrArg sp ?_
  refine congrArg₂ (· + ·) (congrArg₂ (· + ·) ?_ ?_) ?_
  · refine (matmul12288_at (φ₁ := .bf16) (φ₂ := .bf16) _ _ p j).trans ?_
    rw [shapeCast_self]
    rfl
  · refine (broadcastTo_1b_ab_apply _ _ p j).trans ?_
    rw [shapeCast_self]
  · refine (matmul17_at (φ₁ := .bf16) (φ₂ := .bf16) _ _ p j).trans ?_
    rw [shapeCast_self]
    rfl

/-- The latent location: hidden · weights plus the bias row. -/
theorem pay5_apply (v6 : Vec Ideal S128x12288 .f32) (v9 : Vec Ideal S128x17 .f32) (v11 : Vec Ideal S12288x1024 .bf16)
    (v13 : Vec Ideal S1x1024 .f32) (v17 : Vec Ideal S17x1024 .f32) (v37 : Vec Ideal S1024x128 .f32) (v40 : Vec Ideal S1x128 .f32)
    (p z : Fin 128) :
    k0_pay5 (F := Ideal) v6 v9 v11 v13 v17 v37 v40 (ix2 p z)
      = (∑ k : Fin 1024, k0_pay4 (F := Ideal) v6 v9 v11 v13 v17 (ix2 p k) * v37 (ix2 k z)) + v40 (ix2 (0 : Fin 1) z) := by
  unfold k0_pay5
  refine congrArg₂ (· + ·) ?_ ?_
  · exact matmul1024_at (φ₁ := .bf16) (φ₂ := .bf16) _ _ p z
  · refine (broadcastTo_1b_ab_apply _ _ p z).trans ?_
    rw [shapeCast_self]

/-- A sum with a scaled exponential, narrowed, read at an index. -/
theorem sample_at {s : Shape} (a b c : FVec Ideal s .f32) (h : FTy.bits .bf16 < FTy.bits .f32) (i : s.Idx) :
    (truncf .bf16 (addf a (mulf (exp b) c)) h : FVec Ideal s .bf16) i = a i + Ideal.exp (b i) * c i := rfl

/-- The decoder's hidden layer: the softplus of sample · weights plus label · the weights' last rows plus the bias row,
    the sample being location plus the exponential of the log-scale times the noise. -/
theorem pay2_apply (v10 : FVec Ideal S128x17 .bf16) (v36 : FVec Ideal S128x1024 .bf16) (v43 : FVec Ideal S128x128 .f32)
    (v44 : Vec Ideal S1024x128 .f32) (v47 : Vec Ideal S1x128 .f32) (v52 : Vec Ideal S128x128 .f32) (v56 : Vec Ideal S128x1024 .f32)
    (v60 : Vec Ideal S17x1024 .f32) (v65 : Vec Ideal S1x1024 .f32) (p : Fin 128) (j : Fin 1024) :
    k0_pay2 (F := Ideal) v10 v36 v43 v44 v47 v52 v56 v60 v65 (ix2 p j)
      = sp (((∑ k : Fin 128, (v43 (ix2 p k)
                + Ideal.exp ((∑ i : Fin 1024, v36 (ix2 p i) * v44 (ix2 i k)) + v47 (ix2 (0 : Fin 1) k)) * v52 (ix2 p k)) * v56 (ix2 k j))
              + ∑ t : Fin 17, v10 (ix2 p t) * v60 (ix2 t j)) + v65 (ix2 (0 : Fin 1) j)) := by
  unfold k0_pay2
  refine (softplus_at _ _ (ix2 p j)).trans ?_
  refine congrArg sp ?_
  refine congrArg₂ (· + ·) (congrArg₂ (· + ·) ?_ ?_) ?_
  · refine (matmul128_at (φ₁ := .bf16) (φ₂ := .bf16) _ _ p j).trans ?_
    refine Finset.sum_congr rfl fun k _ => ?_
    refine congrArg₂ (· * ·) ?_ ?_
    · refine (sample_at _ _ _ _ (ix2 p k)).trans ?_
      refine congrArg₂ (· + ·) rfl (congrArg₂ (· * ·) (congrArg Ideal.exp ?_) rfl)
      refine congrArg₂ (· + ·) ?_ ?_
      · exact matmul1024_at (φ₁ := .bf16) (φ₂ := .bf16) _ _ p k
      · refine (broadcastTo_1b_ab_apply _ _ p k).trans ?_
        rw [shapeCast_self]
    · rw [shapeCast_self]
      rfl
  · refine (matmul17_at (φ₁ := .bf16) (φ₂ := .bf16) _ _ p j).trans ?_
    rw [shapeCast_self]
    rfl
  · refine (broadcastTo_1b_ab_apply _ _ p j).trans ?_
    rw [shapeCast_self]

end Cert.KernelIdeal.PayVal

end
-- ==== Proof.HidArray.lean ====
import proofs.«111944_g88321707475356_cont_sun_m_1037_20_alg».proof.Proof.Values
import proofs.«111944_g88321707475356_cont_sun_m_1037_20_alg».proof.Proof.PayloadValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.KernelIdeal.PayVal Cert.Spec Idealize.ShloMosaic.ValueIdx

/-! Groundwork for the first kernel's output array: where its windows' blocks sit at each point, and what an input
    window's staging buffer holds there, read at an index. -/

section
variable (V : (c : Dev nD) → (b : Ref sig .tc) → Buf (Elt Ideal) ((c : Thread nD τ).loc b))

/-- The output is written back exactly at the encoding points. -/
theorem flush0_13_iff : ∀ t : Fin cfg0.N, (cfg0.win 13).flush t = true ↔ 12 ≤ t.val :=
  (by decide +kernel : ∀ t : Fin grid0.N, win0_13.flush t = true ↔ 12 ≤ t.val)

/-- At an encoding point the row-slab windows and the output sit at block row `t - 12`; every other window but the
    weights' at its one block. -/
theorem idx_facts0 : ∀ t : Fin cfg0.N, 12 ≤ t.val →
    win0_0.index t (0 : Fin 2) = t.val - 12 ∧ win0_0.index t (1 : Fin 2) = 0
    ∧ win0_2.index t (0 : Fin 2) = t.val - 12 ∧ win0_2.index t (1 : Fin 2) = 0
    ∧ win0_3.index t (0 : Fin 2) = t.val - 12 ∧ win0_3.index t (1 : Fin 2) = 0
    ∧ win0_13.index t (0 : Fin 2) = t.val - 12 ∧ win0_13.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, 12 ≤ t.val → _)

/-- At a loading point the weights' window sits at block row `t`. -/
theorem idx_facts0_1 : ∀ t : Fin cfg0.N, t.val < 12 → win0_1.index t (0 : Fin 2) = t.val ∧ win0_1.index t (1 : Fin 2) = 0 :=
  (by decide +kernel : ∀ t : Fin grid0.N, t.val < 12 → _)

/-- What an input window whose fetches are never clipped holds at a point, read at an index: the array at the
    block's element. -/
theorem held_read (c : Dev nD) (w : Fin cfg0.W) (hw : (cfg0.win w).isOut = false)
    (hclip : ∀ (i : cfg0.grid.Coords) a, (cfg0.win w).clip i a = none) (t : Fin cfg0.N) (j : (cfg0.win w).block.Idx) :
    ∃ x : ((cfg0.win w).xblock (cfg0.grid.coords t)).Idx, (∀ a, (x a).val = (j a).val)
      ∧ held0 V c w t j = (dat0 V c).blockOf w t x := by
  have hm : (cfg0.win w).moved (cfg0.grid.coords t) j = true :=
    ((cfg0.win w).moved_iff _ j).mpr fun a => by have := (j a).isLt; unfold Pipeline.Window.xsize; rw [hclip _ a]; exact this
  refine ⟨fun a => ⟨(j a).val, ((cfg0.win w).moved_iff _ j).mp hm a⟩, fun _ => rfl, ?_⟩
  unfold held0
  rw [held_eq_fetched V c w hw hclip t.val t.isLt]
  unfold Pipeline.Dat.fetched Pipeline.Window.fill
  rw [dif_pos hm]

/-! ## The arrays the region is entered with, as plain index functions -/

def xV (c : Dev nD) : S1024x12288.Idx → EReal := V c main_v0
def yV (c : Dev nD) : S1024x17.Idx → EReal := V c main_arg1
def eV (c : Dev nD) : S1024x128.Idx → EReal := V c main_arg2
def tV (c : Dev nD) : S17x1024.Idx → EReal := V c main_v1
def b1V (c : Dev nD) : S1x1024.Idx → EReal := V c main_v4
def muV (c : Dev nD) : S1024x128.Idx → EReal := V c main_arg5
def bmuV (c : Dev nD) : S1x128.Idx → EReal := V c main_v5
def lsV (c : Dev nD) : S1024x128.Idx → EReal := V c main_arg7
def blsV (c : Dev nD) : S1x128.Idx → EReal := V c main_v6
def dzV (c : Dev nD) : S128x1024.Idx → EReal := V c main_v2
def dyV (c : Dev nD) : S17x1024.Idx → EReal := V c main_v3
def bdV (c : Dev nD) : S1x1024.Idx → EReal := V c main_v7
def wV (c : Dev nD) : S12305x1024.Idx → EReal := V c main_arg3

theorem idxw_0 : ∀ t : Fin cfg0.N, 12 ≤ t.val → win0_0.index t (0 : Fin 2) = t.val - 12 ∧ win0_0.index t (1 : Fin 2) = 0 :=
  (by decide +kernel : ∀ t : Fin grid0.N, 12 ≤ t.val → _)
theorem idxw_2 : ∀ t : Fin cfg0.N, 12 ≤ t.val → win0_2.index t (0 : Fin 2) = t.val - 12 ∧ win0_2.index t (1 : Fin 2) = 0 :=
  (by decide +kernel : ∀ t : Fin grid0.N, 12 ≤ t.val → _)
theorem idxw_3 : ∀ t : Fin cfg0.N, 12 ≤ t.val → win0_3.index t (0 : Fin 2) = t.val - 12 ∧ win0_3.index t (1 : Fin 2) = 0 :=
  (by decide +kernel : ∀ t : Fin grid0.N, 12 ≤ t.val → _)
theorem idxw_4 : ∀ t : Fin cfg0.N, 12 ≤ t.val → win0_4.index t (0 : Fin 2) = 0 ∧ win0_4.index t (1 : Fin 2) = 0 :=
  (by decide +kernel : ∀ t : Fin grid0.N, 12 ≤ t.val → _)
theorem idxw_5 : ∀ t : Fin cfg0.N, 12 ≤ t.val → win0_5.index t (0 : Fin 2) = 0 ∧ win0_5.index t (1 : Fin 2) = 0 :=
  (by decide +kernel : ∀ t : Fin grid0.N, 12 ≤ t.val → _)
theorem idxw_6 : ∀ t : Fin cfg0.N, 12 ≤ t.val → win0_6.index t (0 : Fin 2) = 0 ∧ win0_6.index t (1 : Fin 2) = 0 :=
  (by decide +kernel : ∀ t : Fin grid0.N, 12 ≤ t.val → _)
theorem idxw_7 : ∀ t : Fin cfg0.N, 12 ≤ t.val → win0_7.index t (0 : Fin 2) = 0 ∧ win0_7.index t (1 : Fin 2) = 0 :=
  (by decide +kernel : ∀ t : Fin grid0.N, 12 ≤ t.val → _)
theorem idxw_8 : ∀ t : Fin cfg0.N, 12 ≤ t.val → win0_8.index t (0 : Fin 2) = 0 ∧ win0_8.index t (1 : Fin 2) = 0 :=
  (by decide +kernel : ∀ t : Fin grid0.N, 12 ≤ t.val → _)
theorem idxw_9 : ∀ t : Fin cfg0.N, 12 ≤ t.val → win0_9.index t (0 : Fin 2) = 0 ∧ win0_9.index t (1 : Fin 2) = 0 :=
  (by decide +kernel : ∀ t : Fin grid0.N, 12 ≤ t.val → _)
theorem idxw_10 : ∀ t : Fin cfg0.N, 12 ≤ t.val → win0_10.index t (0 : Fin 2) = 0 ∧ win0_10.index t (1 : Fin 2) = 0 :=
  (by decide +kernel : ∀ t : Fin grid0.N, 12 ≤ t.val → _)
theorem idxw_11 : ∀ t : Fin cfg0.N, 12 ≤ t.val → win0_11.index t (0 : Fin 2) = 0 ∧ win0_11.index t (1 : Fin 2) = 0 :=
  (by decide +kernel : ∀ t : Fin grid0.N, 12 ≤ t.val → _)
theorem idxw_12 : ∀ t : Fin cfg0.N, 12 ≤ t.val → win0_12.index t (0 : Fin 2) = 0 ∧ win0_12.index t (1 : Fin 2) = 0 :=
  (by decide +kernel : ∀ t : Fin grid0.N, 12 ≤ t.val → _)
theorem idxw_13 : ∀ t : Fin cfg0.N, 12 ≤ t.val → win0_13.index t (0 : Fin 2) = t.val - 12 ∧ win0_13.index t (1 : Fin 2) = 0 :=
  (by decide +kernel : ∀ t : Fin grid0.N, 12 ≤ t.val → _)

/-! ## What each input window holds at an encoding point, read at an index -/

theorem held0_0_at (c : Dev nD) (t : Fin cfg0.N) (h12 : 12 ≤ t.val) (p : Fin 128) (i : Fin 12288) (r : Fin 1024) (hr : r.val = 128 * (t.val - 12) + p.val) :
    held0 V c 0 t (ix2 p i) = xV V c (ix2 r i) := by
  obtain ⟨x, hx, he⟩ := held_read V c 0 rfl (fun _ _ => rfl) t (ix2 p i)
  rw [he]
  obtain ⟨e0, e1⟩ := idxw_0 t h12
  have h0 : (x 0).val = p.val := hx 0
  have h1 : (x 1).val = i.val := hx 1
  show V c main_v0 (((cfg0.win 0).blk t).view.emb x) = xV V c (ix2 r i)
  unfold xV
  refine congrArg _ (funext fun a => Fin.ext ?_)
  match a with
  | ⟨0, _⟩ => show win0_0.index t (0 : Fin 2) * 128 + 1 * (x 0).val = r.val; omega
  | ⟨1, _⟩ => show win0_0.index t (1 : Fin 2) * 12288 + 1 * (x 1).val = i.val; omega

theorem held0_2_at (c : Dev nD) (t : Fin cfg0.N) (h12 : 12 ≤ t.val) (p : Fin 128) (i : Fin 17) (r : Fin 1024) (hr : r.val = 128 * (t.val - 12) + p.val) :
    held0 V c 2 t (ix2 p i) = yV V c (ix2 r i) := by
  obtain ⟨x, hx, he⟩ := held_read V c 2 rfl (fun _ _ => rfl) t (ix2 p i)
  rw [he]
  obtain ⟨e0, e1⟩ := idxw_2 t h12
  have h0 : (x 0).val = p.val := hx 0
  have h1 : (x 1).val = i.val := hx 1
  show V c main_arg1 (((cfg0.win 2).blk t).view.emb x) = yV V c (ix2 r i)
  unfold yV
  refine congrArg _ (funext fun a => Fin.ext ?_)
  match a with
  | ⟨0, _⟩ => show win0_2.index t (0 : Fin 2) * 128 + 1 * (x 0).val = r.val; omega
  | ⟨1, _⟩ => show win0_2.index t (1 : Fin 2) * 17 + 1 * (x 1).val = i.val; omega

theorem held0_3_at (c : Dev nD) (t : Fin cfg0.N) (h12 : 12 ≤ t.val) (p : Fin 128) (i : Fin 128) (r : Fin 1024) (hr : r.val = 128 * (t.val - 12) + p.val) :
    held0 V c 3 t (ix2 p i) = eV V c (ix2 r i) := by
  obtain ⟨x, hx, he⟩ := held_read V c 3 rfl (fun _ _ => rfl) t (ix2 p i)
  rw [he]
  obtain ⟨e0, e1⟩ := idxw_3 t h12
  have h0 : (x 0).val = p.val := hx 0
  have h1 : (x 1).val = i.val := hx 1
  show V c main_arg2 (((cfg0.win 3).blk t).view.emb x) = eV V c (ix2 r i)
  unfold eV
  refine congrArg _ (funext fun a => Fin.ext ?_)
  match a with
  | ⟨0, _⟩ => show win0_3.index t (0 : Fin 2) * 128 + 1 * (x 0).val = r.val; omega
  | ⟨1, _⟩ => show win0_3.index t (1 : Fin 2) * 128 + 1 * (x 1).val = i.val; omega

theorem held0_4_at (c : Dev nD) (t : Fin cfg0.N) (h12 : 12 ≤ t.val) (a : Fin 17) (b : Fin 1024) :
    held0 V c 4 t (ix2 a b) = tV V c (ix2 a b) := by
  obtain ⟨x, hx, he⟩ := held_read V c 4 rfl (fun _ _ => rfl) t (ix2 a b)
  rw [he]
  obtain ⟨e0, e1⟩ := idxw_4 t h12
  have h0 : (x 0).val = a.val := hx 0
  have h1 : (x 1).val = b.val := hx 1
  show V c main_v1 (((cfg0.win 4).blk t).view.emb x) = tV V c (ix2 a b)
  unfold tV
  refine congrArg _ (funext fun ax => Fin.ext ?_)
  match ax with
  | ⟨0, _⟩ => show win0_4.index t (0 : Fin 2) * 17 + 1 * (x 0).val = a.val; omega
  | ⟨1, _⟩ => show win0_4.index t (1 : Fin 2) * 1024 + 1 * (x 1).val = b.val; omega

theorem held0_5_at (c : Dev nD) (t : Fin cfg0.N) (h12 : 12 ≤ t.val) (a : Fin 1) (b : Fin 1024) :
    held0 V c 5 t (ix2 a b) = b1V V c (ix2 a b) := by
  obtain ⟨x, hx, he⟩ := held_read V c 5 rfl (fun _ _ => rfl) t (ix2 a b)
  rw [he]
  obtain ⟨e0, e1⟩ := idxw_5 t h12
  have h0 : (x 0).val = a.val := hx 0
  have h1 : (x 1).val = b.val := hx 1
  show V c main_v4 (((cfg0.win 5).blk t).view.emb x) = b1V V c (ix2 a b)
  unfold b1V
  refine congrArg _ (funext fun ax => Fin.ext ?_)
  match ax with
  | ⟨0, _⟩ => show win0_5.index t (0 : Fin 2) * 1 + 1 * (x 0).val = a.val; omega
  | ⟨1, _⟩ => show win0_5.index t (1 : Fin 2) * 1024 + 1 * (x 1).val = b.val; omega

theorem held0_6_at (c : Dev nD) (t : Fin cfg0.N) (h12 : 12 ≤ t.val) (a : Fin 1024) (b : Fin 128) :
    held0 V c 6 t (ix2 a b) = muV V c (ix2 a b) := by
  obtain ⟨x, hx, he⟩ := held_read V c 6 rfl (fun _ _ => rfl) t (ix2 a b)
  rw [he]
  obtain ⟨e0, e1⟩ := idxw_6 t h12
  have h0 : (x 0).val = a.val := hx 0
  have h1 : (x 1).val = b.val := hx 1
  show V c main_arg5 (((cfg0.win 6).blk t).view.emb x) = muV V c (ix2 a b)
  unfold muV
  refine congrArg _ (funext fun ax => Fin.ext ?_)
  match ax with
  | ⟨0, _⟩ => show win0_6.index t (0 : Fin 2) * 1024 + 1 * (x 0).val = a.val; omega
  | ⟨1, _⟩ => show win0_6.index t (1 : Fin 2) * 128 + 1 * (x 1).val = b.val; omega

theorem held0_7_at (c : Dev nD) (t : Fin cfg0.N) (h12 : 12 ≤ t.val) (a : Fin 1) (b : Fin 128) :
    held0 V c 7 t (ix2 a b) = bmuV V c (ix2 a b) := by
  obtain ⟨x, hx, he⟩ := held_read V c 7 rfl (fun _ _ => rfl) t (ix2 a b)
  rw [he]
  obtain ⟨e0, e1⟩ := idxw_7 t h12
  have h0 : (x 0).val = a.val := hx 0
  have h1 : (x 1).val = b.val := hx 1
  show V c main_v5 (((cfg0.win 7).blk t).view.emb x) = bmuV V c (ix2 a b)
  unfold bmuV
  refine congrArg _ (funext fun ax => Fin.ext ?_)
  match ax with
  | ⟨0, _⟩ => show win0_7.index t (0 : Fin 2) * 1 + 1 * (x 0).val = a.val; omega
  | ⟨1, _⟩ => show win0_7.index t (1 : Fin 2) * 128 + 1 * (x 1).val = b.val; omega

theorem held0_8_at (c : Dev nD) (t : Fin cfg0.N) (h12 : 12 ≤ t.val) (a : Fin 1024) (b : Fin 128) :
    held0 V c 8 t (ix2 a b) = lsV V c (ix2 a b) := by
  obtain ⟨x, hx, he⟩ := held_read V c 8 rfl (fun _ _ => rfl) t (ix2 a b)
  rw [he]
  obtain ⟨e0, e1⟩ := idxw_8 t h12
  have h0 : (x 0).val = a.val := hx 0
  have h1 : (x 1).val = b.val := hx 1
  show V c main_arg7 (((cfg0.win 8).blk t).view.emb x) = lsV V c (ix2 a b)
  unfold lsV
  refine congrArg _ (funext fun ax => Fin.ext ?_)
  match ax with
  | ⟨0, _⟩ => show win0_8.index t (0 : Fin 2) * 1024 + 1 * (x 0).val = a.val; omega
  | ⟨1, _⟩ => show win0_8.index t (1 : Fin 2) * 128 + 1 * (x 1).val = b.val; omega

theorem held0_9_at (c : Dev nD) (t : Fin cfg0.N) (h12 : 12 ≤ t.val) (a : Fin 1) (b : Fin 128) :
    held0 V c 9 t (ix2 a b) = blsV V c (ix2 a b) := by
  obtain ⟨x, hx, he⟩ := held_read V c 9 rfl (fun _ _ => rfl) t (ix2 a b)
  rw [he]
  obtain ⟨e0, e1⟩ := idxw_9 t h12
  have h0 : (x 0).val = a.val := hx 0
  have h1 : (x 1).val = b.val := hx 1
  show V c main_v6 (((cfg0.win 9).blk t).view.emb x) = blsV V c (ix2 a b)
  unfold blsV
  refine congrArg _ (funext fun ax => Fin.ext ?_)
  match ax with
  | ⟨0, _⟩ => show win0_9.index t (0 : Fin 2) * 1 + 1 * (x 0).val = a.val; omega
  | ⟨1, _⟩ => show win0_9.index t (1 : Fin 2) * 128 + 1 * (x 1).val = b.val; omega

theorem held0_10_at (c : Dev nD) (t : Fin cfg0.N) (h12 : 12 ≤ t.val) (a : Fin 128) (b : Fin 1024) :
    held0 V c 10 t (ix2 a b) = dzV V c (ix2 a b) := by
  obtain ⟨x, hx, he⟩ := held_read V c 10 rfl (fun _ _ => rfl) t (ix2 a b)
  rw [he]
  obtain ⟨e0, e1⟩ := idxw_10 t h12
  have h0 : (x 0).val = a.val := hx 0
  have h1 : (x 1).val = b.val := hx 1
  show V c main_v2 (((cfg0.win 10).blk t).view.emb x) = dzV V c (ix2 a b)
  unfold dzV
  refine congrArg _ (funext fun ax => Fin.ext ?_)
  match ax with
  | ⟨0, _⟩ => show win0_10.index t (0 : Fin 2) * 128 + 1 * (x 0).val = a.val; omega
  | ⟨1, _⟩ => show win0_10.index t (1 : Fin 2) * 1024 + 1 * (x 1).val = b.val; omega

theorem held0_11_at (c : Dev nD) (t : Fin cfg0.N) (h12 : 12 ≤ t.val) (a : Fin 17) (b : Fin 1024) :
    held0 V c 11 t (ix2 a b) = dyV V c (ix2 a b) := by
  obtain ⟨x, hx, he⟩ := held_read V c 11 rfl (fun _ _ => rfl) t (ix2 a b)
  rw [he]
  obtain ⟨e0, e1⟩ := idxw_11 t h12
  have h0 : (x 0).val = a.val := hx 0
  have h1 : (x 1).val = b.val := hx 1
  show V c main_v3 (((cfg0.win 11).blk t).view.emb x) = dyV V c (ix2 a b)
  unfold dyV
  refine congrArg _ (funext fun ax => Fin.ext ?_)
  match ax with
  | ⟨0, _⟩ => show win0_11.index t (0 : Fin 2) * 17 + 1 * (x 0).val = a.val; omega
  | ⟨1, _⟩ => show win0_11.index t (1 : Fin 2) * 1024 + 1 * (x 1).val = b.val; omega

theorem held0_12_at (c : Dev nD) (t : Fin cfg0.N) (h12 : 12 ≤ t.val) (a : Fin 1) (b : Fin 1024) :
    held0 V c 12 t (ix2 a b) = bdV V c (ix2 a b) := by
  obtain ⟨x, hx, he⟩ := held_read V c 12 rfl (fun _ _ => rfl) t (ix2 a b)
  rw [he]
  obtain ⟨e0, e1⟩ := idxw_12 t h12
  have h0 : (x 0).val = a.val := hx 0
  have h1 : (x 1).val = b.val := hx 1
  show V c main_v7 (((cfg0.win 12).blk t).view.emb x) = bdV V c (ix2 a b)
  unfold bdV
  refine congrArg _ (funext fun ax => Fin.ext ?_)
  match ax with
  | ⟨0, _⟩ => show win0_12.index t (0 : Fin 2) * 1 + 1 * (x 0).val = a.val; omega
  | ⟨1, _⟩ => show win0_12.index t (1 : Fin 2) * 1024 + 1 * (x 1).val = b.val; omega

/-- The resident copy, once complete, is the first 12288 rows of the encoder weights. -/
theorem wfull_at (c : Dev nD) (i : Fin 12288) (j : Fin 1024) :
    wfull V c (ix2 i j) = wV V c (ix2 (⟨i.val, by omega⟩ : Fin 12305) j) := by
  have hN : cfg0.N = 20 := N_0
  show slab V c ⟨i.val / 1024, _⟩ (ix2 (⟨i.val % 1024, _⟩ : Fin 1024) (⟨j.val, _⟩ : Fin 1024)) = _
  rw [slab_eq]
  refine (pay1_apply _ _ _).trans ?_
  have hk : (⟨i.val / 1024, by rw [hN]; omega⟩ : Fin cfg0.N).val < 12 := by show i.val / 1024 < 12; omega
  obtain ⟨x, hx, he⟩ := held_read V c 1 rfl clip0_1 ⟨i.val / 1024, by rw [hN]; omega⟩ (ix2 (⟨i.val % 1024, Nat.mod_lt _ (by decide)⟩ : Fin 1024) (⟨j.val, j.isLt⟩ : Fin 1024))
  rw [he]
  obtain ⟨e0, e1⟩ := idx_facts0_1 ⟨i.val / 1024, by rw [hN]; omega⟩ hk
  have h0 : (x 0).val = i.val % 1024 := hx 0
  have h1 : (x 1).val = j.val := hx 1
  show V c main_arg3 (((cfg0.win 1).blk _).view.emb x) = wV V c _
  unfold wV
  refine congrArg _ (funext fun a => Fin.ext ?_)
  match a with
  | ⟨0, _⟩ => show win0_1.index _ (0 : Fin 2) * 1024 + 1 * (x 0).val = i.val; rw [e0]; show i.val / 1024 * 1024 + 1 * (x 0).val = i.val; omega
  | ⟨1, _⟩ => show win0_1.index _ (1 : Fin 2) * 1024 + 1 * (x 1).val = j.val; rw [e1]; omega

/-! ## The output array -/

/-- The encoder's hidden layer at row `r`, unit `k`, over the region's entry arrays. -/
def hidK (c : Dev nD) (r : Fin 1024) (k : Fin 1024) : EReal :=
  sp (((∑ i : Fin 12288, xV V c (ix2 r i) * wV V c (ix2 (⟨i.val, by omega⟩ : Fin 12305) k)) + b1V V c (ix2 (0 : Fin 1) k))
    + ∑ s : Fin 17, yV V c (ix2 r s) * tV V c (ix2 s k))

/-- The decoder's hidden layer at row `r`, unit `q`. -/
def g0 (c : Dev nD) (r : Fin 1024) (q : Fin 1024) : EReal :=
  sp (((∑ k : Fin 128, (((∑ i : Fin 1024, hidK V c r i * muV V c (ix2 i k)) + bmuV V c (ix2 (0 : Fin 1) k))
          + Ideal.exp ((∑ i : Fin 1024, hidK V c r i * lsV V c (ix2 i k)) + blsV V c (ix2 (0 : Fin 1) k)) * eV V c (ix2 r k)) * dzV V c (ix2 k q))
        + ∑ s : Fin 17, yV V c (ix2 r s) * dyV V c (ix2 s q)) + bdV V c (ix2 (0 : Fin 1) q))

def G0 (c : Dev nD) : S1024x1024.Idx → EReal := fun i => g0 V c (i 0) (i 1)

theorem hid_at (c : Dev nD) (t : Fin cfg0.N) (h12 : 12 ≤ t.val) (p : Fin 128) (k : Fin 1024) (r : Fin 1024) (hr : r.val = 128 * (t.val - 12) + p.val) :
    k0_pay4 (F := Ideal) (held0 V c 0 t) (held0 V c 2 t) (wfull V c) (held0 V c 5 t) (held0 V c 4 t) (ix2 p k) = hidK V c r k := by
  refine (pay4_apply _ _ _ _ _ p k).trans ?_
  unfold hidK
  refine congrArg sp (congrArg₂ (· + ·) (congrArg₂ (· + ·) (Finset.sum_congr rfl fun i _ => congrArg₂ (· * ·) ?_ ?_) ?_)
    (Finset.sum_congr rfl fun s _ => congrArg₂ (· * ·) ?_ ?_))
  · exact held0_0_at V c t h12 p i r hr
  · exact wfull_at V c i k
  · exact held0_5_at V c t h12 0 k
  · exact held0_2_at V c t h12 p s r hr
  · exact held0_4_at V c t h12 s k

theorem flushed0_13_eq (c : Dev nD) (t : Fin cfg0.N) (hf : (cfg0.win 13).flush t = true) :
    (dat0 V c).flushed 13 t = ((cfg0.win 13).blk t).view.read (Elt Ideal) (G0 V c) := by
  have h12 : 12 ≤ t.val := (flush0_13_iff t).mp hf
  have hN : t.val < 20 := lt_of_lt_of_eq t.isLt (show cfg0.N = 20 from N_0)
  show (cfg0.win 13).cut (grid0.coords t) ((dat0 V c).after 13 t) = _
  rw [after0_13 V c t h12]
  unfold out0_13
  rw [runEncode_out_eq]
  obtain ⟨e0, e1⟩ := idxw_13 t h12
  funext j
  obtain ⟨p, q, rfl⟩ : ∃ (p : Fin 128) (q : Fin 1024), j = ix2 p q := ⟨j 0, j 1, eq_ix2 j⟩
  refine (pay2_apply _ _ _ _ _ _ _ _ _ p q).trans ?_
  have hrlt : 128 * (t.val - 12) + p.val < 1024 := by have := p.isLt; omega
  have er : (((cfg0.win 13).blk t).view.emb (ix2 p q)) 0 = (⟨128 * (t.val - 12) + p.val, hrlt⟩ : Fin 1024) :=
    Fin.ext (by show win0_13.index t (0 : Fin 2) * 128 + 1 * p.val = 128 * (t.val - 12) + p.val; omega)
  have eq1 : (((cfg0.win 13).blk t).view.emb (ix2 p q)) 1 = q :=
    Fin.ext (by show win0_13.index t (1 : Fin 2) * 1024 + 1 * q.val = q.val; omega)
  show _ = g0 V c ((((cfg0.win 13).blk t).view.emb (ix2 p q)) 0) ((((cfg0.win 13).blk t).view.emb (ix2 p q)) 1)
  rw [er, eq1]
  unfold g0
  refine congrArg sp (congrArg₂ (· + ·) (congrArg₂ (· + ·) (Finset.sum_congr rfl fun k _ => congrArg₂ (· * ·) ?_ ?_)
    (Finset.sum_congr rfl fun s _ => congrArg₂ (· * ·) ?_ ?_)) ?_)
  · refine congrArg₂ (· + ·) ?_ (congrArg₂ (· * ·) (congrArg Ideal.exp (congrArg₂ (· + ·) (Finset.sum_congr rfl fun i _ => congrArg₂ (· * ·) ?_ ?_) ?_)) ?_)
    · refine (pay5_apply _ _ _ _ _ _ _ p k).trans ?_
      refine congrArg₂ (· + ·) (Finset.sum_congr rfl fun i _ => congrArg₂ (· * ·) ?_ ?_) ?_
      · exact hid_at V c t h12 p i _ rfl
      · exact held0_6_at V c t h12 i k
      · exact held0_7_at V c t h12 0 k
    · exact hid_at V c t h12 p i _ rfl
    · exact held0_8_at V c t h12 i k
    · exact held0_9_at V c t h12 0 k
    · exact held0_3_at V c t h12 p k _ rfl
  · exact held0_10_at V c t h12 k q
  · exact (pay3_apply _ p s).trans (held0_2_at V c t h12 p s _ rfl)
  · exact held0_11_at V c t h12 s q
  · exact held0_12_at V c t h12 0 q

theorem mem_blk0_13 (t : Fin cfg0.N) (i : S1024x1024.Idx) :
    i ∈ ((cfg0.win 13).blk t).view.set ↔ ∀ a : Fin 2, win0_13.index t a * S128x1024.size a ≤ (i a).val ∧ (i a).val < win0_13.index t a * S128x1024.size a + S128x1024.size a := by
  show i ∈ ((View.whole main_v8).slice (win0_13.rect t)).set ↔ _
  rw [View.set_slice_whole, Rect.mem_set_unit]
  exact Iff.rfl

theorem cover0_13_arr (i : S1024x1024.Idx) : ∃ t : Fin cfg0.N, (cfg0.win 13).flush t = true ∧ i ∈ ((cfg0.win 13).blk t).view.set := by
  have hi0 : (i 0).val < 1024 := (i 0).isLt
  have hi1 : (i 1).val < 1024 := (i 1).isLt
  have hN : cfg0.N = 20 := N_0
  have h12 : 12 ≤ (⟨12 + (i 0).val / 128, by rw [hN]; omega⟩ : Fin cfg0.N).val := by show 12 ≤ 12 + (i 0).val / 128; omega
  refine ⟨⟨12 + (i 0).val / 128, by rw [hN]; omega⟩, (flush0_13_iff _).mpr h12, ?_⟩
  rw [mem_blk0_13]
  obtain ⟨e0, e1⟩ := idxw_13 ⟨12 + (i 0).val / 128, by rw [hN]; omega⟩ h12
  intro a
  match a with
  | ⟨0, _⟩ => show win0_13.index _ (0 : Fin 2) * 128 ≤ (i 0).val ∧ (i 0).val < win0_13.index _ (0 : Fin 2) * 128 + 128; rw [e0]; show (12 + (i 0).val / 128 - 12) * 128 ≤ (i 0).val ∧ (i 0).val < (12 + (i 0).val / 128 - 12) * 128 + 128; omega
  | ⟨1, _⟩ => show win0_13.index _ (1 : Fin 2) * 1024 ≤ (i 1).val ∧ (i 1).val < win0_13.index _ (1 : Fin 2) * 1024 + 1024; rw [e1]; omega

/-- The first kernel's output array after the run: the decoder's hidden layer of the entry arrays. -/
theorem final0 (c : Dev nD) : (dat0 V c).arrAt 13 cfg0.N = G0 V c :=
  (dat0 V c).arrAt_eq_of_cover 13 (G0 V c) (fun t hf => flushed0_13_eq V c t hf) cover0_13_arr

end

end Cert.KernelIdeal.Hand

end
-- ==== Proof.ImgArray.lean ====
import proofs.«111944_g88321707475356_cont_sun_m_1037_20_alg».proof.Proof.Values
import proofs.«111944_g88321707475356_cont_sun_m_1037_20_alg».proof.Proof.PayloadValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.KernelIdeal.PayVal Cert.Spec Idealize.ShloMosaic.ValueIdx

/-! The second kernel's output array after all its write-backs, as one function of the contents the region is
    entered with: entry `(p, n)` is the logistic of row `p` of the hidden layer against column `n` of the output
    weights plus the bias at `n`. Point `t` writes back columns `1024 t … 1024 t + 1023`; the twelve points tile
    the 12288 columns. -/

section
variable (V : (c : Dev nD) → (b : Ref sig .tc) → Buf (Elt Ideal) ((c : Thread nD τ).loc b))

/-- The region's three input arrays as the region finds them, as plain index functions. -/
def hidV (c : Dev nD) : S1024x1024.Idx → EReal := V c main_v8
def woV (c : Dev nD) : S1024x12288.Idx → EReal := V c main_arg11
def boV (c : Dev nD) : S1x12288.Idx → EReal := V c main_v9

def G1 (c : Dev nD) : S1024x12288.Idx → EReal := fun i =>
  Ideal.logistic ((∑ k : Fin 1024, hidV V c (ix2 (i 0) k) * woV V c (ix2 k (i 1))) + boV V c (ix2 (0 : Fin 1) (i 1)))

theorem idx_facts1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

theorem flushed1_3_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3, out1_3_eq]
  obtain ⟨e0, e1, e2, e3, e4, e5, e6, e7⟩ := idx_facts1 t
  funext j
  obtain ⟨p, q, rfl⟩ : ∃ (p : Fin 1024) (q : Fin 1024), j = ix2 p q := ⟨j 0, j 1, eq_ix2 j⟩
  refine (k1pay1_apply _ _ _ p q).trans ?_
  show _ = G1 V c (((cfg1.win 3).blk t).view.emb (ix2 p q))
  unfold G1
  refine congrArg Ideal.logistic (congrArg₂ (· + ·) (Finset.sum_congr rfl fun k _ => congrArg₂ (· * ·) ?_ ?_) ?_)
  · show V c main_v8 (((cfg1.win 0).blk t).view.emb (ix2 p k)) = hidV V c _
    unfold hidV
    refine congrArg _ (funext fun a => Fin.ext ?_)
    match a with
    | ⟨0, _⟩ => show win1_0.index t (0 : Fin 2) * 1024 + 1 * p.val = win1_3.index t (0 : Fin 2) * 1024 + 1 * p.val; omega
    | ⟨1, _⟩ => show win1_0.index t (1 : Fin 2) * 1024 + 1 * k.val = k.val; omega
  · show V c main_arg11 (((cfg1.win 1).blk t).view.emb (ix2 k q)) = woV V c _
    unfold woV
    refine congrArg _ (funext fun a => Fin.ext ?_)
    match a with
    | ⟨0, _⟩ => show win1_1.index t (0 : Fin 2) * 1024 + 1 * k.val = k.val; omega
    | ⟨1, _⟩ => show win1_1.index t (1 : Fin 2) * 1024 + 1 * q.val = win1_3.index t (1 : Fin 2) * 1024 + 1 * q.val; omega
  · show V c main_v9 (((cfg1.win 2).blk t).view.emb (ix2 (0 : Fin 1) q)) = boV V c _
    unfold boV
    refine congrArg _ (funext fun a => Fin.ext ?_)
    match a with
    | ⟨0, _⟩ => show win1_2.index t (0 : Fin 2) * 1 + 1 * 0 = 0; omega
    | ⟨1, _⟩ => show win1_2.index t (1 : Fin 2) * 1024 + 1 * q.val = win1_3.index t (1 : Fin 2) * 1024 + 1 * q.val; omega

theorem mem_blk1_3 (t : Fin cfg1.N) (i : S1024x12288.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v10).slice (win1_3.rect t)).set ↔ _
  rw [View.set_slice_whole, Rect.mem_set_unit]
  exact Iff.rfl

theorem cover1_3_arr (i : S1024x12288.Idx) : ∃ t : Fin cfg1.N, (cfg1.win 3).flush t = true ∧ i ∈ ((cfg1.win 3).blk t).view.set := by
  have hi0 : (i 0).val < 1024 := (i 0).isLt
  have hi1 : (i 1).val < 12288 := (i 1).isLt
  refine ⟨⟨(i 1).val / 1024, by rw [show cfg1.N = 12 from N_1]; omega⟩, flush1_3 _, ?_⟩
  rw [mem_blk1_3]
  obtain ⟨e0, e1, e2, e3, e4, e5, e6, e7⟩ := idx_facts1 ⟨(i 1).val / 1024, by rw [show cfg1.N = 12 from N_1]; omega⟩
  intro a
  match a with
  | ⟨0, _⟩ => show win1_3.index _ (0 : Fin 2) * 1024 ≤ (i 0).val ∧ (i 0).val < win1_3.index _ (0 : Fin 2) * 1024 + 1024; rw [e6]; omega
  | ⟨1, _⟩ => show win1_3.index _ (1 : Fin 2) * 1024 ≤ (i 1).val ∧ (i 1).val < win1_3.index _ (1 : Fin 2) * 1024 + 1024; rw [e7]; show (i 1).val / 1024 * 1024 ≤ (i 1).val ∧ (i 1).val < (i 1).val / 1024 * 1024 + 1024; omega

/-- The second kernel's output array after the run. -/
theorem final1 (c : Dev nD) : (dat1 V c).arrAt 3 cfg1.N = G1 V c :=
  (dat1 V c).arrAt_eq_of_cover 3 (G1 V c) (fun t _ => flushed1_3_eq V c t) cover1_3_arr

end

end Cert.KernelIdeal.Hand

end
-- ==== Proof.KernelResult.lean ====
import proofs.«111944_g88321707475356_cont_sun_m_1037_20_alg».proof.Proof.HidArray
import proofs.«111944_g88321707475356_cont_sun_m_1037_20_alg».proof.Proof.ImgArray
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.KernelIdeal.PayVal Cert.Spec Idealize.ShloMosaic.ValueIdx

/-! The kernel program's result as the specification's network of the launch memory's argument arrays: the host
    operations before the first kernel reshape the image and the biases and slice the last 17 rows off the two
    concatenated weight matrices; each kernel's output array is its whole-array function of what it is entered with;
    the last host operation reshapes the image means back. -/

section
variable (m : (ℓ : Loc nD τ sig) → Buf (Elt Ideal) ℓ) (ρ : Dev nD → PrngReg)

/-- The flattened image. -/
abbrev xfOf (c : Dev nD) : S1024x12288.Idx → EReal := shapeCast S1024x12288 (m ((c : Thread nD τ).loc main_arg0)) shapeCasts_S1024x3x64x64_S1024x12288

/-! ## The first kernel's entry arrays -/

theorem xV_eq (c : Dev nD) : xV (V1 m ρ) c = xfOf m c := by
  unfold xV
  show StableHlo.after hostOps0 (W0 m ρ c) (Proc.devRef .tc main_v0) = _
  after_results
  rfl
theorem yV_eq (c : Dev nD) : yV (V1 m ρ) c = (m ((c : Thread nD τ).loc main_arg1)) := by
  unfold yV; exact StableHlo.after_of_writes_sub hostOps0 _ hostOps0_writes (by decide)
theorem eV_eq (c : Dev nD) : eV (V1 m ρ) c = (m ((c : Thread nD τ).loc main_arg2)) := by
  unfold eV; exact StableHlo.after_of_writes_sub hostOps0 _ hostOps0_writes (by decide)
theorem wV_eq (c : Dev nD) : wV (V1 m ρ) c = (m ((c : Thread nD τ).loc main_arg3)) := by
  unfold wV; exact StableHlo.after_of_writes_sub hostOps0 _ hostOps0_writes (by decide)
theorem muV_eq (c : Dev nD) : muV (V1 m ρ) c = (m ((c : Thread nD τ).loc main_arg5)) := by
  unfold muV; exact StableHlo.after_of_writes_sub hostOps0 _ hostOps0_writes (by decide)
theorem lsV_eq (c : Dev nD) : lsV (V1 m ρ) c = (m ((c : Thread nD τ).loc main_arg7)) := by
  unfold lsV; exact StableHlo.after_of_writes_sub hostOps0 _ hostOps0_writes (by decide)
theorem tV_eq (c : Dev nD) : tV (V1 m ρ) c = extractStridedSlice S17x1024 ![12288, 0] (m ((c : Thread nD τ).loc main_arg3)) slices_S12305x1024_S17x1024_12288_0 := by
  unfold tV
  show StableHlo.after hostOps0 (W0 m ρ c) (Proc.devRef .tc main_v1) = _
  after_results
theorem dzV_eq (c : Dev nD) : dzV (V1 m ρ) c = extractStridedSlice S128x1024 ![0, 0] (m ((c : Thread nD τ).loc main_arg9)) slices_S145x1024_S128x1024_0_0 := by
  unfold dzV
  show StableHlo.after hostOps0 (W0 m ρ c) (Proc.devRef .tc main_v2) = _
  after_results
theorem dyV_eq (c : Dev nD) : dyV (V1 m ρ) c = extractStridedSlice S17x1024 ![128, 0] (m ((c : Thread nD τ).loc main_arg9)) slices_S145x1024_S17x1024_128_0 := by
  unfold dyV
  show StableHlo.after hostOps0 (W0 m ρ c) (Proc.devRef .tc main_v3) = _
  after_results
theorem b1V_eq (c : Dev nD) : b1V (V1 m ρ) c = shapeCast S1x1024 (m ((c : Thread nD τ).loc main_arg4)) shapeCasts_S1024_S1x1024 := by
  unfold b1V
  show StableHlo.after hostOps0 (W0 m ρ c) (Proc.devRef .tc main_v4) = _
  after_results
  rfl
theorem bmuV_eq (c : Dev nD) : bmuV (V1 m ρ) c = shapeCast S1x128 (m ((c : Thread nD τ).loc main_arg6)) shapeCasts_S128_S1x128 := by
  unfold bmuV
  show StableHlo.after hostOps0 (W0 m ρ c) (Proc.devRef .tc main_v5) = _
  after_results
  rfl
theorem blsV_eq (c : Dev nD) : blsV (V1 m ρ) c = shapeCast S1x128 (m ((c : Thread nD τ).loc main_arg8)) shapeCasts_S128_S1x128 := by
  unfold blsV
  show StableHlo.after hostOps0 (W0 m ρ c) (Proc.devRef .tc main_v6) = _
  after_results
  rfl
theorem bdV_eq (c : Dev nD) : bdV (V1 m ρ) c = shapeCast S1x1024 (m ((c : Thread nD τ).loc main_arg10)) shapeCasts_S1024_S1x1024 := by
  unfold bdV
  show StableHlo.after hostOps0 (W0 m ρ c) (Proc.devRef .tc main_v7) = _
  after_results
  rfl

/-! ## The two hidden layers over the launch memory -/

theorem hidK_eq (c : Dev nD) (r k : Fin 1024) : hidK (V1 m ρ) c r k = Cert.Spec.hid (xfOf m c) (m ((c : Thread nD τ).loc main_arg1)) (m ((c : Thread nD τ).loc main_arg3)) (m ((c : Thread nD τ).loc main_arg4)) r k := by
  unfold hidK Cert.Spec.hid
  rw [xV_eq, yV_eq, wV_eq, tV_eq, b1V_eq]
  refine congrArg sp (congrArg₂ (· + ·) (congrArg₂ (· + ·) rfl ?_) (Finset.sum_congr rfl fun s _ => congrArg₂ (· * ·) rfl ?_))
  · exact shapeCast_a_1a_apply _ _ 0 k
  · exact extractStridedSlice_apply _ _ _ (ix2 s k) (ix2 (⟨12288 + s.val, by omega⟩ : Fin 12305) k) (fun a => by
      match a with
      | ⟨0, _⟩ => rfl
      | ⟨1, _⟩ => exact (Nat.zero_add _).symm)

theorem g0_eq (c : Dev nD) (r q : Fin 1024) : g0 (V1 m ρ) c r q = Cert.Spec.hid2 (xfOf m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) r q := by
  unfold g0 Cert.Spec.hid2 Cert.Spec.lat Cert.Spec.zloc Cert.Spec.zls
  simp only [hidK_eq]
  rw [muV_eq, bmuV_eq, lsV_eq, blsV_eq, eV_eq, dzV_eq, yV_eq, dyV_eq, bdV_eq]
  refine congrArg sp (congrArg₂ (· + ·) (congrArg₂ (· + ·) (Finset.sum_congr rfl fun k _ => congrArg₂ (· * ·)
      (congrArg₂ (· + ·) (congrArg₂ (· + ·) rfl ?_) (congrArg₂ (· * ·) (congrArg Ideal.exp (congrArg₂ (· + ·) rfl ?_)) rfl)) ?_)
    (Finset.sum_congr rfl fun s _ => congrArg₂ (· * ·) rfl ?_)) ?_)
  · exact shapeCast_a_1a_apply _ _ 0 k
  · exact shapeCast_a_1a_apply _ _ 0 k
  · exact extractStridedSlice_apply _ _ _ (ix2 k q) (ix2 (⟨k.val, by omega⟩ : Fin 145) q) (fun a => by
      match a with
      | ⟨0, _⟩ => exact (Nat.zero_add _).symm
      | ⟨1, _⟩ => exact (Nat.zero_add _).symm)
  · exact extractStridedSlice_apply _ _ _ (ix2 s q) (ix2 (⟨128 + s.val, by omega⟩ : Fin 145) q) (fun a => by
      match a with
      | ⟨0, _⟩ => rfl
      | ⟨1, _⟩ => exact (Nat.zero_add _).symm)
  · exact shapeCast_a_1a_apply _ _ 0 q

/-! ## The second kernel's entry arrays -/

theorem hidV_eq (c : Dev nD) : hidV (V3 m ρ) c = G0 (V1 m ρ) c := by
  unfold hidV
  show StableHlo.after hostOps1 (W2 m ρ c) (Proc.devRef .tc main_v8) = _
  rw [StableHlo.after_of_writes_sub hostOps1 _ hostOps1_writes (by decide)]
  exact (W2_arr m ρ c 13).trans (final0 (V1 m ρ) c)

theorem woV_eq (c : Dev nD) : woV (V3 m ρ) c = (m ((c : Thread nD τ).loc main_arg11)) := by
  unfold woV
  show StableHlo.after hostOps1 (W2 m ρ c) (Proc.devRef .tc main_arg11) = _
  rw [StableHlo.after_of_writes_sub hostOps1 _ hostOps1_writes (by decide)]
  exact (W2_of_ne m ρ c main_arg11 (by decide)).trans (StableHlo.after_of_writes_sub hostOps0 _ hostOps0_writes (by decide))

theorem W2_arg12 (c : Dev nD) : W2 m ρ c (Proc.devRef .tc main_arg12) = (m ((c : Thread nD τ).loc main_arg12)) :=
  (W2_of_ne m ρ c main_arg12 (by decide)).trans (StableHlo.after_of_writes_sub hostOps0 _ hostOps0_writes (by decide))

theorem boV_eq (c : Dev nD) : boV (V3 m ρ) c = shapeCast S1x12288 (m ((c : Thread nD τ).loc main_arg12)) shapeCasts_S12288_S1x12288 := by
  unfold boV
  show StableHlo.after hostOps1 (W2 m ρ c) (Proc.devRef .tc main_v9) = _
  after_results
  rw [W2_arg12]
  rfl

/-! ## The result -/

theorem G1_eq (c : Dev nD) : G1 (V3 m ρ) c = Cert.Spec.img (xfOf m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  unfold G1 Cert.Spec.img
  rw [hidV_eq, woV_eq, boV_eq]
  refine congrArg Ideal.logistic (congrArg₂ (· + ·) (Finset.sum_congr rfl fun k _ => congrArg₂ (· * ·) ?_ rfl) ?_)
  · exact g0_eq m ρ c (i 0) k
  · exact shapeCast_a_1a_apply _ _ 0 (i 1)

/-- The kernel program's result array at the last boundary: the image means of the launch memory's arguments,
    reshaped to the image's shape. -/
theorem kernel_value (c : Dev nD) : W5 m ρ c (Proc.devRef .tc main_v11)
    = shapeCast S1024x3x64x64 (Cert.Spec.img (xfOf m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) shapeCasts_S1024x12288_S1024x3x64x64 := by
  show StableHlo.after hostOps2 (W4 m ρ c) (Proc.devRef .tc main_v11) = _
  after_results
  rw [show W4 m ρ c (Proc.devRef .tc main_v10) = Cert.Spec.img (xfOf m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) from
    ((W4_arr m ρ c 3).trans (final1 (V3 m ρ) c)).trans (G1_eq m ρ c)]
  rfl

end

end Cert.KernelIdeal.Hand

end
-- ==== Proof.RefValue.lean ====
import proofs.«111944_g88321707475356_cont_sun_m_1037_20_alg».proof.Proof.Gen.ReferenceIdeal.Run
import proofs.«111944_g88321707475356_cont_sun_m_1037_20_alg».proof.Proof.Gen.ReferenceIdeal.Read
import proofs.«111944_g88321707475356_cont_sun_m_1037_20_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-! ## Sums over a range that is two ranges laid end to end -/

/-- A sum over the first `a + b` naturals is the sum over the first `a` plus the sum over the next `b`. -/
theorem sum_split {M : Type*} [AddCommMonoid M] (a b : Nat) (f : Fin (a + b) → M) :
    ∑ k, f k = (∑ k : Fin a, f ⟨k.val, by omega⟩) + ∑ t : Fin b, f ⟨a + t.val, by omega⟩ :=
  Fin.sum_univ_add f

/-- The 12305 columns of the encoder's input are the 12288 image columns followed by the 17 label columns. -/
theorem sum_12305 (f : Fin 12305 → EReal) :
    ∑ k, f k = (∑ k : Fin 12288, f ⟨k.val, by omega⟩) + ∑ t : Fin 17, f ⟨12288 + t.val, by omega⟩ :=
  sum_split 12288 17 f

/-- The 145 columns of the decoder's input are the 128 latent columns followed by the 17 label columns. -/
theorem sum_145 (f : Fin 145 → EReal) :
    ∑ k, f k = (∑ k : Fin 128, f ⟨k.val, by omega⟩) + ∑ t : Fin 17, f ⟨128 + t.val, by omega⟩ :=
  sum_split 128 17 f

/-! ## The outlined softplus is the specification's -/

/-- Subtracting the extended real zero changes nothing. -/
theorem ereal_sub_zero (a : EReal) : a - 0 = a := by
  rw [sub_eq_add_neg, neg_zero, add_zero]

/-- The reference's softplus on one value: its guard compares a value with itself, so the second branch is taken,
    and that branch is `max a 0 + log (1 + e^(-|a|))`. -/
theorem softplus_scalar (a : EReal) :
    Scalar.select (Ideal.cmp .une (a - 0) (a - 0)) (a + 0)
      (max a 0 + Ideal.log1p (Ideal.exp (-(max (a - 0) (-(a - 0)))))) = Cert.Spec.sp a := by
  rw [ereal_sub_zero]
  have hc : Ideal.cmp .une a a = 0#1 := by
    unfold Ideal.cmp
    simp
  rw [hc, select_zero]
  rfl

section
variable (x0 : (⟨S1024x3x64x64, .f32⟩ : BufTy).Contents (Elt Ideal)) (x1 : (⟨S1024x17, .f32⟩ : BufTy).Contents (Elt Ideal))
  (x2 : (⟨S1024x128, .f32⟩ : BufTy).Contents (Elt Ideal)) (x3 : (⟨S12305x1024, .f32⟩ : BufTy).Contents (Elt Ideal))
  (x4 : (⟨S1024, .f32⟩ : BufTy).Contents (Elt Ideal)) (x5 : (⟨S1024x128, .f32⟩ : BufTy).Contents (Elt Ideal))
  (x6 : (⟨S128, .f32⟩ : BufTy).Contents (Elt Ideal)) (x7 : (⟨S1024x128, .f32⟩ : BufTy).Contents (Elt Ideal))
  (x8 : (⟨S128, .f32⟩ : BufTy).Contents (Elt Ideal)) (x9 : (⟨S145x1024, .f32⟩ : BufTy).Contents (Elt Ideal))
  (x10 : (⟨S1024, .f32⟩ : BufTy).Contents (Elt Ideal)) (x11 : (⟨S1024x12288, .f32⟩ : BufTy).Contents (Elt Ideal))
  (x12 : (⟨S12288, .f32⟩ : BufTy).Contents (Elt Ideal))

/-! ## The two concatenations read at an index -/

/-- The encoder's input `[xf, y]` at an image column is the flattened image there. -/
theorem v1_left (p : Fin 1024) (k : Fin 12288) :
    val_main_v1 (F := Ideal) x0 x1 (ix2 p (⟨k.val, by omega⟩ : Fin 12305)) = val_main_v0 (F := Ideal) x0 (ix2 p k) := by
  unfold val_main_v1
  exact concatenate_pair_apply_left (1 : Fin S1024x12305.rank) _ _ concatenates_S1024x12288_S1024x17_S1024x12305_d1
    (ix2 p (⟨k.val, by omega⟩ : Fin 12305)) rfl (ix2 p k) (fun b => match b with | ⟨0, _⟩ => rfl | ⟨1, _⟩ => rfl)

/-- The encoder's input `[xf, y]` at column `12288 + t` is the label's column `t`. -/
theorem v1_right (p : Fin 1024) (t : Fin 17) :
    val_main_v1 (F := Ideal) x0 x1 (ix2 p (⟨12288 + t.val, by omega⟩ : Fin 12305)) = x1 (ix2 p t) := by
  unfold val_main_v1
  exact concatenate_pair_apply_right (1 : Fin S1024x12305.rank) _ _ concatenates_S1024x12288_S1024x17_S1024x12305_d1
    (ix2 p (⟨12288 + t.val, by omega⟩ : Fin 12305)) rfl rfl (ix2 p t)
    (fun b hb => match b, hb with | ⟨0, _⟩, _ => rfl | ⟨1, _⟩, hb => absurd rfl hb)
    (by show t.val + 12288 = 12288 + t.val; omega)

/-- The decoder's input `[z, y]` at a latent column is the latent sample there. -/
theorem v18_left (p : Fin 1024) (k : Fin 128) :
    val_main_v18 (F := Ideal) x0 x1 x2 x3 x4 x5 x6 x7 x8 (ix2 p (⟨k.val, by omega⟩ : Fin 145))
      = val_main_v17 (F := Ideal) x0 x1 x2 x3 x4 x5 x6 x7 x8 (ix2 p k) := by
  unfold val_main_v18
  exact concatenate_pair_apply_left (1 : Fin S1024x145.rank) _ _ concatenates_S1024x128_S1024x17_S1024x145_d1
    (ix2 p (⟨k.val, by omega⟩ : Fin 145)) rfl (ix2 p k) (fun b => match b with | ⟨0, _⟩ => rfl | ⟨1, _⟩ => rfl)

/-- The decoder's input `[z, y]` at column `128 + t` is the label's column `t`. -/
theorem v18_right (p : Fin 1024) (t : Fin 17) :
    val_main_v18 (F := Ideal) x0 x1 x2 x3 x4 x5 x6 x7 x8 (ix2 p (⟨128 + t.val, by omega⟩ : Fin 145)) = x1 (ix2 p t) := by
  unfold val_main_v18
  exact concatenate_pair_apply_right (1 : Fin S1024x145.rank) _ _ concatenates_S1024x128_S1024x17_S1024x145_d1
    (ix2 p (⟨128 + t.val, by omega⟩ : Fin 145)) rfl rfl (ix2 p t)
    (fun b hb => match b, hb with | ⟨0, _⟩, _ => rfl | ⟨1, _⟩, hb => absurd rfl hb)
    (by show t.val + 128 = 128 + t.val; omega)

/-! ## The encoder's hidden layer -/

/-- The row and column a product of the encoder's matrix multiplication reads, by coordinates. -/
theorem lidx_v2 (p j : Fin 1024) (k : Fin 12305) : lidx_main_v2 (ix2 p j) k = ix2 p k :=
  funext fun a => match a with | ⟨0, _⟩ => rfl | ⟨1, _⟩ => rfl
theorem ridx_v2 (p j : Fin 1024) (k : Fin 12305) : ridx_main_v2 (ix2 p j) k = ix2 k j :=
  funext fun a => match a with | ⟨0, _⟩ => rfl | ⟨1, _⟩ => rfl

/-- The encoder's bias, broadcast down the rows, at row `p`, unit `j`. -/
theorem v4_at (p j : Fin 1024) : val_main_v4 (F := Ideal) x4 (ix2 p j) = x4 (ix1 j) := by
  rw [val_main_v4_apply, val_main_v3_apply]
  exact congrArg x4 (funext fun a => match a with | ⟨0, _⟩ => rfl)

/-- The encoder's pre-activation: the sum over all 12305 columns plus the bias is the sum over the image columns,
    plus the bias, plus the sum over the label columns. -/
theorem v5_at (p j : Fin 1024) :
    val_main_v5 (F := Ideal) x0 x1 x3 x4 (ix2 p j) =
      ((∑ k : Fin 12288, val_main_v0 (F := Ideal) x0 (ix2 p k) * x3 (ix2 (⟨k.val, by omega⟩ : Fin 12305) j)) + x4 (ix1 j))
        + ∑ t : Fin 17, x1 (ix2 p t) * x3 (ix2 (⟨12288 + t.val, by omega⟩ : Fin 12305) j) := by
  have h5 : val_main_v5 (F := Ideal) x0 x1 x3 x4 (ix2 p j)
      = val_main_v2 (F := Ideal) x0 x1 x3 (ix2 p j) + val_main_v4 (F := Ideal) x4 (ix2 p j) := rfl
  rw [h5, val_main_v2_apply, v4_at, sum_12305]
  simp only [lidx_v2, ridx_v2, v1_left, v1_right]
  exact add_right_comm _ _ _

/-- The first call of the softplus, at any index, is the specification's softplus of the pre-activation. -/
theorem v6_eq_sp (i : S1024x1024.Idx) :
    val_main_v6 (F := Ideal) x0 x1 x3 x4 i = Cert.Spec.sp (val_main_v5 (F := Ideal) x0 x1 x3 x4 i) := by
  rw [val_main_v6_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  generalize val_main_v5 (F := Ideal) x0 x1 x3 x4 i = a
  simp only [Ideal.ofBits_def, Ideal.ofBits_zero_f32, Ideal.cmpf_def, Ideal.addf_def, Ideal.subf_def, Ideal.maximumf_def,
    Ideal.hostAbsf_def, Ideal.absf_def, Ideal.hostNegf_def, Ideal.negf_def, Ideal.hostUnary_exp_def, Ideal.hostUnary_log1p_def]
  exact softplus_scalar a

/-- The encoder's hidden layer is the specification's. -/
theorem v6_at (p j : Fin 1024) :
    val_main_v6 (F := Ideal) x0 x1 x3 x4 (ix2 p j) = Cert.Spec.hid (val_main_v0 (F := Ideal) x0) x1 x3 x4 p j := by
  rw [v6_eq_sp, v5_at]
  rfl

/-! ## The latent location, log-scale and sample -/

theorem lidx_v7 (p : Fin 1024) (z : Fin 128) (k : Fin 1024) : lidx_main_v7 (ix2 p z) k = ix2 p k :=
  funext fun a => match a with | ⟨0, _⟩ => rfl | ⟨1, _⟩ => rfl
theorem ridx_v7 (p : Fin 1024) (z : Fin 128) (k : Fin 1024) : ridx_main_v7 (ix2 p z) k = ix2 k z :=
  funext fun a => match a with | ⟨0, _⟩ => rfl | ⟨1, _⟩ => rfl
theorem lidx_v11 (p : Fin 1024) (z : Fin 128) (k : Fin 1024) : lidx_main_v11 (ix2 p z) k = ix2 p k :=
  funext fun a => match a with | ⟨0, _⟩ => rfl | ⟨1, _⟩ => rfl
theorem ridx_v11 (p : Fin 1024) (z : Fin 128) (k : Fin 1024) : ridx_main_v11 (ix2 p z) k = ix2 k z :=
  funext fun a => match a with | ⟨0, _⟩ => rfl | ⟨1, _⟩ => rfl

/-- The location's bias, broadcast down the rows. -/
theorem v9_at (p : Fin 1024) (z : Fin 128) : val_main_v9 (F := Ideal) x6 (ix2 p z) = x6 (ix1 z) := by
  rw [val_main_v9_apply, val_main_v8_apply]
  exact congrArg x6 (funext fun a => match a with | ⟨0, _⟩ => rfl)

/-- The log-scale's bias, broadcast down the rows. -/
theorem v13_at (p : Fin 1024) (z : Fin 128) : val_main_v13 (F := Ideal) x8 (ix2 p z) = x8 (ix1 z) := by
  rw [val_main_v13_apply, val_main_v12_apply]
  exact congrArg x8 (funext fun a => match a with | ⟨0, _⟩ => rfl)

/-- The latent location is the specification's. -/
theorem v10_at (p : Fin 1024) (z : Fin 128) :
    val_main_v10 (F := Ideal) x0 x1 x3 x4 x5 x6 (ix2 p z)
      = Cert.Spec.zloc (val_main_v0 (F := Ideal) x0) x1 x3 x4 x5 x6 p z := by
  have h : val_main_v10 (F := Ideal) x0 x1 x3 x4 x5 x6 (ix2 p z)
      = val_main_v7 (F := Ideal) x0 x1 x3 x4 x5 (ix2 p z) + val_main_v9 (F := Ideal) x6 (ix2 p z) := rfl
  rw [h, val_main_v7_apply, v9_at]
  simp only [lidx_v7, ridx_v7, v6_at]
  rfl

/-- The latent log-scale is the specification's. -/
theorem v14_at (p : Fin 1024) (z : Fin 128) :
    val_main_v14 (F := Ideal) x0 x1 x3 x4 x7 x8 (ix2 p z)
      = Cert.Spec.zls (val_main_v0 (F := Ideal) x0) x1 x3 x4 x7 x8 p z := by
  have h : val_main_v14 (F := Ideal) x0 x1 x3 x4 x7 x8 (ix2 p z)
      = val_main_v11 (F := Ideal) x0 x1 x3 x4 x7 (ix2 p z) + val_main_v13 (F := Ideal) x8 (ix2 p z) := rfl
  rw [h, val_main_v11_apply, v13_at]
  simp only [lidx_v11, ridx_v11, v6_at]
  rfl

/-- The latent sample, location plus the exponential of the log-scale times the noise, is the specification's. -/
theorem v17_at (p : Fin 1024) (z : Fin 128) :
    val_main_v17 (F := Ideal) x0 x1 x2 x3 x4 x5 x6 x7 x8 (ix2 p z)
      = Cert.Spec.lat (val_main_v0 (F := Ideal) x0) x1 x2 x3 x4 x5 x6 x7 x8 p z := by
  have h : val_main_v17 (F := Ideal) x0 x1 x2 x3 x4 x5 x6 x7 x8 (ix2 p z)
      = val_main_v10 (F := Ideal) x0 x1 x3 x4 x5 x6 (ix2 p z)
        + Ideal.exp (val_main_v14 (F := Ideal) x0 x1 x3 x4 x7 x8 (ix2 p z)) * x2 (ix2 p z) := rfl
  rw [h, v10_at, v14_at]
  rfl

/-! ## The decoder's hidden layer -/

theorem lidx_v19 (p j : Fin 1024) (k : Fin 145) : lidx_main_v19 (ix2 p j) k = ix2 p k :=
  funext fun a => match a with | ⟨0, _⟩ => rfl | ⟨1, _⟩ => rfl
theorem ridx_v19 (p j : Fin 1024) (k : Fin 145) : ridx_main_v19 (ix2 p j) k = ix2 k j :=
  funext fun a => match a with | ⟨0, _⟩ => rfl | ⟨1, _⟩ => rfl

/-- The decoder's bias, broadcast down the rows. -/
theorem v21_at (p j : Fin 1024) : val_main_v21 (F := Ideal) x10 (ix2 p j) = x10 (ix1 j) := by
  rw [val_main_v21_apply, val_main_v20_apply]
  exact congrArg x10 (funext fun a => match a with | ⟨0, _⟩ => rfl)

/-- The decoder's pre-activation: the sum over all 145 columns is the sum over the latent columns plus the sum over the
    label columns; then the bias. -/
theorem v22_at (p j : Fin 1024) :
    val_main_v22 (F := Ideal) x0 x1 x2 x3 x4 x5 x6 x7 x8 x9 x10 (ix2 p j) =
      ((∑ k : Fin 128, Cert.Spec.lat (val_main_v0 (F := Ideal) x0) x1 x2 x3 x4 x5 x6 x7 x8 p k
            * x9 (ix2 (⟨k.val, by omega⟩ : Fin 145) j))
        + ∑ t : Fin 17, x1 (ix2 p t) * x9 (ix2 (⟨128 + t.val, by omega⟩ : Fin 145) j)) + x10 (ix1 j) := by
  have h : val_main_v22 (F := Ideal) x0 x1 x2 x3 x4 x5 x6 x7 x8 x9 x10 (ix2 p j)
      = val_main_v19 (F := Ideal) x0 x1 x2 x3 x4 x5 x6 x7 x8 x9 (ix2 p j) + val_main_v21 (F := Ideal) x10 (ix2 p j) := rfl
  rw [h, val_main_v19_apply, v21_at, sum_145]
  simp only [lidx_v19, ridx_v19, v18_left, v18_right, v17_at]

/-- The second call of the softplus, at any index, is the specification's softplus of the pre-activation. -/
theorem v23_eq_sp (i : S1024x1024.Idx) :
    val_main_v23 (F := Ideal) x0 x1 x2 x3 x4 x5 x6 x7 x8 x9 x10 i
      = Cert.Spec.sp (val_main_v22 (F := Ideal) x0 x1 x2 x3 x4 x5 x6 x7 x8 x9 x10 i) := by
  rw [val_main_v23_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply]
  generalize val_main_v22 (F := Ideal) x0 x1 x2 x3 x4 x5 x6 x7 x8 x9 x10 i = a
  simp only [Ideal.ofBits_def, Ideal.ofBits_zero_f32, Ideal.cmpf_def, Ideal.addf_def, Ideal.subf_def, Ideal.maximumf_def,
    Ideal.hostAbsf_def, Ideal.absf_def, Ideal.hostNegf_def, Ideal.negf_def, Ideal.hostUnary_exp_def, Ideal.hostUnary_log1p_def]
  exact softplus_scalar a

/-- The decoder's hidden layer is the specification's. -/
theorem v23_at (p j : Fin 1024) :
    val_main_v23 (F := Ideal) x0 x1 x2 x3 x4 x5 x6 x7 x8 x9 x10 (ix2 p j)
      = Cert.Spec.hid2 (val_main_v0 (F := Ideal) x0) x1 x2 x3 x4 x5 x6 x7 x8 x9 x10 p j := by
  rw [v23_eq_sp, v22_at]
  rfl

/-! ## The image means -/

theorem lidx_v24 (p : Fin 1024) (n : Fin 12288) (k : Fin 1024) : lidx_main_v24 (ix2 p n) k = ix2 p k :=
  funext fun a => match a with | ⟨0, _⟩ => rfl | ⟨1, _⟩ => rfl
theorem ridx_v24 (p : Fin 1024) (n : Fin 12288) (k : Fin 1024) : ridx_main_v24 (ix2 p n) k = ix2 k n :=
  funext fun a => match a with | ⟨0, _⟩ => rfl | ⟨1, _⟩ => rfl

/-- The output bias, broadcast down the rows. -/
theorem v26_at (p : Fin 1024) (n : Fin 12288) : val_main_v26 (F := Ideal) x12 (ix2 p n) = x12 (ix1 n) := by
  rw [val_main_v26_apply, val_main_v25_apply]
  exact congrArg x12 (funext fun a => match a with | ⟨0, _⟩ => rfl)

/-- The single-precision word of the constant one denotes the extended real one. -/
theorem ofBits_one_f32 : Ideal.ofBits .f32 0x3F800000#32 = 1 := by
  simp [Ideal.ofBits, Ideal.ieee, -EReal.coe_mul]; norm_num

/-- The reference spells the logistic as `1 / (1 + e^(-a))`, which is the logistic by definition. -/
theorem v33_eq_logistic (i : S1024x12288.Idx) :
    val_main_v33 (F := Ideal) x0 x1 x2 x3 x4 x5 x6 x7 x8 x9 x10 x11 x12 i = Ideal.logistic (val_main_v27 (F := Ideal) x0 x1 x2 x3 x4 x5 x6 x7 x8 x9 x10 x11 x12 i) := by
  rw [val_main_v33_apply, val_main_v32_apply, val_main_cst_0_apply, val_main_v31_apply, val_main_v30_apply,
    val_main_cst_apply, val_main_v29_apply, val_main_v28_apply]
  generalize val_main_v27 (F := Ideal) x0 x1 x2 x3 x4 x5 x6 x7 x8 x9 x10 x11 x12 i = a
  simp only [Ideal.ofBits_def, ofBits_one_f32, Ideal.hostDivf_def, Ideal.addf_def, Ideal.hostUnary_exp_def,
    Ideal.hostNegf_def, Ideal.negf_def]
  rfl

/-- The image means at row `p`, pixel `n` are the specification's. -/
theorem v33_at (p : Fin 1024) (n : Fin 12288) :
    val_main_v33 (F := Ideal) x0 x1 x2 x3 x4 x5 x6 x7 x8 x9 x10 x11 x12 (ix2 p n)
      = Cert.Spec.img (val_main_v0 (F := Ideal) x0) x1 x2 x3 x4 x5 x6 x7 x8 x9 x10 x11 x12 (ix2 p n) := by
  rw [v33_eq_logistic]
  have h : val_main_v27 (F := Ideal) x0 x1 x2 x3 x4 x5 x6 x7 x8 x9 x10 x11 x12 (ix2 p n)
      = val_main_v24 (F := Ideal) x0 x1 x2 x3 x4 x5 x6 x7 x8 x9 x10 x11 (ix2 p n) + val_main_v26 (F := Ideal) x12 (ix2 p n) := rfl
  rw [h, val_main_v24_apply, v26_at]
  simp only [lidx_v24, ridx_v24, v23_at]
  rfl

/-- MAIN. The reference's array of image means, before its last reshape, is the specification's network of the
    arguments (the image taken already flattened). -/
theorem main :
    val_main_v33 (F := Ideal) x0 x1 x2 x3 x4 x5 x6 x7 x8 x9 x10 x11 x12
      = Cert.Spec.img (val_main_v0 (F := Ideal) x0) x1 x2 x3 x4 x5 x6 x7 x8 x9 x10 x11 x12 := by
  funext i
  obtain ⟨p, n, rfl⟩ : ∃ (p : Fin 1024) (n : Fin 12288), i = ix2 p n := ⟨i 0, i 1, eq_ix2 i⟩
  exact v33_at x0 x1 x2 x3 x4 x5 x6 x7 x8 x9 x10 x11 x12 p n

/-- The reference's result is the specification's network, reshaped to 1024×3×64×64. -/
theorem result :
    val_main_v34 (F := Ideal) x0 x1 x2 x3 x4 x5 x6 x7 x8 x9 x10 x11 x12
      = shapeCast _ (Cert.Spec.img (val_main_v0 (F := Ideal) x0) x1 x2 x3 x4 x5 x6 x7 x8 x9 x10 x11 x12)
          shapeCasts_S1024x12288_S1024x3x64x64 := by
  unfold val_main_v34
  rw [main]

end

end Cert.ReferenceIdeal.RefValue

end
-- ==== Proof.lean ====
/- Both programs compute a conditional variational autoencoder's forward pass on 1024 images: the encoder's hidden
   layer is the softplus of the flattened image and the label against the encoder weights plus a bias; the latent
   sample is the location plus the exponential of the log-scale times the noise; the decoder's hidden layer is the
   softplus of the sample and the label against the decoder weights plus a bias; the result is the logistic of that
   layer against the output weights plus a bias, reshaped to the image's shape.
   The kernel program does it in two gridded kernels. The first keeps a narrowed copy of the encoder weights'
   first 12288 rows resident, filled one slab of 1024 rows per grid point over its first twelve points, and over its
   last eight points computes 128 rows of the decoder's hidden layer each, multiplying the image part and the label
   part of each concatenated product separately. The second multiplies the hidden layer by one tile of 1024 columns
   of the output weights per point. On the extended reals narrowing is the identity, a matrix product is its sum, and
   the sum over a concatenation's columns is the sum over the first part plus the sum over the label's 17 columns —
   addition there is commutative and associative whatever the summands — so both programs compute one function of
   the arguments (Proof/Spec.lean).
   The frames: the kernel program's run is followed through its five stretches with every buffer's contents named at
   each boundary (Proof/Run.lean), the first kernel's invariant saying of the resident copy only that the slabs of
   the points already run are in place; every argument reads back to the launch memory. The same text serves the
   word-level program and the idealized one. The reference's frame is its run with the result dropped. -/
import proofs.«111944_g88321707475356_cont_sun_m_1037_20_alg».proof.Defs
import proofs.«111944_g88321707475356_cont_sun_m_1037_20_alg».proof.Proof.Gen.Kernel
import proofs.«111944_g88321707475356_cont_sun_m_1037_20_alg».proof.Proof.Gen.KernelIdeal
import proofs.«111944_g88321707475356_cont_sun_m_1037_20_alg».proof.Proof.Gen.ReferenceIdeal
import proofs.«111944_g88321707475356_cont_sun_m_1037_20_alg».proof.Proof.Gen.Pre_finite_inputs
import proofs.«111944_g88321707475356_cont_sun_m_1037_20_alg».proof.Proof.KFrames
import proofs.«111944_g88321707475356_cont_sun_m_1037_20_alg».proof.Proof.KernelResult
import proofs.«111944_g88321707475356_cont_sun_m_1037_20_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification's network of those
    arguments, reshaped to the image's shape. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Hand.kernel_value m ρ c), (h c).2⟩)
    (Cert.KernelIdeal.Hand.run_result m ρ), ?_⟩
  refine (θ_run Cert.ReferenceIdeal.defs _ _).mono (fun r h c => ⟨?_, (h c).2⟩) (Cert.ReferenceIdeal.Value.run (F := Ideal) m' ρ')
  rw [(h c).1, Cert.ReferenceIdeal.Read.val_main_v34_eq, Cert.ReferenceIdeal.RefValue.result]
  obtain ⟨a0, a1, a2, a3, a4, a5, a6, a7, a8, a9, a10, a11, a12⟩ := hagree c
  rw [a0, a1, a2, a3, a4, a5, a6, a7, a8, a9, a10, a11, a12]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
